-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S100000 : Shape := ⟨1, ![100000]⟩
abbrev S256x128 : Shape := ⟨2, ![256, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg9 : FVec F S128x32 .f32) (main_arg10 : FVec F S32 .f32) (main_arg11 : FVec F S32x2 .f32) (main_arg12 : FVec F S2 .f32) (main_v33 : IVec S_ 1) : IVec S_ 1 :=
  let main_v34 : FVec F S128x32 .f32 := Host.absf main_arg9
  let main_cst_12 : FVec F S_ .f32 := constant S_ .f32 0x7F800000#32
  let main_v35 : FVec F S128x32 .f32 := broadcastInDim S128x32 ![] bcast_S_S128x32 main_cst_12
  let main_v36 : IVec S128x32 1 := cmpf .olt main_v34 main_v35
  let main_c_13 : IVec S_ 1 := constantI S_ 1 1#1
  let main_v37 : IVec S_ 1 := (fun x v => Host.reduce IntOp.andi x v reducesTo_S128x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x2 .f32 := Host.absf main_arg11
  let main_cst_16 : FVec F S_ .f32 := constant S_ .f32 0x7F800000#32
  let main_v45 : FVec F S32x2 .f32 := broadcastInDim S32x2 ![] bcast_S_S32x2 main_cst_16
  let main_v46 : IVec S32x2 1 := cmpf .olt main_v44 main_v45
  let main_c_17 : IVec S_ 1 := constantI S_ 1 1#1
  let main_v47 : IVec S_ 1 := (fun x v => Host.reduce IntOp.andi x v reducesTo_S32x2_S_d0_1 h_S_) main_v46 main_c_17
  let main_v48 : IVec S_ 1 := andi main_v43 main_v47
  let main_v49 : FVec F S2 .f32 := Host.absf main_arg12
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x32 .f32) (main_arg10 : FVec F S32 .f32) (main_arg11 : FVec F S32x2 .f32) (main_arg12 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x256 .f32) (main_arg1 : IVec S2x1600000 32) (main_arg2 : IVec S100000 32) (main_arg3 : FVec F S256x128 .f32) (main_arg4 : FVec F S128 .f32) (main_arg5 : FVec F S128x128 .f32) (main_arg6 : FVec F S128 .f32) (main_arg7 : FVec F S128x128 .f32) (main_arg8 : FVec F S128 .f32) (main_arg9 : FVec F S128x32 .f32) (main_arg10 : FVec F S32 .f32) (main_arg11 : FVec F S32x2 .f32) (main_arg12 : FVec F S2 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S100000x256 : Shape := ⟨2, ![100000, 256]⟩
abbrev S2x1600000 : Shape := ⟨2, ![2, 1600000]⟩
abbrev S100000 : Shape := ⟨1, ![100000]⟩
abbrev S256x128 : Shape := ⟨2, ![256, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S32x2 : Shape := ⟨2, ![32, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S10000x256 : Shape := ⟨2, ![10000, 256]⟩
abbrev S10000x128 : Shape := ⟨2, ![10000, 128]⟩
abbrev S1700000x128 : Shape := ⟨2, ![1700000, 128]⟩
abbrev S1x128 : Shape := ⟨2, ![1, 128]⟩
abbrev S1000x128 : Shape := ⟨2, ![1000, 128]⟩
abbrev S100000x1 : Shape := ⟨2, ![100000, 1]⟩
abbrev S1000 : Shape := ⟨1, ![1000]⟩
abbrev S1000x1 : Shape := ⟨2, ![1000, 1]⟩
abbrev S1x32 : Shape := ⟨2, ![1, 32]⟩
abbrev S1x2 : Shape := ⟨2, ![1, 2]⟩
abbrev S1000x2 : Shape := ⟨2, ![1000, 2]⟩
abbrev S1000x32 : Shape := ⟨2, ![1000, 32]⟩

abbrev nBuf : Space → Nat
  | .hbm => 125
  | .vmem => 28
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S100000, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x32, .f32⟩
  | .hbm, ⟨10, _⟩ => ⟨S32, .f32⟩
  | .hbm, ⟨11, _⟩ => ⟨S32x2, .f32⟩
  | .hbm, ⟨12, _⟩ => ⟨S2, .f32⟩
  | .hbm, ⟨13, _⟩ => ⟨S100000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S1x1600000, .i32⟩
  | .hbm, ⟨18, _⟩ => ⟨S1600000, .i32⟩
  | .hbm, ⟨19, _⟩ => ⟨S1700000, .i32⟩
  | .hbm, ⟨20, _⟩ => ⟨S_, .f32⟩
  | .hbm, ⟨21, _⟩ => ⟨S1700000, .f32⟩
  | .hbm, ⟨22, _⟩ => ⟨S_, .f32⟩
  | .hbm, ⟨23, _⟩ => ⟨S100000, .f32⟩
  | .hbm, ⟨24, _⟩ => ⟨S1700000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S1700000x1, .f32⟩
  | .hbm, ⟨54, _⟩ => ⟨S100000x128, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x128, .f32⟩
  | .hbm, ⟨64, _⟩ => ⟨S1700000x128, .f32⟩
  | .hbm, ⟨65, _⟩ => ⟨S1700000x128, .f32⟩
  | .hbm, ⟨66, _⟩ => ⟨S_, .f32⟩
  | .hbm, ⟨67, _⟩ => ⟨S100000x128, .f32⟩
  | .hbm, ⟨68, _⟩ => ⟨S1700000x1, .i32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x128, .f32⟩
  | .hbm, ⟨81, _⟩ => ⟨S1700000x128, .f32⟩
  | .hbm, ⟨82, _⟩ => ⟨S1700000x128, .f32⟩
  | .hbm, ⟨83, _⟩ => ⟨S_, .f32⟩
  | .hbm, ⟨84, _⟩ => ⟨S100000x128, .f32⟩
  | .hbm, ⟨85, _⟩ => ⟨S1700000x1, .i32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000x128, .f32⟩
  | .hbm, ⟨98, _⟩ => ⟨S1700000x128, .f32⟩
  | .hbm, ⟨99, _⟩ => ⟨S1700000x128, .f32⟩
  | .hbm, ⟨100, _⟩ => ⟨S_, .f32⟩
  | .hbm, ⟨101, _⟩ => ⟨S100000x128, .f32⟩
  | .hbm, ⟨102, _⟩ => ⟨S1700000x1, .i32⟩
  | .hbm, ⟨103, _⟩ => ⟨S100000x128, .f32⟩
  | .hbm, ⟨104, _⟩ => ⟨S1x128, .f32⟩
  | .hbm, ⟨105, _⟩ => ⟨S100000x128, .f32⟩
  | .hbm, ⟨106, _⟩ => ⟨S_, .f32⟩
  | .hbm, ⟨107, _⟩ => ⟨S1000x128, .f32⟩
  | .hbm, ⟨108, _⟩ => ⟨S100000x1, .i32⟩
  | .hbm, ⟨109, _⟩ => ⟨S1000x128, .f32⟩
  | .hbm, ⟨110, _⟩ => ⟨S_, .f32⟩
  | .hbm, ⟨111, _⟩ => ⟨S100000, .f32⟩
  | .hbm, ⟨112, _⟩ => ⟨S_, .f32⟩
  | .hbm, ⟨113, _⟩ => ⟨S1000, .f32⟩
  | .hbm, ⟨114, _⟩ => ⟨S100000x1, .i32⟩
  | .hbm, ⟨115, _⟩ => ⟨S1000, .f32⟩
  | .hbm, ⟨116, _⟩ => ⟨S_, .f32⟩
  | .hbm, ⟨117, _⟩ => ⟨S1000, .f32⟩
  | .hbm, ⟨118, _⟩ => ⟨S1000, .f32⟩
  | .hbm, ⟨119, _⟩ => ⟨S1000x1, .f32⟩
  | .hbm, ⟨120, _⟩ => ⟨S1000x128, .f32⟩
  | .hbm, ⟨121, _⟩ => ⟨S1000x128, .f32⟩
  | .hbm, ⟨122, _⟩ => ⟨S1x32, .f32⟩
  | .hbm, ⟨123, _⟩ => ⟨S1x2, .f32⟩
  | .hbm, ⟨124, _⟩ => ⟨S1000x2, .f32⟩
  | .local _ .vmem, ⟨0, _⟩ => ⟨S10000x256, .f32⟩
  | .local _ .vmem, ⟨1, _⟩ => ⟨S10000x256, .f32⟩
  | .local _ .vmem, ⟨2, _⟩ => ⟨S256x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S128x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S1x128, .f32⟩
  | .local _ .vmem, ⟨20, _⟩ => ⟨S10000x128, .f32⟩
  | .local _ .vmem, ⟨21, _⟩ => ⟨S10000x128, .f32⟩
  | .local _ .vmem, ⟨22, _⟩ => ⟨S1000x128, .f32⟩
  | .local _ .vmem, ⟨23, _⟩ => ⟨S128x32, .f32⟩
  | .local _ .vmem, ⟨24, _⟩ => ⟨S1x32, .f32⟩
  | .local _ .vmem, ⟨25, _⟩ => ⟨S32x2, .f32⟩
  | .local _ .vmem, ⟨26, _⟩ => ⟨S1x2, .f32⟩
  | .local _ .vmem, ⟨27, _⟩ => ⟨S1000x2, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_c_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_9 : Ref sig .tc := ⟨.hbm, 72, rfl⟩
abbrev main_v46 : Ref sig .tc := ⟨.hbm, 73, rfl⟩
abbrev main_v47 : Ref sig .tc := ⟨.hbm, 74, rfl⟩
abbrev main_c_10 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_11 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_12 : Ref sig .tc := ⟨.hbm, 89, rfl⟩
abbrev main_v60 : Ref sig .tc := ⟨.hbm, 90, rfl⟩
abbrev main_v61 : Ref sig .tc := ⟨.hbm, 91, rfl⟩
abbrev main_c_13 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_14 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_16 : Ref sig .tc := ⟨.hbm, 110, rfl⟩
abbrev main_v77 : Ref sig .tc := ⟨.hbm, 111, rfl⟩
abbrev main_cst_17 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_18 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg4_0 : Ref sig .tc := ⟨.vmem, 26, rfl⟩
abbrev cc4_stg5_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem1_0 : DmaSem sig := 23
abbrev cc4_sem2_0 : DmaSem sig := 24
abbrev cc4_sem3_0 : DmaSem sig := 25
abbrev cc4_sem4_0 : DmaSem sig := 26
abbrev cc4_sem5_0 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1000x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x2 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1000x2 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S10000x128_S10000x128_0_0 : ∀ a, (![0, 0] : Fin 2 → Nat) a + S10000x128.size a ≤ S10000x128.size a
  h_S10000x128 : 0 < S10000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x128_S128x128_0_0 : ∀ a, (![0, 0] : Fin 2 → Nat) a + S128x128.size a ≤ S128x128.size a
  h_S128x128 : 0 < S128x128.numel
  bcast_S_S1000x128 : S_.BroadcastsInDim S1000x128 (![] : Fin 0 → Fin S1000x128.rank)
  bcast_S100000_S100000x1_0 : S100000.BroadcastsInDim S100000x1 (![0] : Fin 1 → Fin S100000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  shapeCasts_S32_S1x32 : S32.ShapeCasts S1x32
  shapeCasts_S2_S1x2 : S2.ShapeCasts S1x2
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1000x32 : S1x32.Broadcasts S1000x32
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1000x2 : S1x2.Broadcasts S1000x2
  reduces_S1000x2_S1000 : S1000x2.Reduces [1] S1000
  shapeCasts_S1000_S1000x1 : S1000.ShapeCasts S1000x1
  broadcasts_S1000x1_S1000x2 : S1000x1.Broadcasts S1000x2
  inb_S1000x2_S1000x2_0_0 : ∀ a, (![0, 0] : Fin 2 → Nat) a + S1000x2.size a ≤ S1000x2.size a
  h_S1000x2 : 0 < S1000x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x256_S256x128_S10000x128_1_0_0_1_n_n_wf : DotDims.WF S10000x256 S256x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x128_S10000x128_1_0_0_1_n_n_wf : DotDims.WF S10000x128 S128x128 S10000x128 [1] [0] [0] [1] [] []
  scatter_S1000x128_S100000x1_S100000x128_1_0_0_1_wf : ScatterDims.WF S1000x128 S100000x1 S100000x128 [1] [0] [0] 1
  scatter_S1000_S100000x1_S100000_n_0_0_1_wf : ScatterDims.WF S1000 S100000x1 S100000 [] [0] [0] 1
  dot_S1000x128_S128x32_S1000x32_1_0_0_1_n_n_wf : DotDims.WF S1000x128 S128x32 S1000x32 [1] [0] [0] [1] [] []
  dot_S1000x32_S32x2_S1000x2_1_0_0_1_n_n_wf : DotDims.WF S1000x32 S32x2 S1000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S1000x128.size a
  hwx4_0 : ∀ i : grid4.Coords, EltTy.bits .f32 = 32 ∨ (Rect.block (s := S1000x128) S1000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x32.size a ≤ S128x32.size a
  hwx4_1 : ∀ i : grid4.Coords, EltTy.bits .f32 = 32 ∨ (Rect.block (s := S128x32) S128x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x2.size a ≤ S32x2.size a
  hwx4_3 : ∀ i : grid4.Coords, EltTy.bits .f32 = 32 ∨ (Rect.block (s := S32x2) S32x2.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x2.size a ≤ S1x2.size a
  hwx4_4 : ∀ i : grid4.Coords, EltTy.bits .f32 = 32 ∨ (Rect.block (s := S1x2) S1x2.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1000x2.size a ≤ S1000x2.size a
  hwx4_5 : ∀ i : grid4.Coords, EltTy.bits .f32 = 32 ∨ (Rect.block (s := S1000x2) S1000x2.size (cc4_transform_5 i) (hinb4_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S1000x128_S100000x1_S100000x128_1_0_0_1 : ScatterDims S1000x128 S100000x1 S100000x128 where
  updateWindowDims := [1]
  insertedWindowDims := [0]
  scatterDimsToOperandDims := [0]
  indexVectorDim := 1
  wf := scatter_S1000x128_S100000x1_S100000x128_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x128_S128x32_S1000x32_1_0_0_1_n_n : DotDims S1000x128 S128x32 S1000x32 where
  lhsContracting := [1]
  rhsContracting := [0]
  lhsNonContracting := [0]
  rhsNonContracting := [1]
  lhsBatch := []
  rhsBatch := []
  wf := dot_S1000x128_S128x32_S1000x32_1_0_0_1_n_n_wf
def dot_S1000x32_S32x2_S1000x2_1_0_0_1_n_n : DotDims S1000x32 S32x2 S1000x2 where
  lhsContracting := [1]
  rhsContracting := [0]
  lhsNonContracting := [0]
  rhsNonContracting := [1]
  lhsBatch := []
  rhsBatch := []
  wf := dot_S1000x32_S32x2_S1000x2_1_0_0_1_n_n_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v71) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v73) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v85) S1000x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S128x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v86) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg11) S32x2.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v87) S1x2.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v88) S1000x2.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S100000 : Shape := ⟨1, ![100000]⟩
abbrev S256x128 : Shape := ⟨2, ![256, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S32x2 : Shape := ⟨2, ![32, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S1000x128 : Shape := ⟨2, ![1000, 128]⟩
abbrev S100000x1 : Shape := ⟨2, ![100000, 1]⟩
abbrev S1000 : Shape := ⟨1, ![1000]⟩
abbrev S1000x1 : Shape := ⟨2, ![1000, 1]⟩
abbrev S1000x32 : Shape := ⟨2, ![1000, 32]⟩
abbrev S1x32 : Shape := ⟨2, ![1, 32]⟩
abbrev S1000x2 : Shape := ⟨2, ![1000, 2]⟩
abbrev S1x2 : Shape := ⟨2, ![1, 2]⟩

abbrev nBuf : Space → Nat
  | .hbm => 162
  | .vmem => 0
  | .smem => 0
  | _ => 0

abbrev hbmTy0_0 (i : Nat) : BufTy := match i % 128 with
  | 0 => ⟨S100000x256, .f32⟩
  | 1 => ⟨S2x1600000, .i32⟩
  | 2 => ⟨S100000, .i32⟩
  | 3 => ⟨S256x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x32, .f32⟩
  | 10 => ⟨S32, .f32⟩
  | 11 => ⟨S32x2, .f32⟩
  | 12 => ⟨S2, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S1700000x1, .f32⟩
  | 54 => ⟨S100000x128, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x128, .f32⟩
  | 64 => ⟨S1700000x128, .f32⟩
  | 65 => ⟨S1700000x128, .f32⟩
  | 66 => ⟨S_, .f32⟩
  | 67 => ⟨S100000x128, .f32⟩
  | 68 => ⟨S1700000x1, .i32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S100000x128, .f32⟩
  | 77 => ⟨S_, .i32⟩
  | 78 => ⟨S1700000, .i32⟩
  | 79 => ⟨S1700000, .i1⟩
  | 80 => ⟨S_, .i32⟩
  | 81 => ⟨S1700000, .i32⟩
  | 82 => ⟨S1700000, .i32⟩
  | 83 => ⟨S1700000, .i32⟩
  | 84 => ⟨S1700000x1, .i32⟩
  | 85 => ⟨S1700000x128, .f32⟩
  | 86 => ⟨S1700000x128, .f32⟩
  | 87 => ⟨S1700000x128, .f32⟩
  | 88 => ⟨S_, .f32⟩
  | 89 => ⟨S100000x128, .f32⟩
  | 90 => ⟨S1700000x1, .i32⟩
  | 91 => ⟨S100000x128, .f32⟩
  | 92 => ⟨S1x128, .f32⟩
  | 93 => ⟨S100000x128, .f32⟩
  | 94 => ⟨S100000x128, .f32⟩
  | 95 => ⟨S_, .f32⟩
  | 96 => ⟨S100000x128, .f32⟩
  | 97 => ⟨S100000x128, .f32⟩
  | 98 => ⟨S100000x128, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000x128, .f32⟩
  | 108 => ⟨S1700000x128, .f32⟩
  | 109 => ⟨S1700000x128, .f32⟩
  | 110 => ⟨S_, .f32⟩
  | 111 => ⟨S100000x128, .f32⟩
  | 112 => ⟨S1700000x1, .i32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S_, .f32⟩
  | 121 => ⟨S1000x128, .f32⟩
  | 122 => ⟨S100000x1, .i32⟩
  | 123 => ⟨S1000x128, .f32⟩
  | 124 => ⟨S_, .f32⟩
  | 125 => ⟨S100000, .f32⟩
  | 126 => ⟨S_, .f32⟩
  | 127 => ⟨S1000, .f32⟩
  | _ => ⟨S100000x256, .f32⟩

abbrev hbmTy0_1 (i : Nat) : BufTy := match i % 128 with
  | 0 => ⟨S100000x1, .i32⟩
  | 1 => ⟨S1000, .f32⟩
  | 2 => ⟨S_, .f32⟩
  | 3 => ⟨S1000, .f32⟩
  | 4 => ⟨S1000, .f32⟩
  | 5 => ⟨S1000x1, .f32⟩
  | 6 => ⟨S1000x128, .f32⟩
  | 7 => ⟨S1000x128, .f32⟩
  | 8 => ⟨S1000x32, .f32⟩
  | 9 => ⟨S1x32, .f32⟩
  | 10 => ⟨S1000x32, .f32⟩
  | 11 => ⟨S1000x32, .f32⟩
  | 12 => ⟨S_, .f32⟩
  | 13 => ⟨S1000x32, .f32⟩
  | 14 => ⟨S1000x32, .f32⟩
  | 15 => ⟨S1000x2, .f32⟩
  | 16 => ⟨S1x2, .f32⟩
  | 17 => ⟨S1000x2, .f32⟩
  | 18 => ⟨S1000x2, .f32⟩
  | 19 => ⟨S_, .f32⟩
  | 20 => ⟨S1000, .f32⟩
  | 21 => ⟨S_, .f32⟩
  | 22 => ⟨S1000, .f32⟩
  | 23 => ⟨S1000, .f32⟩
  | 24 => ⟨S1000x1, .f32⟩
  | 25 => ⟨S1000x2, .f32⟩
  | 26 => ⟨S1000x2, .f32⟩
  | 27 => ⟨S1000x2, .f32⟩
  | 28 => ⟨S_, .f32⟩
  | 29 => ⟨S1000, .f32⟩
  | 30 => ⟨S1000x1, .f32⟩
  | 31 => ⟨S1000x1, .f32⟩
  | 32 => ⟨S1000x2, .f32⟩
  | 33 => ⟨S1000x2, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_c_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_cst : Ref sig .tc := ⟨.hbm, 73, rfl⟩
abbrev main_call1_v0 : Ref sig .tc := ⟨.hbm, 74, rfl⟩
abbrev main_v47 : Ref sig .tc := ⟨.hbm, 75, rfl⟩
abbrev main_v48 : Ref sig .tc := ⟨.hbm, 76, rfl⟩
abbrev main_c_9 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_11 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_call2_cst : Ref sig .tc := ⟨.hbm, 95, rfl⟩
abbrev main_call2_v0 : Ref sig .tc := ⟨.hbm, 96, rfl⟩
abbrev main_v64 : Ref sig .tc := ⟨.hbm, 97, rfl⟩
abbrev main_v65 : Ref sig .tc := ⟨.hbm, 98, rfl⟩
abbrev main_c_12 : Ref sig .tc := ⟨.hbm, 99, rfl⟩
abbrev main_v66 : Ref sig .tc := ⟨.hbm, 100, rfl⟩
abbrev main_v67 : Ref sig .tc := ⟨.hbm, 101, rfl⟩
abbrev main_c_13 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_14 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_call3_cst : Ref sig .tc := ⟨.hbm, 117, rfl⟩
abbrev main_call3_v0 : Ref sig .tc := ⟨.hbm, 118, rfl⟩
abbrev main_v81 : Ref sig .tc := ⟨.hbm, 119, rfl⟩
abbrev main_cst_15 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_16 : Ref sig .tc := ⟨.hbm, 124, rfl⟩
abbrev main_v85 : Ref sig .tc := ⟨.hbm, 125, rfl⟩
abbrev main_cst_17 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_18 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_call4_cst : Ref sig .tc := ⟨.hbm, 140, rfl⟩
abbrev main_call4_v0 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_call5_cst : Ref sig .tc := ⟨.hbm, 147, rfl⟩
abbrev main_call5_v0 : Ref sig .tc := ⟨.hbm, 148, rfl⟩
abbrev main_call5_cst_0 : Ref sig .tc := ⟨.hbm, 149, rfl⟩
abbrev main_call5_v1 : Ref sig .tc := ⟨.hbm, 150, rfl⟩
abbrev main_call5_v2 : Ref sig .tc := ⟨.hbm, 151, rfl⟩
abbrev main_call5_v3 : Ref sig .tc := ⟨.hbm, 152, rfl⟩
abbrev main_call5_v4 : Ref sig .tc := ⟨.hbm, 153, rfl⟩
abbrev main_call5_v5 : Ref sig .tc := ⟨.hbm, 154, rfl⟩
abbrev main_call5_v6 : Ref sig .tc := ⟨.hbm, 155, rfl⟩
abbrev main_call5_cst_1 : Ref sig .tc := ⟨.hbm, 156, rfl⟩
abbrev main_call5_v7 : Ref sig .tc := ⟨.hbm, 157, rfl⟩
abbrev main_call5_v8 : Ref sig .tc := ⟨.hbm, 158, rfl⟩
abbrev main_call5_v9 : Ref sig .tc := ⟨.hbm, 159, rfl⟩
abbrev main_call5_v10 : Ref sig .tc := ⟨.hbm, 160, rfl⟩
abbrev main_v103 : Ref sig .tc := ⟨.hbm, 161, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1000x128 : S_.BroadcastsInDim S1000x128 (![] : Fin 0 → Fin S1000x128.rank)
  bcast_S100000_S100000x1_0 : S100000.BroadcastsInDim S100000x1 (![0] : Fin 1 → Fin S100000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  bcast_S32_S1x32_1 : S32.BroadcastsInDim S1x32 (![1] : Fin 1 → Fin S1x32.rank)
  bcast_S1x32_S1000x32_0_1 : S1x32.BroadcastsInDim S1000x32 (![0, 1] : Fin 2 → Fin S1000x32.rank)
  bcast_S_S1000x32 : S_.BroadcastsInDim S1000x32 (![] : Fin 0 → Fin S1000x32.rank)
  bcast_S2_S1x2_1 : S2.BroadcastsInDim S1x2 (![1] : Fin 1 → Fin S1x2.rank)
  bcast_S1x2_S1000x2_0_1 : S1x2.BroadcastsInDim S1000x2 (![0, 1] : Fin 2 → Fin S1000x2.rank)
  reducesTo_S1000x2_S1000_d1 : S1000x2.ReducesTo [1] S1000
  h_S_ : 0 < S_.numel
  bcast_S1000x1_S1000x2_0_1 : S1000x1.BroadcastsInDim S1000x2 (![0, 1] : Fin 2 → Fin S1000x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S1000x128_S100000x1_S100000x128_1_0_0_1_wf : ScatterDims.WF S1000x128 S100000x1 S100000x128 [1] [0] [0] 1
  scatter_S1000_S100000x1_S100000_n_0_0_1_wf : ScatterDims.WF S1000 S100000x1 S100000 [] [0] [0] 1
  dot_S1000x128_S128x32_S1000x32_1_0_0_1_n_n_wf : DotDims.WF S1000x128 S128x32 S1000x32 [1] [0] [0] [1] [] []
  dot_S1000x32_S32x2_S1000x2_1_0_0_1_n_n_wf : DotDims.WF S1000x32 S32x2 S1000x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S1000x128_S100000x1_S100000x128_1_0_0_1 : ScatterDims S1000x128 S100000x1 S100000x128 where
  updateWindowDims := [1]
  insertedWindowDims := [0]
  scatterDimsToOperandDims := [0]
  indexVectorDim := 1
  wf := scatter_S1000x128_S100000x1_S100000x128_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x128_S128x32_S1000x32_1_0_0_1_n_n : DotDims S1000x128 S128x32 S1000x32 where
  lhsContracting := [1]
  rhsContracting := [0]
  lhsNonContracting := [0]
  rhsNonContracting := [1]
  lhsBatch := []
  rhsBatch := []
  wf := dot_S1000x128_S128x32_S1000x32_1_0_0_1_n_n_wf
def dot_S1000x32_S32x2_S1000x2_1_0_0_1_n_n : DotDims S1000x32 S32x2 S1000x2 where
  lhsContracting := [1]
  rhsContracting := [0]
  lhsNonContracting := [0]
  rhsNonContracting := [1]
  lhsBatch := []
  rhsBatch := []
  wf := dot_S1000x32_S32x2_S1000x2_1_0_0_1_n_n_wf

class Facts : Prop extends Facts₀ where

variable [Facts]
-- ==== Proof.RunMain.lean ====
/-
  The idealized kernel program's run, with its result named.

  @main of the kernel program is twelve segments: stretches of host operations and five pallas_call regions. Its run from
  any launch memory terminates without a fault, and the buffer contents at the return are the fold of the segments over the
  launch memory: each stretch applies its operations, each region replaces its output array by what its blocks' write-backs
  leave. The frame claim keeps of that final valuation only the argument arrays; here the same run is stated with the result
  array as well: it ends at the final valuation read at the result's buffer. The value of that entry is then a question
  about the fold alone, with no program logic left in it.
-/
import proofs.«123561_j14474039788040_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result array ends at the final valuation's
    contents of its buffer, and the argument arrays end as launched. -/
theorem run_main : θ_run defs (onTc (τ := τ) (main (F := F))) ⟨m, fun _ => 0, ρ⟩ (fun r => ∀ c : Dev nD,
      r.2.mem ((c.tc : Thread nD τ).loc main_v88) = W12 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v88 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c)⟩)

end Cert.KernelIdeal.RunValue

end
-- ==== Proof.Keep.lean ====
/-
  Which buffers each segment of the kernel program's @main leaves alone.

  A stretch of host operations writes only its own results, and a pallas_call region changes only its output array, so every
  other buffer holds, after the segment, what it held before. Listed here, per stretch, are the buffers the stretch writes;
  a buffer outside the list keeps its contents. Chained over the segments this carries the edge lists, the edge weights and
  the argument arrays from the launch to the segment that reads them.
-/
import proofs.«123561_j14474039788040_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.SL.Sem

variable {F : FTy → Type} [FloatOps F]

/-! ## What each stretch writes -/

/-- The buffers `hostOps0` writes. -/
abbrev hostOps0_W : List (Ref sig .tc) := [main_v0, main_v1, main_v2, main_v3, main_v4, main_v5, main_v6, main_cst, main_v7, main_cst_0, main_v8, main_v9, main_v10, main_cst_1, main_v11, main_v12, main_v13, main_cst_2]
theorem hostOps0_writes : (hostOps0 : List (HloOp τ sig (Elt F))).Forall fun op => op.writes ⊆ (hostOps0_W.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers `hostOps0_1` writes. -/
abbrev hostOps0_1_W : List (Ref sig .tc) := [main_call0_v0, main_call0_v1, main_v14]
theorem hostOps0_1_writes : (hostOps0_1 : List (HloOp τ sig (Elt F))).Forall fun op => op.writes ⊆ (hostOps0_1_W.map (Proc.devRef (τ := τ) .tc)).toFinset := by
  simp only [hostOps0_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers `hostOps0_2` writes. -/
abbrev hostOps0_2_W : List (Ref sig .tc) := [main_c, main_v15, main_v16, main_c_3, main_v17, main_v18, main_v19, main_v20, main_v21, main_c_4, main_v22, main_v23, main_c_5, main_v24, main_v25, main_v26, main_v27, main_v28, main_v29, main_v30]
theorem hostOps0_2_writes : (hostOps0_2 : List (HloOp τ sig (Elt F))).Forall fun op => op.writes ⊆ (hostOps0_2_W.map (Proc.devRef (τ := τ) .tc)).toFinset := by
  simp only [hostOps0_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers `hostOps1` writes. -/
abbrev hostOps1_W : List (Ref sig .tc) := [main_c_6, main_v32, main_v33, main_c_7, main_v34, main_v35, main_v36, main_v37, main_v38, main_v39, main_v40, main_cst_8, main_v41, main_v42, main_v43, main_v44]
theorem hostOps1_writes : (hostOps1 : List (HloOp τ sig (Elt F))).Forall fun op => op.writes ⊆ (hostOps1_W.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers `hostOps2` writes. -/
abbrev hostOps2_W : List (Ref sig .tc) := [main_c_9, main_v46, main_v47, main_c_10, main_v48, main_v49, main_v50, main_v51, main_v52, main_v53, main_v54, main_cst_11, main_v55, main_v56, main_v57, main_v58]
theorem hostOps2_writes : (hostOps2 : List (HloOp τ sig (Elt F))).Forall fun op => op.writes ⊆ (hostOps2_W.map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers `hostOps3` writes. -/
abbrev hostOps3_W : List (Ref sig .tc) := [main_c_12, main_v60, main_v61, main_c_13, main_v62, main_v63, main_v64, main_v65, main_v66, main_v67, main_v68, main_cst_14, main_v69, main_v70, main_v71, main_v72]
theorem hostOps3_writes : (hostOps3 : List (HloOp τ sig (Elt F))).Forall fun op => op.writes ⊆ (hostOps3_W.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers `hostOps4` writes. -/
abbrev hostOps4_W : List (Ref sig .tc) := [main_cst_15, main_v74, main_v75, main_v76, main_cst_16, main_v77, main_cst_17, main_v78, main_v79, main_v80, main_cst_18, main_v81, main_v82, main_v83, main_v84, main_v85, main_v86, main_v87]
theorem hostOps4_writes : (hostOps4 : List (HloOp τ sig (Elt F))).Forall fun op => op.writes ⊆ (hostOps4_W.map (Proc.devRef (τ := τ) .tc)).toFinset := by
  simp only [hostOps4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

variable (m : (ℓ : Loc nD τ sig) → Buf (Elt F) ℓ) (ρ : Dev nD → PrngReg) (c : Dev nD)

/-! ## One segment at a time -/

theorem keep1 (b : Ref sig .tc) (hb : b ∉ hostOps0_W) : W1 m ρ c (Proc.devRef .tc b) = W0 m ρ c (Proc.devRef .tc b) :=
  StableHlo.after_of_writes_sub hostOps0 _ hostOps0_writes hb
theorem keep2 (b : Ref sig .tc) (hb : b ∉ hostOps0_1_W) : W2 m ρ c (Proc.devRef .tc b) = W1 m ρ c (Proc.devRef .tc b) :=
  StableHlo.after_of_writes_sub hostOps0_1 _ hostOps0_1_writes hb
theorem keep3 (b : Ref sig .tc) (hb : b ∉ hostOps0_2_W) : W3 m ρ c (Proc.devRef .tc b) = W2 m ρ c (Proc.devRef .tc b) :=
  StableHlo.after_of_writes_sub hostOps0_2 _ hostOps0_2_writes hb
theorem keep5 (b : Ref sig .tc) (hb : b ∉ hostOps1_W) : W5 m ρ c (Proc.devRef .tc b) = W4 m ρ c (Proc.devRef .tc b) :=
  StableHlo.after_of_writes_sub hostOps1 _ hostOps1_writes hb
theorem keep7 (b : Ref sig .tc) (hb : b ∉ hostOps2_W) : W7 m ρ c (Proc.devRef .tc b) = W6 m ρ c (Proc.devRef .tc b) :=
  StableHlo.after_of_writes_sub hostOps2 _ hostOps2_writes hb
theorem keep9 (b : Ref sig .tc) (hb : b ∉ hostOps3_W) : W9 m ρ c (Proc.devRef .tc b) = W8 m ρ c (Proc.devRef .tc b) :=
  StableHlo.after_of_writes_sub hostOps3 _ hostOps3_writes hb
theorem keep11 (b : Ref sig .tc) (hb : b ∉ hostOps4_W) : W11 m ρ c (Proc.devRef .tc b) = W10 m ρ c (Proc.devRef .tc b) :=
  StableHlo.after_of_writes_sub hostOps4 _ hostOps4_writes hb

/-- The arrays region `K` stands on. -/
abbrev arrs0 : List (Ref sig .tc) := [main_arg0, main_arg3, main_v31]
abbrev arrs1 : List (Ref sig .tc) := [main_v43, main_v44, main_arg5, main_v45]
abbrev arrs2 : List (Ref sig .tc) := [main_v57, main_v58, main_arg7, main_v59]
abbrev arrs3 : List (Ref sig .tc) := [main_v71, main_v72, main_v73]

theorem keep4 (b : Ref sig .tc) (hb : b ∉ arrs0) : W4 m ρ c (Proc.devRef .tc b) = W3 m ρ c (Proc.devRef .tc b) :=
  W4_of_ne m ρ c b (by
    intro w e; subst e; revert hb w; decide)
theorem keep6 (b : Ref sig .tc) (hb : b ∉ arrs1) : W6 m ρ c (Proc.devRef .tc b) = W5 m ρ c (Proc.devRef .tc b) :=
  W6_of_ne m ρ c b (by
    intro w e; subst e; revert hb w; decide)
theorem keep8 (b : Ref sig .tc) (hb : b ∉ arrs2) : W8 m ρ c (Proc.devRef .tc b) = W7 m ρ c (Proc.devRef .tc b) :=
  W8_of_ne m ρ c b (by
    intro w e; subst e; revert hb w; decide)
theorem keep10 (b : Ref sig .tc) (hb : b ∉ arrs3) : W10 m ρ c (Proc.devRef .tc b) = W9 m ρ c (Proc.devRef .tc b) :=
  W10_of_ne m ρ c b (by
    intro w e; subst e; revert hb w; decide)

end Cert.KernelIdeal.RunValue

end
-- ==== Proof.Stage3.lean ====
/-
  The edge lists and the edge weights, as the kernel program computes them before its first pallas_call.

  The first forty-one host operations of the kernel program are, one for one, the first forty-one of the reference program:
  the source and target lists with the self loops appended, the degree of every node, its inverse square root where the
  degree is positive, and the weight of every edge as the product of its two ends' normalisers. So at the entry of the first
  region the three buffers that later segments read hold the reference's stages of the same name, as functions of the edge
  index array alone, and every argument array holds its launch contents.
-/
import proofs.«123561_j14474039788040_1_alg».proof.Proof.Keep
import proofs.«123561_j14474039788040_1_alg».proof.Proof.RefRead

set_option maxRecDepth 16384

noncomputable section

namespace Cert.KernelIdeal.RunValue

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-- A buffer none of the three opening stretches writes holds its launch contents at the first region's entry. -/
theorem W3_of (b : Ref sig .tc) (h1 : b ∉ hostOps0_W) (h2 : b ∉ hostOps0_1_W) (h3 : b ∉ hostOps0_2_W) :
    W3 m ρ c (Proc.devRef .tc b) = W0 m ρ c (Proc.devRef .tc b) :=
  (keep3 m ρ c b h3).trans ((keep2 m ρ c b h2).trans (keep1 m ρ c b h1))

theorem W3_arg0 : W3 m ρ c (Proc.devRef .tc main_arg0) = m ((c.tc : Thread nD τ).loc main_arg0) :=
  (W3_of m ρ c main_arg0 (by decide) (by decide) (by decide)).trans rfl
theorem W3_arg2 : W3 m ρ c (Proc.devRef .tc main_arg2) = m ((c.tc : Thread nD τ).loc main_arg2) :=
  (W3_of m ρ c main_arg2 (by decide) (by decide) (by decide)).trans rfl
theorem W3_arg3 : W3 m ρ c (Proc.devRef .tc main_arg3) = m ((c.tc : Thread nD τ).loc main_arg3) :=
  (W3_of m ρ c main_arg3 (by decide) (by decide) (by decide)).trans rfl
theorem W3_arg4 : W3 m ρ c (Proc.devRef .tc main_arg4) = m ((c.tc : Thread nD τ).loc main_arg4) :=
  (W3_of m ρ c main_arg4 (by decide) (by decide) (by decide)).trans rfl
theorem W3_arg5 : W3 m ρ c (Proc.devRef .tc main_arg5) = m ((c.tc : Thread nD τ).loc main_arg5) :=
  (W3_of m ρ c main_arg5 (by decide) (by decide) (by decide)).trans rfl
theorem W3_arg6 : W3 m ρ c (Proc.devRef .tc main_arg6) = m ((c.tc : Thread nD τ).loc main_arg6) :=
  (W3_of m ρ c main_arg6 (by decide) (by decide) (by decide)).trans rfl
theorem W3_arg7 : W3 m ρ c (Proc.devRef .tc main_arg7) = m ((c.tc : Thread nD τ).loc main_arg7) :=
  (W3_of m ρ c main_arg7 (by decide) (by decide) (by decide)).trans rfl
theorem W3_arg8 : W3 m ρ c (Proc.devRef .tc main_arg8) = m ((c.tc : Thread nD τ).loc main_arg8) :=
  (W3_of m ρ c main_arg8 (by decide) (by decide) (by decide)).trans rfl
theorem W3_arg9 : W3 m ρ c (Proc.devRef .tc main_arg9) = m ((c.tc : Thread nD τ).loc main_arg9) :=
  (W3_of m ρ c main_arg9 (by decide) (by decide) (by decide)).trans rfl
theorem W3_arg10 : W3 m ρ c (Proc.devRef .tc main_arg10) = m ((c.tc : Thread nD τ).loc main_arg10) :=
  (W3_of m ρ c main_arg10 (by decide) (by decide) (by decide)).trans rfl
theorem W3_arg11 : W3 m ρ c (Proc.devRef .tc main_arg11) = m ((c.tc : Thread nD τ).loc main_arg11) :=
  (W3_of m ρ c main_arg11 (by decide) (by decide) (by decide)).trans rfl
theorem W3_arg12 : W3 m ρ c (Proc.devRef .tc main_arg12) = m ((c.tc : Thread nD τ).loc main_arg12) :=
  (W3_of m ρ c main_arg12 (by decide) (by decide) (by decide)).trans rfl

/-! ## After the first stretch: the two edge lists, and the degree's mask and inverse square root -/

theorem W1_v3 : W1 m ρ c (Proc.devRef .tc main_v3) = val_main_v3 (F := Ideal) (m ((c.tc : Thread nD τ).loc main_arg1)) := by
  dsimp only [W1, W0, hostOps0]
  after_results_simp <;> rfl

theorem W1_v6 : W1 m ρ c (Proc.devRef .tc main_v6) = val_main_v6 (F := Ideal) (m ((c.tc : Thread nD τ).loc main_arg1)) := by
  dsimp only [W1, W0, hostOps0]
  after_results_simp <;> rfl

theorem W1_v12 : W1 m ρ c (Proc.devRef .tc main_v12) = val_main_v12 (F := Ideal) (m ((c.tc : Thread nD τ).loc main_arg1)) := by
  dsimp only [W1, W0, hostOps0]
  after_results_simp <;> rfl

theorem W1_v13 : W1 m ρ c (Proc.devRef .tc main_v13) = val_main_v13 (F := Ideal) (m ((c.tc : Thread nD τ).loc main_arg1)) := by
  dsimp only [W1, W0, hostOps0]
  after_results_simp <;> rfl

theorem W1_cst_2 : W1 m ρ c (Proc.devRef .tc main_cst_2) = val_main_cst_2 (F := Ideal) := by
  dsimp only [W1, W0, hostOps0]
  after_results_simp <;> rfl

/-! ## After the second stretch: every node's normaliser -/

theorem W2_v14 : W2 m ρ c (Proc.devRef .tc main_v14) = val_main_v14 (F := Ideal) (m ((c.tc : Thread nD τ).loc main_arg1)) := by
  have h12 := W1_v12 m ρ c
  have h13 := W1_v13 m ρ c
  have hc := W1_cst_2 m ρ c
  simp only [val_main_v14, val_main_call0_v1, val_main_call0_v0]
  rw [← h12, ← h13, ← hc]
  dsimp only [W2]
  generalize W1 m ρ c = U
  dsimp only [hostOps0_1]
  after_results_simp
  rfl

/-! ## After the third stretch: the edge lists unchanged, and every edge's weight -/

/-- The source list with the self loops appended. -/
theorem W3_v3 : W3 m ρ c (Proc.devRef .tc main_v3) = val_main_v3 (F := Ideal) (m ((c.tc : Thread nD τ).loc main_arg1)) :=
  (keep3 m ρ c main_v3 (by decide)).trans ((keep2 m ρ c main_v3 (by decide)).trans (W1_v3 m ρ c))

/-- The target list with the self loops appended. -/
theorem W3_v6 : W3 m ρ c (Proc.devRef .tc main_v6) = val_main_v6 (F := Ideal) (m ((c.tc : Thread nD τ).loc main_arg1)) :=
  (keep3 m ρ c main_v6 (by decide)).trans ((keep2 m ρ c main_v6 (by decide)).trans (W1_v6 m ρ c))

/-- The weight of every edge, as a column. -/
theorem W3_v30 : W3 m ρ c (Proc.devRef .tc main_v30) = val_main_v30 (F := Ideal) (m ((c.tc : Thread nD τ).loc main_arg1)) := by
  have h14 := W2_v14 m ρ c
  have h3 := (keep2 m ρ c main_v3 (by decide)).trans (W1_v3 m ρ c)
  have h6 := (keep2 m ρ c main_v6 (by decide)).trans (W1_v6 m ρ c)
  simp only [val_main_v30, val_main_v29, val_main_v28, val_main_v27, val_main_v26, val_main_v25, val_main_v24, val_main_c_5, val_main_v23, val_main_v22, val_main_c_4, val_main_v21, val_main_v20, val_main_v19, val_main_v18, val_main_v17, val_main_c_3, val_main_v16, val_main_v15, val_main_c]
  rw [← h14, ← h3, ← h6]
  dsimp only [W3]
  generalize W2 m ρ c = U
  dsimp only [hostOps0_2]
  after_results_simp
  rfl

end Cert.KernelIdeal.RunValue

end
-- ==== Proof.RowCast.lean ====
/-
  A vector seen as a one-row matrix, in two spellings.

  A vector of `n` entries becomes the matrix `[1, n]` either by a reshape or by a broadcast that sends the vector's axis to
  the matrix's second axis. Both read, at `(0, k)`, the vector's entry `k`: they are one function.
-/
import Idealize.ShloMosaic.Lib.Pipeline.Value
import Idealize.ShloMosaic.Lib.ValueIdx

namespace Cert.Gnn

open Idealize.ShloMosaic

/-- The reshape `[n] → [1, n]` is the broadcast along the second axis. -/
theorem reshape_row {α : Type} {n : ℕ} (x : (⟨1, ![n]⟩ : Shape).Idx → α)
    (h1 : (⟨1, ![n]⟩ : Shape).ShapeCasts ⟨2, ![1, n]⟩)
    (h2 : (⟨1, ![n]⟩ : Shape).BroadcastsInDim ⟨2, ![1, n]⟩ ![1]) :
    shapeCast ⟨2, ![1, n]⟩ x h1 = broadcastInDim ⟨2, ![1, n]⟩ ![1] h2 x := by
  funext j
  rw [shapeCast_addUnit_apply ![n] x h1 j]
  symm
  refine broadcastInDim_apply ![1] h2 x j (fun a => j a.succ) (fun a => ?_)
  obtain rfl : a = 0 := Subsingleton.elim _ _
  show (j 1).val = if n = 1 then 0 else (j 1).val
  split
  · rename_i hn
    have h := (j 1).isLt
    have h' : (j 1).val < n := h
    omega
  · rfl

end Cert.Gnn
-- ==== Proof.HostStages.lean ====
/-
  What the host operations between the kernel program's regions write, as stages of the reference.

  Between two of its matrix products the kernel program runs, on the host, the same operations as the reference runs
  between its own: the rows of the product gathered at the normalised source index, multiplied by the edge weights, and
  added into zeros at the target index; after the last layer, the pooled sums divided by `max cnt 1`. Started from any
  contents in which the buffers these operations read hold the reference's stages, each stretch leaves in its result
  buffer the reference's next stage: the two texts differ only in the names of their buffers and records. A bias
  `[n]` is made a row `[1, n]` by a reshape in the kernel program and by a broadcast along the second axis in the
  reference: one function.
-/
import proofs.«123561_j14474039788040_1_alg».proof.Proof.Gen.KernelIdeal.Launch
import proofs.«123561_j14474039788040_1_alg».proof.Proof.RefRead
import proofs.«123561_j14474039788040_1_alg».proof.Proof.RowCast
import Idealize.ShloMosaic.Lib.StableHlo.Run

set_option maxRecDepth 16384

noncomputable section

namespace Cert.KernelIdeal.RunValue

open Cert.KernelIdeal Cert.KernelIdeal.Gen Idealize.ShloMosaic Idealize.ShloMosaic.TcCoe Idealize.SL.Sem Idealize.ShloMosaic.StableHlo Cert.ReferenceIdeal.ReadP

/-! ## Layer 1: the aggregation of the first product, and the first bias as a row -/

theorem host1_v43 (U : Valuation τ sig (Elt Ideal)) (x0 : (⟨Cert.ReferenceIdeal.S100000x256, .f32⟩ : BufTy).Contents (Elt Ideal)) (x1 : (⟨Cert.ReferenceIdeal.S2x1600000, .i32⟩ : BufTy).Contents (Elt Ideal)) (x3 : (⟨Cert.ReferenceIdeal.S256x128, .f32⟩ : BufTy).Contents (Elt Ideal))
    (h31 : U (Proc.devRef .tc main_v31) = val_main_v31 (F := Ideal) x0 x3) (h3 : U (Proc.devRef .tc main_v3) = val_main_v3 (F := Ideal) x1)
    (h6 : U (Proc.devRef .tc main_v6) = val_main_v6 (F := Ideal) x1) (h30 : U (Proc.devRef .tc main_v30) = val_main_v30 (F := Ideal) x1) :
    StableHlo.after hostOps1 U (Proc.devRef .tc main_v43) = val_main_v43 (F := Ideal) x0 x1 x3 := by
  dsimp only [hostOps1]
  after_results_simp
  rw [h31, h3, h6, h30]
  rfl

theorem host1_v44 (U : Valuation τ sig (Elt Ideal)) (x4 : (⟨Cert.ReferenceIdeal.S128, .f32⟩ : BufTy).Contents (Elt Ideal)) (h : U (Proc.devRef .tc main_arg4) = x4) :
    StableHlo.after hostOps1 U (Proc.devRef .tc main_v44) = val_main_v44 (F := Ideal) x4 := by
  dsimp only [hostOps1]
  after_results_simp
  rw [h]
  exact Cert.Gnn.reshape_row _ _ _

/-! ## Layer 2 -/

theorem host2_v57 (U : Valuation τ sig (Elt Ideal)) (x0 : (⟨Cert.ReferenceIdeal.S100000x256, .f32⟩ : BufTy).Contents (Elt Ideal)) (x1 : (⟨Cert.ReferenceIdeal.S2x1600000, .i32⟩ : BufTy).Contents (Elt Ideal)) (x3 : (⟨Cert.ReferenceIdeal.S256x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal))
    (h45 : U (Proc.devRef .tc main_v45) = val_main_v48 (F := Ideal) x0 x1 x3 x4 x5) (h3 : U (Proc.devRef .tc main_v3) = val_main_v3 (F := Ideal) x1)
    (h6 : U (Proc.devRef .tc main_v6) = val_main_v6 (F := Ideal) x1) (h30 : U (Proc.devRef .tc main_v30) = val_main_v30 (F := Ideal) x1) :
    StableHlo.after hostOps2 U (Proc.devRef .tc main_v57) = val_main_v60 (F := Ideal) x0 x1 x3 x4 x5 := by
  dsimp only [hostOps2]
  after_results_simp
  rw [h45, h3, h6, h30]
  rfl

theorem host2_v58 (U : Valuation τ sig (Elt Ideal)) (x6 : (⟨Cert.ReferenceIdeal.S128, .f32⟩ : BufTy).Contents (Elt Ideal)) (h : U (Proc.devRef .tc main_arg6) = x6) :
    StableHlo.after hostOps2 U (Proc.devRef .tc main_v58) = val_main_v61 (F := Ideal) x6 := by
  dsimp only [hostOps2]
  after_results_simp
  rw [h]
  exact Cert.Gnn.reshape_row _ _ _

/-! ## Layer 3 -/

theorem host3_v71 (U : Valuation τ sig (Elt Ideal)) (x0 : (⟨Cert.ReferenceIdeal.S100000x256, .f32⟩ : BufTy).Contents (Elt Ideal)) (x1 : (⟨Cert.ReferenceIdeal.S2x1600000, .i32⟩ : BufTy).Contents (Elt Ideal)) (x3 : (⟨Cert.ReferenceIdeal.S256x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal))
    (h59 : U (Proc.devRef .tc main_v59) = val_main_v65 (F := Ideal) x0 x1 x3 x4 x5 x6 x7) (h3 : U (Proc.devRef .tc main_v3) = val_main_v3 (F := Ideal) x1)
    (h6 : U (Proc.devRef .tc main_v6) = val_main_v6 (F := Ideal) x1) (h30 : U (Proc.devRef .tc main_v30) = val_main_v30 (F := Ideal) x1) :
    StableHlo.after hostOps3 U (Proc.devRef .tc main_v71) = val_main_v77 (F := Ideal) x0 x1 x3 x4 x5 x6 x7 := by
  dsimp only [hostOps3]
  after_results_simp
  rw [h59, h3, h6, h30]
  rfl

theorem host3_v72 (U : Valuation τ sig (Elt Ideal)) (x8 : (⟨Cert.ReferenceIdeal.S128, .f32⟩ : BufTy).Contents (Elt Ideal)) (h : U (Proc.devRef .tc main_arg8) = x8) :
    StableHlo.after hostOps3 U (Proc.devRef .tc main_v72) = val_main_v78 (F := Ideal) x8 := by
  dsimp only [hostOps3]
  after_results_simp
  rw [h]
  exact Cert.Gnn.reshape_row _ _ _

/-! ## The pooled mean, and the head's two biases as rows -/

theorem host4_v85 (U : Valuation τ sig (Elt Ideal)) (x0 : (⟨Cert.ReferenceIdeal.S100000x256, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal)) (x3 : (⟨Cert.ReferenceIdeal.S256x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal))
    (h73 : U (Proc.devRef .tc main_v73) = val_main_v81 (F := Ideal) x0 x1 x3 x4 x5 x6 x7 x8) (h2 : U (Proc.devRef .tc main_arg2) = x2) :
    StableHlo.after hostOps4 U (Proc.devRef .tc main_v85) = val_main_v93 (F := Ideal) x0 x1 x2 x3 x4 x5 x6 x7 x8 := by
  dsimp only [hostOps4]
  after_results_simp
  rw [h73, h2]
  rfl

theorem host4_v86 (U : Valuation τ sig (Elt Ideal)) (x10 : (⟨Cert.ReferenceIdeal.S32, .f32⟩ : BufTy).Contents (Elt Ideal)) (h : U (Proc.devRef .tc main_arg10) = x10) :
    StableHlo.after hostOps4 U (Proc.devRef .tc main_v86) = val_main_v95 (F := Ideal) x10 := by
  dsimp only [hostOps4]
  after_results_simp
  rw [h]
  exact Cert.Gnn.reshape_row _ _ _

theorem host4_v87 (U : Valuation τ sig (Elt Ideal)) (x12 : (⟨Cert.ReferenceIdeal.S2, .f32⟩ : BufTy).Contents (Elt Ideal)) (h : U (Proc.devRef .tc main_arg12) = x12) :
    StableHlo.after hostOps4 U (Proc.devRef .tc main_v87) = val_main_v100 (F := Ideal) x12 := by
  dsimp only [hostOps4]
  after_results_simp
  rw [h]
  exact Cert.Gnn.reshape_row _ _ _

end Cert.KernelIdeal.RunValue

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.Region0.lean ====
/-
  The first linear region: what its output array holds after the run, as one function of its input arrays.

  Each of the ten grid points reads a block of 10000 rows of the feature array and the whole weight matrix, and writes
  the block's product with the weights back to the same rows of the output. The ten blocks tile the 100000 rows, and a
  row of a product depends on that row of the left factor only, so the output array is the product of the whole feature
  array by the weight matrix.
-/
import proofs.«123561_j14474039788040_1_alg».proof.Proof.Gen.KernelIdeal.Frame
import proofs.«123561_j14474039788040_1_alg».proof.ReferenceIdeal
import proofs.«123561_j14474039788040_1_alg».proof.Proof.Gen.ReferenceIdeal
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws
import proofs.«123561_j14474039788040_1_alg».proof.Proof.LibPlainMatmul
set_option maxRecDepth 16384

noncomputable section

namespace Cert.KernelIdeal.RegionValue

open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b)) (c : Dev nD)

/-- The zero offsets of a whole-block access. -/
theorem zeroOff0 : (![0, 0] : Fin 2 → Nat) = fun _ => 0 := funext fun a => by fin_cases a <;> rfl

/-- The product of the whole feature array by the weight matrix. -/
abbrev prod0 (a : FVec Ideal Cert.ReferenceIdeal.S100000x256 .f32) (w : FVec Ideal Cert.ReferenceIdeal.S256x128 .f32) :
    FVec Ideal Cert.ReferenceIdeal.S100000x128 .f32 :=
  Host.dotGeneral (F := Ideal) Cert.ReferenceIdeal.dot_S100000x256_S256x128_S100000x128_1_0_0_1_n_n none a w

/-- The whole-array product at (r, q): the sum over the 256 features of a(r, k) · w(k, q). -/
theorem prod0_apply (a : FVec Ideal Cert.ReferenceIdeal.S100000x256 .f32) (w : FVec Ideal Cert.ReferenceIdeal.S256x128 .f32)
    (r : Fin 100000) (q : Fin 128) :
    prod0 a w (ix2 r q) = ∑ k : Fin 256, a (ix2 r k) * w (ix2 k q) :=
  Cert.PlainMatmul.dotGeneral_apply
    (Cert.ReferenceIdeal.Facts₀.dot_S100000x256_S256x128_S100000x128_1_0_0_1_n_n_wf) none .single a w r q

/-- The body's payload at (p, q): the same sum over the block's row p (a change of format is the identity on the
    extended reals, and the accumulator is the zero splat). -/
theorem pay0_apply (x0 : Vec Ideal S10000x256 .f32) (x1 : Vec Ideal S256x128 .f32) (p : Fin 10000) (q : Fin 128) :
    k0_pay1 (F := Ideal) x0 x1 (ix2 p q) = ∑ k : Fin 256, x0 (ix2 p k) * x1 (ix2 k q) :=
  Cert.PlainMatmul.matmul_zero_apply
    (Cert.KernelIdeal.Facts₀.dot_S10000x256_S256x128_S10000x128_1_0_0_1_n_n_wf) none x0 x1 p q

/-- The printed index maps, decided over the grid: the feature block and the output block of point t are both block t of
    the rows, the weight window and the column blocks stay at 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The grid has ten points. -/
theorem lt0 (t : Fin cfg0.N) : t.val < 10 := Nat.lt_of_lt_of_eq t.isLt (N_0 : cfg0.N = 10)

/-- Row p of block t is row t * 10000 + p of the array. -/
theorem row0 (t : Fin cfg0.N) (p : Fin 10000) : t.val * 10000 + p.val < 100000 := by
  have := lt0 t; have := p.isLt; omega

/-- The feature block at point t, at (p, k), is the feature array at row t * 10000 + p. -/
theorem iblk0_0_apply (t : Fin cfg0.N) (p : Fin 10000) (k : Fin 256) :
    (iblk0 V c 0 t : Vec Ideal S10000x256 .f32) (ix2 p k)
      = (V c main_arg0 : Cert.ReferenceIdeal.S100000x256.Idx → Ideal .f32) (ix2 ⟨t.val * 10000 + p.val, row0 t p⟩ k) := by
  obtain ⟨e0, e1, -, -, -, -⟩ := idx0 t
  unfold iblk0
  rw [View.read_apply]
  show V c main_arg0 _ = V c main_arg0 _
  congr 1
  funext a
  apply Fin.ext
  match a with
  | ⟨0, _⟩ => show win0_0.index t (0 : Fin 2) * 10000 + 1 * p.val = t.val * 10000 + p.val; rw [e0]; omega
  | ⟨1, _⟩ => show win0_0.index t (1 : Fin 2) * 256 + 1 * k.val = k.val; rw [e1]; omega

/-- The weight block at any point is the weight matrix. -/
theorem iblk0_1_apply (t : Fin cfg0.N) (k : Fin 256) (q : Fin 128) :
    (iblk0 V c 1 t : Vec Ideal S256x128 .f32) (ix2 k q)
      = (V c main_arg3 : Cert.ReferenceIdeal.S256x128.Idx → Ideal .f32) (ix2 k q) := by
  obtain ⟨-, -, e2, e3, -, -⟩ := idx0 t
  unfold iblk0
  rw [View.read_apply]
  show V c main_arg3 _ = V c main_arg3 _
  congr 1
  funext a
  apply Fin.ext
  match a with
  | ⟨0, _⟩ => show win0_1.index t (0 : Fin 2) * 256 + 1 * k.val = k.val; rw [e2]; omega
  | ⟨1, _⟩ => show win0_1.index t (1 : Fin 2) * 128 + 1 * q.val = q.val; rw [e3]; omega

/-- The output block's entry (p, q) sits at row t * 10000 + p of the array. -/
theorem emb0 (t : Fin cfg0.N) (p : Fin 10000) (q : Fin 128) :
    ((cfg0.win 2).blk t).view.emb (ix2 p q) = (ix2 ⟨t.val * 10000 + p.val, row0 t p⟩ q : Cert.ReferenceIdeal.S100000x128.Idx) := by
  obtain ⟨-, -, -, -, e4, e5⟩ := idx0 t
  funext a
  apply Fin.ext
  match a with
  | ⟨0, _⟩ => show win0_2.index t (0 : Fin 2) * 10000 + 1 * p.val = t.val * 10000 + p.val; rw [e4]; omega
  | ⟨1, _⟩ => show win0_2.index t (1 : Fin 2) * 128 + 1 * q.val = q.val; rw [e5]; omega

/-- What point t writes back is block t of the whole-array product. -/
theorem flushed0 (t : Fin cfg0.N) :
    (dat0 (F := Ideal) V c).flushed 2 t
      = ((cfg0.win 2).blk t).view.read (Elt Ideal) (prod0 (V c main_arg0) (V c main_arg3)) := by
  show (cfg0.win 2).cut (grid0.coords t) ((dat0 (F := Ideal) V c).after 2 t) = _
  rw [after0_2]
  unfold out0_2
  rw [View.canon_unit_zero zeroOff0]
  simp only [View.ld_unit_zero (S := S10000x256) zeroOff0, View.ld_unit_zero (S := S256x128) zeroOff0]
  funext j
  obtain ⟨p, q, rfl⟩ : ∃ (p : Fin 10000) (q : Fin 128), j = ix2 p q := ⟨j 0, j 1, eq_ix2 j⟩
  show k0_pay1 (F := Ideal) (iblk0 V c 0 t) (iblk0 V c 1 t) (ix2 p q)
    = prod0 (V c main_arg0) (V c main_arg3) (((cfg0.win 2).blk t).view.emb (ix2 p q))
  refine (pay0_apply (iblk0 V c 0 t) (iblk0 V c 1 t) p q).trans ?_
  rw [emb0 t p q, prod0_apply]
  refine Finset.sum_congr rfl fun k _ => ?_
  rw [iblk0_0_apply V c t p k, iblk0_1_apply V c t k q]

/-- An index of the array is in point t's block iff each coordinate is in the block's range on its axis. -/
theorem mem_blk0 (t : Fin cfg0.N) (i : Cert.ReferenceIdeal.S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v31).slice (win0_2.rect t)).set ↔ _
  rw [View.set_slice_whole, Rect.mem_set_unit]
  exact Iff.rfl

/-- Every index of the array is in the block of the point its row falls in: row r is in block r / 10000. -/
theorem cover0 (i : Cert.ReferenceIdeal.S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 10000, Nat.lt_of_lt_of_eq (by omega) (N_0 : cfg0.N = 10).symm⟩
  obtain ⟨-, -, -, -, e4, e5⟩ := idx0 t
  have ht : t.val = (i 0).val / 10000 := rfl
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; rw [e4, ht]; omega
  | ⟨1, _⟩ => show win0_2.index t (1 : Fin 2) * 128 ≤ (i 1).val ∧ (i 1).val < win0_2.index t (1 : Fin 2) * 128 + 128; rw [e5]; omega

/-- THE OUTPUT ARRAY of the region after its run: the feature array times the weight matrix. -/
theorem region0 : (dat0 (F := Ideal) V c).arrAt 2 cfg0.N
    = Host.dotGeneral (F := Ideal) (φ₁ := .f32) (φ₂ := .f32) Cert.ReferenceIdeal.dot_S100000x256_S256x128_S100000x128_1_0_0_1_n_n none (V c main_arg0) (V c main_arg3) :=
  (dat0 (F := Ideal) V c).arrAt_eq_of_cover 2 (prod0 (V c main_arg0) (V c main_arg3)) (fun t _ => flushed0 V c t) cover0

end Cert.KernelIdeal.RegionValue

end
-- ==== Proof.Region1.lean ====
/-
  The second linear region: what its output array holds after the run, as one function of its input arrays.

  Each of the ten grid points reads a block of 10000 rows of the aggregated features, the one bias row and the whole
  weight matrix; it adds the bias to every row, takes the maximum with zero, and writes the product of the result with
  the weights back to the same rows of the output. The ten blocks tile the 100000 rows, and a row of the product depends
  on that row of the left factor only, so the output array is the product of max (a + broadcast bias) 0, taken over the
  whole array, by the weight matrix.
-/
import proofs.«123561_j14474039788040_1_alg».proof.Proof.Gen.KernelIdeal.Frame
import proofs.«123561_j14474039788040_1_alg».proof.ReferenceIdeal
import proofs.«123561_j14474039788040_1_alg».proof.Proof.Gen.ReferenceIdeal
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws
import proofs.«123561_j14474039788040_1_alg».proof.Proof.LibPlainMatmul
set_option maxRecDepth 16384

noncomputable section

namespace Cert.KernelIdeal.RegionValue

open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b)) (c : Dev nD)

/-- The zero offsets of a whole-block access. -/
theorem zeroOff1 : (![0, 0] : Fin 2 → Nat) = fun _ => 0 := funext fun a => by fin_cases a <;> rfl

/-- Bias, rectification and the product with the weights, of the whole array. -/
abbrev layer1 (a : FVec Ideal Cert.ReferenceIdeal.S100000x128 .f32) (b : FVec Ideal Cert.ReferenceIdeal.S1x128 .f32)
    (w : FVec Ideal Cert.ReferenceIdeal.S128x128 .f32) : FVec Ideal Cert.ReferenceIdeal.S100000x128 .f32 :=
  Host.dotGeneral (F := Ideal) (φ₁ := .f32) (φ₂ := .f32) Cert.ReferenceIdeal.dot_S100000x128_S128x128_S100000x128_1_0_0_1_n_n none
    (maximumf (addf a (broadcastInDim Cert.ReferenceIdeal.S100000x128 ![0, 1] Cert.ReferenceIdeal.Facts₀.bcast_S1x128_S100000x128_0_1 b))
      (broadcastInDim Cert.ReferenceIdeal.S100000x128 ![] Cert.ReferenceIdeal.Facts₀.bcast_S_S100000x128 (constant (F := Ideal) Cert.ReferenceIdeal.S_ .f32 0x00000000#32)))
    w

/-- The whole-array expression at (r, q): the sum over k of max (a(r, k) + b(0, k)) 0 · w(k, q). -/
theorem layer1_apply (a : FVec Ideal Cert.ReferenceIdeal.S100000x128 .f32) (b : FVec Ideal Cert.ReferenceIdeal.S1x128 .f32)
    (w : FVec Ideal Cert.ReferenceIdeal.S128x128 .f32) (r : Fin 100000) (q : Fin 128) :
    layer1 a b w (ix2 r q)
      = ∑ k : Fin 128, max (a (ix2 r k) + b (ix2 (0 : Fin 1) k)) (Ideal.ofBits .f32 0x00000000#32) * w (ix2 k q) := by
  refine (Cert.PlainMatmul.dotGeneral_apply
    (Cert.ReferenceIdeal.Facts₀.dot_S100000x128_S128x128_S100000x128_1_0_0_1_n_n_wf) none .single _ w r q).trans ?_
  refine Finset.sum_congr rfl fun k _ => ?_
  rw [maximumf_apply, addf_apply, broadcastInDim_oneRow_apply, broadcastInDim_scalar_apply]
  rfl

/-- The body's payload at (p, q): the same sum over the block's row p and the bias row (a change of format is the
    identity on the extended reals, and the accumulator is the zero splat). -/
theorem pay1_apply (x0 : Vec Ideal S10000x128 .f32) (x1 : Vec Ideal S1x128 .f32) (x2 : Vec Ideal S128x128 .f32)
    (p : Fin 10000) (q : Fin 128) :
    k1_pay1 (F := Ideal) x0 x1 x2 (ix2 p q)
      = ∑ k : Fin 128, max (x0 (ix2 p k) + x1 (ix2 (0 : Fin 1) k)) (Ideal.ofBits .f32 0x00000000#32) * x2 (ix2 k q) := by
  unfold k1_pay1
  refine (Cert.PlainMatmul.matmul_zero_apply
    (Cert.KernelIdeal.Facts₀.dot_S10000x128_S128x128_S10000x128_1_0_0_1_n_n_wf) none _ _ p q).trans ?_
  refine Finset.sum_congr rfl fun k _ => ?_
  rw [truncf_apply, truncf_apply]
  simp only [shapeCast_self]
  rw [maximumf_apply, addf_apply, broadcastTo_1b_ab_apply, broadcast_apply]
  rfl

/-- The printed index maps, decided over the grid: the input block and the output block of point t are both block t of
    the rows, the bias window, the weight window and the column blocks stay at 0. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The grid has ten points. -/
theorem lt1 (t : Fin cfg1.N) : t.val < 10 := Nat.lt_of_lt_of_eq t.isLt (N_1 : cfg1.N = 10)

/-- Row p of block t is row t * 10000 + p of the array. -/
theorem row1 (t : Fin cfg1.N) (p : Fin 10000) : t.val * 10000 + p.val < 100000 := by
  have := lt1 t; have := p.isLt; omega

/-- The input block at point t, at (p, k), is the input array at row t * 10000 + p. -/
theorem iblk1_0_apply (t : Fin cfg1.N) (p : Fin 10000) (k : Fin 128) :
    (iblk1 V c 0 t : Vec Ideal S10000x128 .f32) (ix2 p k)
      = (V c main_v43 : Cert.ReferenceIdeal.S100000x128.Idx → Ideal .f32) (ix2 ⟨t.val * 10000 + p.val, row1 t p⟩ k) := by
  obtain ⟨e0, e1, -, -, -, -, -, -⟩ := idx1 t
  unfold iblk1
  rw [View.read_apply]
  show V c main_v43 _ = V c main_v43 _
  congr 1
  funext a
  apply Fin.ext
  match a with
  | ⟨0, _⟩ => show win1_0.index t (0 : Fin 2) * 10000 + 1 * p.val = t.val * 10000 + p.val; rw [e0]; omega
  | ⟨1, _⟩ => show win1_0.index t (1 : Fin 2) * 128 + 1 * k.val = k.val; rw [e1]; omega

/-- The bias block at any point is the bias row. -/
theorem iblk1_1_apply (t : Fin cfg1.N) (k : Fin 128) :
    (iblk1 V c 1 t : Vec Ideal S1x128 .f32) (ix2 (0 : Fin 1) k)
      = (V c main_v44 : Cert.ReferenceIdeal.S1x128.Idx → Ideal .f32) (ix2 (0 : Fin 1) k) := by
  obtain ⟨-, -, e2, e3, -, -, -, -⟩ := idx1 t
  unfold iblk1
  rw [View.read_apply]
  show V c main_v44 _ = V c main_v44 _
  congr 1
  funext a
  apply Fin.ext
  match a with
  | ⟨0, _⟩ => show win1_1.index t (0 : Fin 2) * 1 + 1 * 0 = 0; rw [e2]
  | ⟨1, _⟩ => show win1_1.index t (1 : Fin 2) * 128 + 1 * k.val = k.val; rw [e3]; omega

/-- The weight block at any point is the weight matrix. -/
theorem iblk1_2_apply (t : Fin cfg1.N) (k : Fin 128) (q : Fin 128) :
    (iblk1 V c 2 t : Vec Ideal S128x128 .f32) (ix2 k q)
      = (V c main_arg5 : Cert.ReferenceIdeal.S128x128.Idx → Ideal .f32) (ix2 k q) := by
  obtain ⟨-, -, -, -, e4, e5, -, -⟩ := idx1 t
  unfold iblk1
  rw [View.read_apply]
  show V c main_arg5 _ = V c main_arg5 _
  congr 1
  funext a
  apply Fin.ext
  match a with
  | ⟨0, _⟩ => show win1_2.index t (0 : Fin 2) * 128 + 1 * k.val = k.val; rw [e4]; omega
  | ⟨1, _⟩ => show win1_2.index t (1 : Fin 2) * 128 + 1 * q.val = q.val; rw [e5]; omega

/-- The output block's entry (p, q) sits at row t * 10000 + p of the array. -/
theorem emb1 (t : Fin cfg1.N) (p : Fin 10000) (q : Fin 128) :
    ((cfg1.win 3).blk t).view.emb (ix2 p q) = (ix2 ⟨t.val * 10000 + p.val, row1 t p⟩ q : Cert.ReferenceIdeal.S100000x128.Idx) := by
  obtain ⟨-, -, -, -, -, -, e6, e7⟩ := idx1 t
  funext a
  apply Fin.ext
  match a with
  | ⟨0, _⟩ => show win1_3.index t (0 : Fin 2) * 10000 + 1 * p.val = t.val * 10000 + p.val; rw [e6]; omega
  | ⟨1, _⟩ => show win1_3.index t (1 : Fin 2) * 128 + 1 * q.val = q.val; rw [e7]; omega

/-- What point t writes back is block t of the whole-array expression. -/
theorem flushed1 (t : Fin cfg1.N) :
    (dat1 (F := Ideal) V c).flushed 3 t
      = ((cfg1.win 3).blk t).view.read (Elt Ideal) (layer1 (V c main_v43) (V c main_v44) (V c main_arg5)) := by
  show (cfg1.win 3).cut (grid1.coords t) ((dat1 (F := Ideal) V c).after 3 t) = _
  rw [after1_3]
  unfold out1_3
  rw [View.canon_unit_zero zeroOff1]
  simp only [View.ld_unit_zero (S := S10000x128) zeroOff1, View.ld_unit_zero (S := S1x128) zeroOff1,
    View.ld_unit_zero (S := S128x128) zeroOff1]
  funext j
  obtain ⟨p, q, rfl⟩ : ∃ (p : Fin 10000) (q : Fin 128), j = ix2 p q := ⟨j 0, j 1, eq_ix2 j⟩
  show k1_pay1 (F := Ideal) (iblk1 V c 0 t) (iblk1 V c 1 t) (iblk1 V c 2 t) (ix2 p q)
    = layer1 (V c main_v43) (V c main_v44) (V c main_arg5) (((cfg1.win 3).blk t).view.emb (ix2 p q))
  refine (pay1_apply (iblk1 V c 0 t) (iblk1 V c 1 t) (iblk1 V c 2 t) p q).trans ?_
  rw [emb1 t p q, layer1_apply]
  refine Finset.sum_congr rfl fun k _ => ?_
  rw [iblk1_0_apply V c t p k, iblk1_1_apply V c t k, iblk1_2_apply V c t k q]

/-- An index of the array is in point t's block iff each coordinate is in the block's range on its axis. -/
theorem mem_blk1 (t : Fin cfg1.N) (i : Cert.ReferenceIdeal.S100000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole main_v45).slice (win1_3.rect t)).set ↔ _
  rw [View.set_slice_whole, Rect.mem_set_unit]
  exact Iff.rfl

/-- Every index of the array is in the block of the point its row falls in: row r is in block r / 10000. -/
theorem cover1 (i : Cert.ReferenceIdeal.S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  let t : Fin cfg1.N := ⟨(i 0).val / 10000, Nat.lt_of_lt_of_eq (by omega) (N_1 : cfg1.N = 10).symm⟩
  obtain ⟨-, -, -, -, -, -, e6, e7⟩ := idx1 t
  have ht : t.val = (i 0).val / 10000 := rfl
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; rw [e6, ht]; omega
  | ⟨1, _⟩ => show win1_3.index t (1 : Fin 2) * 128 ≤ (i 1).val ∧ (i 1).val < win1_3.index t (1 : Fin 2) * 128 + 128; rw [e7]; omega

/-- THE OUTPUT ARRAY of the region after its run: bias added to every row of the input, the maximum with zero, and the
    product with the weight matrix. -/
theorem region1 : (dat1 (F := Ideal) V c).arrAt 3 cfg1.N
    = Host.dotGeneral (F := Ideal) (φ₁ := .f32) (φ₂ := .f32) Cert.ReferenceIdeal.dot_S100000x128_S128x128_S100000x128_1_0_0_1_n_n none
        (maximumf (addf (V c main_v43) (broadcastInDim Cert.ReferenceIdeal.S100000x128 ![0, 1] Cert.ReferenceIdeal.Facts₀.bcast_S1x128_S100000x128_0_1 (V c main_v44)))
          (broadcastInDim Cert.ReferenceIdeal.S100000x128 ![] Cert.ReferenceIdeal.Facts₀.bcast_S_S100000x128 (constant (F := Ideal) Cert.ReferenceIdeal.S_ .f32 0x00000000#32)))
        (V c main_arg5) :=
  (dat1 (F := Ideal) V c).arrAt_eq_of_cover 3 (layer1 (V c main_v43) (V c main_v44) (V c main_arg5)) (fun t _ => flushed1 V c t) cover1

end Cert.KernelIdeal.RegionValue

end
-- ==== Proof.Region2.lean ====
/-
  The third linear region: what its output array holds after the run, as one function of its input arrays.

  Each of the ten grid points reads a block of 10000 rows of the aggregated features, the one bias row and the whole
  weight matrix; it adds the bias to every row, takes the maximum with zero, and writes the product of the result with
  the weights back to the same rows of the output. The ten blocks tile the 100000 rows, and a row of the product depends
  on that row of the left factor only, so the output array is the product of max (a + broadcast bias) 0, taken over the
  whole array, by the weight matrix.
-/
import proofs.«123561_j14474039788040_1_alg».proof.Proof.Gen.KernelIdeal.Frame
import proofs.«123561_j14474039788040_1_alg».proof.ReferenceIdeal
import proofs.«123561_j14474039788040_1_alg».proof.Proof.Gen.ReferenceIdeal
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws
import proofs.«123561_j14474039788040_1_alg».proof.Proof.LibPlainMatmul
set_option maxRecDepth 16384

noncomputable section

namespace Cert.KernelIdeal.RegionValue

open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b)) (c : Dev nD)

/-- The zero offsets of a whole-block access. -/
theorem zeroOff2 : (![0, 0] : Fin 2 → Nat) = fun _ => 0 := funext fun a => by fin_cases a <;> rfl

/-- Bias, rectification and the product with the weights, of the whole array. -/
abbrev layer2 (a : FVec Ideal Cert.ReferenceIdeal.S100000x128 .f32) (b : FVec Ideal Cert.ReferenceIdeal.S1x128 .f32)
    (w : FVec Ideal Cert.ReferenceIdeal.S128x128 .f32) : FVec Ideal Cert.ReferenceIdeal.S100000x128 .f32 :=
  Host.dotGeneral (F := Ideal) (φ₁ := .f32) (φ₂ := .f32) Cert.ReferenceIdeal.dot_S100000x128_S128x128_S100000x128_1_0_0_1_n_n none
    (maximumf (addf a (broadcastInDim Cert.ReferenceIdeal.S100000x128 ![0, 1] Cert.ReferenceIdeal.Facts₀.bcast_S1x128_S100000x128_0_1 b))
      (broadcastInDim Cert.ReferenceIdeal.S100000x128 ![] Cert.ReferenceIdeal.Facts₀.bcast_S_S100000x128 (constant (F := Ideal) Cert.ReferenceIdeal.S_ .f32 0x00000000#32)))
    w

/-- The whole-array expression at (r, q): the sum over k of max (a(r, k) + b(0, k)) 0 · w(k, q). -/
theorem layer2_apply (a : FVec Ideal Cert.ReferenceIdeal.S100000x128 .f32) (b : FVec Ideal Cert.ReferenceIdeal.S1x128 .f32)
    (w : FVec Ideal Cert.ReferenceIdeal.S128x128 .f32) (r : Fin 100000) (q : Fin 128) :
    layer2 a b w (ix2 r q)
      = ∑ k : Fin 128, max (a (ix2 r k) + b (ix2 (0 : Fin 1) k)) (Ideal.ofBits .f32 0x00000000#32) * w (ix2 k q) := by
  refine (Cert.PlainMatmul.dotGeneral_apply
    (Cert.ReferenceIdeal.Facts₀.dot_S100000x128_S128x128_S100000x128_1_0_0_1_n_n_wf) none .single _ w r q).trans ?_
  refine Finset.sum_congr rfl fun k _ => ?_
  rw [maximumf_apply, addf_apply, broadcastInDim_oneRow_apply, broadcastInDim_scalar_apply]
  rfl

/-- The body's payload at (p, q): the same sum over the block's row p and the bias row (a change of format is the
    identity on the extended reals, and the accumulator is the zero splat). -/
theorem pay2_apply (x0 : Vec Ideal S10000x128 .f32) (x1 : Vec Ideal S1x128 .f32) (x2 : Vec Ideal S128x128 .f32)
    (p : Fin 10000) (q : Fin 128) :
    k2_pay1 (F := Ideal) x0 x1 x2 (ix2 p q)
      = ∑ k : Fin 128, max (x0 (ix2 p k) + x1 (ix2 (0 : Fin 1) k)) (Ideal.ofBits .f32 0x00000000#32) * x2 (ix2 k q) := by
  unfold k2_pay1
  refine (Cert.PlainMatmul.matmul_zero_apply
    (Cert.KernelIdeal.Facts₀.dot_S10000x128_S128x128_S10000x128_1_0_0_1_n_n_wf) none _ _ p q).trans ?_
  refine Finset.sum_congr rfl fun k _ => ?_
  rw [truncf_apply, truncf_apply]
  simp only [shapeCast_self]
  rw [maximumf_apply, addf_apply, broadcastTo_1b_ab_apply, broadcast_apply]
  rfl

/-- The printed index maps, decided over the grid: the input block and the output block of point t are both block t of
    the rows, the bias window, the weight window and the column blocks stay at 0. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The grid has ten points. -/
theorem lt2 (t : Fin cfg2.N) : t.val < 10 := Nat.lt_of_lt_of_eq t.isLt (N_2 : cfg2.N = 10)

/-- Row p of block t is row t * 10000 + p of the array. -/
theorem row2 (t : Fin cfg2.N) (p : Fin 10000) : t.val * 10000 + p.val < 100000 := by
  have := lt2 t; have := p.isLt; omega

/-- The input block at point t, at (p, k), is the input array at row t * 10000 + p. -/
theorem iblk2_0_apply (t : Fin cfg2.N) (p : Fin 10000) (k : Fin 128) :
    (iblk2 V c 0 t : Vec Ideal S10000x128 .f32) (ix2 p k)
      = (V c main_v57 : Cert.ReferenceIdeal.S100000x128.Idx → Ideal .f32) (ix2 ⟨t.val * 10000 + p.val, row2 t p⟩ k) := by
  obtain ⟨e0, e1, -, -, -, -, -, -⟩ := idx2 t
  unfold iblk2
  rw [View.read_apply]
  show V c main_v57 _ = V c main_v57 _
  congr 1
  funext a
  apply Fin.ext
  match a with
  | ⟨0, _⟩ => show win2_0.index t (0 : Fin 2) * 10000 + 1 * p.val = t.val * 10000 + p.val; rw [e0]; omega
  | ⟨1, _⟩ => show win2_0.index t (1 : Fin 2) * 128 + 1 * k.val = k.val; rw [e1]; omega

/-- The bias block at any point is the bias row. -/
theorem iblk2_1_apply (t : Fin cfg2.N) (k : Fin 128) :
    (iblk2 V c 1 t : Vec Ideal S1x128 .f32) (ix2 (0 : Fin 1) k)
      = (V c main_v58 : Cert.ReferenceIdeal.S1x128.Idx → Ideal .f32) (ix2 (0 : Fin 1) k) := by
  obtain ⟨-, -, e2, e3, -, -, -, -⟩ := idx2 t
  unfold iblk2
  rw [View.read_apply]
  show V c main_v58 _ = V c main_v58 _
  congr 1
  funext a
  apply Fin.ext
  match a with
  | ⟨0, _⟩ => show win2_1.index t (0 : Fin 2) * 1 + 1 * 0 = 0; rw [e2]
  | ⟨1, _⟩ => show win2_1.index t (1 : Fin 2) * 128 + 1 * k.val = k.val; rw [e3]; omega

/-- The weight block at any point is the weight matrix. -/
theorem iblk2_2_apply (t : Fin cfg2.N) (k : Fin 128) (q : Fin 128) :
    (iblk2 V c 2 t : Vec Ideal S128x128 .f32) (ix2 k q)
      = (V c main_arg7 : Cert.ReferenceIdeal.S128x128.Idx → Ideal .f32) (ix2 k q) := by
  obtain ⟨-, -, -, -, e4, e5, -, -⟩ := idx2 t
  unfold iblk2
  rw [View.read_apply]
  show V c main_arg7 _ = V c main_arg7 _
  congr 1
  funext a
  apply Fin.ext
  match a with
  | ⟨0, _⟩ => show win2_2.index t (0 : Fin 2) * 128 + 1 * k.val = k.val; rw [e4]; omega
  | ⟨1, _⟩ => show win2_2.index t (1 : Fin 2) * 128 + 1 * q.val = q.val; rw [e5]; omega

/-- The output block's entry (p, q) sits at row t * 10000 + p of the array. -/
theorem emb2 (t : Fin cfg2.N) (p : Fin 10000) (q : Fin 128) :
    ((cfg2.win 3).blk t).view.emb (ix2 p q) = (ix2 ⟨t.val * 10000 + p.val, row2 t p⟩ q : Cert.ReferenceIdeal.S100000x128.Idx) := by
  obtain ⟨-, -, -, -, -, -, e6, e7⟩ := idx2 t
  funext a
  apply Fin.ext
  match a with
  | ⟨0, _⟩ => show win2_3.index t (0 : Fin 2) * 10000 + 1 * p.val = t.val * 10000 + p.val; rw [e6]; omega
  | ⟨1, _⟩ => show win2_3.index t (1 : Fin 2) * 128 + 1 * q.val = q.val; rw [e7]; omega

/-- What point t writes back is block t of the whole-array expression. -/
theorem flushed2 (t : Fin cfg2.N) :
    (dat2 (F := Ideal) V c).flushed 3 t
      = ((cfg2.win 3).blk t).view.read (Elt Ideal) (layer2 (V c main_v57) (V c main_v58) (V c main_arg7)) := by
  show (cfg2.win 3).cut (grid2.coords t) ((dat2 (F := Ideal) V c).after 3 t) = _
  rw [after2_3]
  unfold out2_3
  rw [View.canon_unit_zero zeroOff2]
  simp only [View.ld_unit_zero (S := S10000x128) zeroOff2, View.ld_unit_zero (S := S1x128) zeroOff2,
    View.ld_unit_zero (S := S128x128) zeroOff2]
  funext j
  obtain ⟨p, q, rfl⟩ : ∃ (p : Fin 10000) (q : Fin 128), j = ix2 p q := ⟨j 0, j 1, eq_ix2 j⟩
  show k2_pay1 (F := Ideal) (iblk2 V c 0 t) (iblk2 V c 1 t) (iblk2 V c 2 t) (ix2 p q)
    = layer2 (V c main_v57) (V c main_v58) (V c main_arg7) (((cfg2.win 3).blk t).view.emb (ix2 p q))
  refine (pay2_apply (iblk2 V c 0 t) (iblk2 V c 1 t) (iblk2 V c 2 t) p q).trans ?_
  rw [emb2 t p q, layer2_apply]
  refine Finset.sum_congr rfl fun k _ => ?_
  rw [iblk2_0_apply V c t p k, iblk2_1_apply V c t k, iblk2_2_apply V c t k q]

/-- An index of the array is in point t's block iff each coordinate is in the block's range on its axis. -/
theorem mem_blk2 (t : Fin cfg2.N) (i : Cert.ReferenceIdeal.S100000x128.Idx) :
    i ∈ ((cfg2.win 3).blk t).view.set ↔ ∀ a : Fin 2, win2_3.index t a * S10000x128.size a ≤ (i a).val
      ∧ (i a).val < win2_3.index t a * S10000x128.size a + S10000x128.size a := by
  show i ∈ ((View.whole main_v59).slice (win2_3.rect t)).set ↔ _
  rw [View.set_slice_whole, Rect.mem_set_unit]
  exact Iff.rfl

/-- Every index of the array is in the block of the point its row falls in: row r is in block r / 10000. -/
theorem cover2 (i : Cert.ReferenceIdeal.S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  let t : Fin cfg2.N := ⟨(i 0).val / 10000, Nat.lt_of_lt_of_eq (by omega) (N_2 : cfg2.N = 10).symm⟩
  obtain ⟨-, -, -, -, -, -, e6, e7⟩ := idx2 t
  have ht : t.val = (i 0).val / 10000 := rfl
  refine ⟨t, flush2_3 t, ?_⟩
  rw [mem_blk2]
  intro a
  match a with
  | ⟨0, _⟩ => show win2_3.index t (0 : Fin 2) * 10000 ≤ (i 0).val ∧ (i 0).val < win2_3.index t (0 : Fin 2) * 10000 + 10000; rw [e6, ht]; omega
  | ⟨1, _⟩ => show win2_3.index t (1 : Fin 2) * 128 ≤ (i 1).val ∧ (i 1).val < win2_3.index t (1 : Fin 2) * 128 + 128; rw [e7]; omega

/-- THE OUTPUT ARRAY of the region after its run: bias added to every row of the input, the maximum with zero, and the
    product with the weight matrix. -/
theorem region2 : (dat2 (F := Ideal) V c).arrAt 3 cfg2.N
    = Host.dotGeneral (F := Ideal) (φ₁ := .f32) (φ₂ := .f32) Cert.ReferenceIdeal.dot_S100000x128_S128x128_S100000x128_1_0_0_1_n_n none
        (maximumf (addf (V c main_v57) (broadcastInDim Cert.ReferenceIdeal.S100000x128 ![0, 1] Cert.ReferenceIdeal.Facts₀.bcast_S1x128_S100000x128_0_1 (V c main_v58)))
          (broadcastInDim Cert.ReferenceIdeal.S100000x128 ![] Cert.ReferenceIdeal.Facts₀.bcast_S_S100000x128 (constant (F := Ideal) Cert.ReferenceIdeal.S_ .f32 0x00000000#32)))
        (V c main_arg7) :=
  (dat2 (F := Ideal) V c).arrAt_eq_of_cover 3 (layer2 (V c main_v57) (V c main_v58) (V c main_arg7)) (fun t _ => flushed2 V c t) cover2

end Cert.KernelIdeal.RegionValue

end
-- ==== Proof.Region3.lean ====
/-
  The bias-and-rectify region: what its output array holds after the run, as one function of its input arrays.

  Each of the ten grid points reads a block of 10000 rows of the input and the one bias row, and writes the block
  max (x + bias) 0 back to the same rows of the output. The ten blocks tile the 100000 rows, so the output array is
  the whole-array expression max (a + broadcast bias) 0.
-/
import proofs.«123561_j14474039788040_1_alg».proof.Proof.Gen.KernelIdeal.Frame
import proofs.«123561_j14474039788040_1_alg».proof.ReferenceIdeal
import proofs.«123561_j14474039788040_1_alg».proof.Proof.Gen.ReferenceIdeal
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws

set_option maxRecDepth 16384

noncomputable section

namespace Cert.KernelIdeal.RegionValue

open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b)) (c : Dev nD)

/-- The zero offsets of a whole-block access. -/
theorem zeroOff3 : (![0, 0] : Fin 2 → Nat) = fun _ => 0 := funext fun a => by fin_cases a <;> rfl

/-- Bias and rectification of the whole array: every row gets the one bias row added, then the maximum with zero. -/
abbrev biasRelu3 (a : FVec Ideal Cert.ReferenceIdeal.S100000x128 .f32) (b : FVec Ideal Cert.ReferenceIdeal.S1x128 .f32) :
    FVec Ideal Cert.ReferenceIdeal.S100000x128 .f32 :=
  maximumf (addf a (broadcastInDim Cert.ReferenceIdeal.S100000x128 ![0, 1] Cert.ReferenceIdeal.Facts₀.bcast_S1x128_S100000x128_0_1 b))
    (broadcastInDim Cert.ReferenceIdeal.S100000x128 ![] Cert.ReferenceIdeal.Facts₀.bcast_S_S100000x128 (constant (F := Ideal) Cert.ReferenceIdeal.S_ .f32 0x00000000#32))

/-- The whole-array function at (r, q): max (a(r, q) + b(0, q)) 0. -/
theorem biasRelu3_apply (a : FVec Ideal Cert.ReferenceIdeal.S100000x128 .f32) (b : FVec Ideal Cert.ReferenceIdeal.S1x128 .f32)
    (r : Fin 100000) (q : Fin 128) :
    biasRelu3 a b (ix2 r q) = max (a (ix2 r q) + b (ix2 (0 : Fin 1) q)) (Ideal.ofBits .f32 0x00000000#32) := by
  unfold biasRelu3
  rw [maximumf_apply, addf_apply, broadcastInDim_oneRow_apply, broadcastInDim_scalar_apply]
  rfl

/-- The body's payload at (p, q): the same expression of the block's entry and the bias row. -/
theorem pay3_apply (x0 : Vec Ideal S10000x128 .f32) (x1 : Vec Ideal S1x128 .f32) (p : Fin 10000) (q : Fin 128) :
    k3_pay1 (F := Ideal) x0 x1 (ix2 p q) = max (x0 (ix2 p q) + x1 (ix2 (0 : Fin 1) q)) (Ideal.ofBits .f32 0x00000000#32) := by
  unfold k3_pay1
  simp only [shapeCast_self]
  rw [maximumf_apply, addf_apply, broadcastTo_1b_ab_apply, broadcast_apply]
  rfl

/-- The printed index maps, decided over the grid: the input block and the output block of point t are both block t of
    the rows, the bias window and the column blocks stay at 0. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The grid has ten points. -/
theorem lt3 (t : Fin cfg3.N) : t.val < 10 := Nat.lt_of_lt_of_eq t.isLt (N_3 : cfg3.N = 10)

/-- Row p of block t is row t * 10000 + p of the array. -/
theorem row3 (t : Fin cfg3.N) (p : Fin 10000) : t.val * 10000 + p.val < 100000 := by
  have := lt3 t; have := p.isLt; omega

/-- The input block at point t, at (p, q), is the input array at row t * 10000 + p. -/
theorem iblk3_0_apply (t : Fin cfg3.N) (p : Fin 10000) (q : Fin 128) :
    (iblk3 V c 0 t : Vec Ideal S10000x128 .f32) (ix2 p q)
      = (V c main_v71 : Cert.ReferenceIdeal.S100000x128.Idx → Ideal .f32) (ix2 ⟨t.val * 10000 + p.val, row3 t p⟩ q) := by
  obtain ⟨e0, e1, -, -, -, -⟩ := idx3 t
  unfold iblk3
  rw [View.read_apply]
  show V c main_v71 _ = V c main_v71 _
  congr 1
  funext a
  apply Fin.ext
  match a with
  | ⟨0, _⟩ => show win3_0.index t (0 : Fin 2) * 10000 + 1 * p.val = t.val * 10000 + p.val; rw [e0]; omega
  | ⟨1, _⟩ => show win3_0.index t (1 : Fin 2) * 128 + 1 * q.val = q.val; rw [e1]; omega

/-- The bias block at any point is the bias row. -/
theorem iblk3_1_apply (t : Fin cfg3.N) (q : Fin 128) :
    (iblk3 V c 1 t : Vec Ideal S1x128 .f32) (ix2 (0 : Fin 1) q)
      = (V c main_v72 : Cert.ReferenceIdeal.S1x128.Idx → Ideal .f32) (ix2 (0 : Fin 1) q) := by
  obtain ⟨-, -, e2, e3, -, -⟩ := idx3 t
  unfold iblk3
  rw [View.read_apply]
  show V c main_v72 _ = V c main_v72 _
  congr 1
  funext a
  apply Fin.ext
  match a with
  | ⟨0, _⟩ => show win3_1.index t (0 : Fin 2) * 1 + 1 * 0 = 0; rw [e2]
  | ⟨1, _⟩ => show win3_1.index t (1 : Fin 2) * 128 + 1 * q.val = q.val; rw [e3]; omega

/-- The output block's entry (p, q) sits at row t * 10000 + p of the array. -/
theorem emb3 (t : Fin cfg3.N) (p : Fin 10000) (q : Fin 128) :
    ((cfg3.win 2).blk t).view.emb (ix2 p q) = (ix2 ⟨t.val * 10000 + p.val, row3 t p⟩ q : Cert.ReferenceIdeal.S100000x128.Idx) := by
  obtain ⟨-, -, -, -, e4, e5⟩ := idx3 t
  funext a
  apply Fin.ext
  match a with
  | ⟨0, _⟩ => show win3_2.index t (0 : Fin 2) * 10000 + 1 * p.val = t.val * 10000 + p.val; rw [e4]; omega
  | ⟨1, _⟩ => show win3_2.index t (1 : Fin 2) * 128 + 1 * q.val = q.val; rw [e5]; omega

/-- What point t writes back is block t of the whole-array expression. -/
theorem flushed3 (t : Fin cfg3.N) :
    (dat3 (F := Ideal) V c).flushed 2 t
      = ((cfg3.win 2).blk t).view.read (Elt Ideal) (biasRelu3 (V c main_v71) (V c main_v72)) := by
  show (cfg3.win 2).cut (grid3.coords t) ((dat3 (F := Ideal) V c).after 2 t) = _
  rw [after3_2]
  unfold out3_2
  rw [View.canon_unit_zero zeroOff3]
  simp only [View.ld_unit_zero (S := S10000x128) zeroOff3, View.ld_unit_zero (S := S1x128) zeroOff3]
  funext j
  obtain ⟨p, q, rfl⟩ : ∃ (p : Fin 10000) (q : Fin 128), j = ix2 p q := ⟨j 0, j 1, eq_ix2 j⟩
  show k3_pay1 (F := Ideal) (iblk3 V c 0 t) (iblk3 V c 1 t) (ix2 p q)
    = biasRelu3 (V c main_v71) (V c main_v72) (((cfg3.win 2).blk t).view.emb (ix2 p q))
  refine (pay3_apply (iblk3 V c 0 t) (iblk3 V c 1 t) p q).trans ?_
  rw [emb3 t p q, biasRelu3_apply, iblk3_0_apply V c t p q, iblk3_1_apply V c t q]

/-- An index of the array is in point t's block iff each coordinate is in the block's range on its axis. -/
theorem mem_blk3 (t : Fin cfg3.N) (i : Cert.ReferenceIdeal.S100000x128.Idx) :
    i ∈ ((cfg3.win 2).blk t).view.set ↔ ∀ a : Fin 2, win3_2.index t a * S10000x128.size a ≤ (i a).val
      ∧ (i a).val < win3_2.index t a * S10000x128.size a + S10000x128.size a := by
  show i ∈ ((View.whole main_v73).slice (win3_2.rect t)).set ↔ _
  rw [View.set_slice_whole, Rect.mem_set_unit]
  exact Iff.rfl

/-- Every index of the array is in the block of the point its row falls in: row r is in block r / 10000. -/
theorem cover3 (i : Cert.ReferenceIdeal.S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  let t : Fin cfg3.N := ⟨(i 0).val / 10000, Nat.lt_of_lt_of_eq (by omega) (N_3 : cfg3.N = 10).symm⟩
  obtain ⟨-, -, -, -, e4, e5⟩ := idx3 t
  have ht : t.val = (i 0).val / 10000 := rfl
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; rw [e4, ht]; omega
  | ⟨1, _⟩ => show win3_2.index t (1 : Fin 2) * 128 ≤ (i 1).val ∧ (i 1).val < win3_2.index t (1 : Fin 2) * 128 + 128; rw [e5]; omega

/-- THE OUTPUT ARRAY of the region after its run: bias added to every row of the input, then the maximum with zero. -/
theorem region3 : (dat3 (F := Ideal) V c).arrAt 2 cfg3.N
    = maximumf (addf (V c main_v71) (broadcastInDim Cert.ReferenceIdeal.S100000x128 ![0, 1] Cert.ReferenceIdeal.Facts₀.bcast_S1x128_S100000x128_0_1 (V c main_v72)))
        (broadcastInDim Cert.ReferenceIdeal.S100000x128 ![] Cert.ReferenceIdeal.Facts₀.bcast_S_S100000x128 (constant (F := Ideal) Cert.ReferenceIdeal.S_ .f32 0x00000000#32)) :=
  (dat3 (F := Ideal) V c).arrAt_eq_of_cover 2 (biasRelu3 (V c main_v71) (V c main_v72)) (fun t _ => flushed3 V c t) cover3

end Cert.KernelIdeal.RegionValue

end
-- ==== Proof.LibRowOps.lean ====
/-
  Rows of a matrix reduced along their lanes, and a column of per-row values spread back over the lanes, each read at an
  index written by its coordinates.

  A softmax over the lanes of an `[a, b]` matrix takes, row by row, a maximum and a sum over the `b` lanes, and
  gives each back to every lane of its row (a vector `[a]` cast to a column `[a, 1]`, then broadcast to `[a, b]`).
  At the ideal values the lane maximum at row `p` is the fold of `max` over `c : Fin b` of the entries `(p, c)`, the
  lane sum the sum over `c` of them, and the spread column reads, at `(p, c)`, the vector at `p`.
  The host's reduction over the MIDDLE axis of an `[n, a, b]` array (a softmax over axis 1) is read the same way:
  at `(k, c)` the fold over `p : Fin a` of the entries `(k, p, c)`.
-/
import Idealize.ShloMosaic.PureOps.Ideal.Laws
import Idealize.ShloMosaic.Lib.Pipeline.Value
import Idealize.ShloMosaic.Lib.ValueIdx

namespace Cert.RowOps

open Idealize.ShloMosaic Idealize.ShloMosaic.ValueIdx

/-- A vector `[a]` cast to the column `[a, 1]` and broadcast over `b` lanes reads, at `(p, c)`, the vector at `p`:
    the column's one lane is lane `0`, and row `p` of the column is entry `p` of the vector. -/
theorem spreadColumn_apply {α : Type} {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ x h1) h2 (ix2 p c) = x (ix1 p) := by
  refine (broadcastTo_apply _ h2 (ix2 p c) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else c.val
      rw [if_pos rfl]
  · exact shapeCast_apply x h1 _ _ (by
      rw [Shape.rowMajor_val_one, Shape.rowMajor_val_two]
      show p.val = p.val * 1 + 0
      omega)

variable {φ : FTy}

/-- The lane maximum of row `p`: the fold of `max`, from the accumulator's value, over the row's `b` entries. -/
theorem laneMax_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  show (Finset.univ : Finset (Fin b)).fold max (Ideal.ofBits φ acc) (fun c => src (h.lift (ix1 p) c)) = _
  refine congrArg (fun f => (Finset.univ : Finset (Fin b)).fold max (Ideal.ofBits φ acc) f) (funext fun c => ?_)
  exact congrArg src (funext fun ax => Fin.ext (by match ax with | ⟨0, _⟩ => rfl | ⟨1, _⟩ => rfl))

/-- The lane sum of row `p`: the sum of the row's `b` entries. -/
theorem laneSum_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ c : Fin b, src (ix2 p c) := by
  refine (Ideal.multiReduction_add_single src acc h hφ hacc (ix1 p)).trans ?_
  show ∑ c : Fin b, src (h.lift (ix1 p) c) = _
  refine Finset.sum_congr rfl fun c _ => ?_
  exact congrArg src (funext fun ax => Fin.ext (by match ax with | ⟨0, _⟩ => rfl | ⟨1, _⟩ => rfl))

/-- The host's maximum over the MIDDLE axis of an `[n, a, b]` array, at `(k, c)`: the fold of `max`, from the initial
    value, over `p : Fin a` of the entries `(k, p, c)`. -/
theorem hostMidMax_apply {n a b : ℕ} {u : Shape} (x : (⟨3, ![n, a, b]⟩ : Shape).Idx → Ideal φ) (init : u.Idx → Ideal φ)
    (h' : (⟨3, ![n, a, b]⟩ : Shape).ReducesTo [1] ⟨2, ![n, b]⟩) (h : (⟨3, ![n, a, b]⟩ : Shape).Reduces [1] ⟨2, ![n, b]⟩)
    (hu : 0 < u.numel) (k : Fin n) (c : Fin b) :
    Host.reduce (FloatOps.maximumf (F := Ideal) (φ := φ)) x init h' hu (ix2 k c)
      = (Finset.univ : Finset (Fin a)).fold max (init (Shape.Idx.first hu)) (fun p => x (ix3 k p c)) := by
  refine (Host.reduce_eq_fold_single (FloatOps.maximumf (F := Ideal) (φ := φ)) x init h' h hu (ix2 k c)).trans ?_
  show (Finset.univ : Finset (Fin a)).fold max (init (Shape.Idx.first hu)) (fun p => x (h.lift (ix2 k c) p)) = _
  refine congrArg (fun f => (Finset.univ : Finset (Fin a)).fold max (init (Shape.Idx.first hu)) f) (funext fun p => ?_)
  exact congrArg x (funext fun ax => Fin.ext (by match ax with | ⟨0, _⟩ => rfl | ⟨1, _⟩ => rfl | ⟨2, _⟩ => rfl))

end Cert.RowOps
-- ==== Proof.LibKeepdims.lean ====
/-
  Layout operations of a sum taken with `keepdims`, read at an index given by coordinates, and a one-axis sum read
  as a sum over that axis's coordinate. General facts about shapes [a], [a, 1], [1, a] and [a, b]: nothing here
  mentions a program.

  • `shapeCast_a_a1_apply`: a vector [a] viewed as the column [a, 1] reads, at (i, u), the vector at i.
  • `broadcastTo_a1_ab_apply`: a column [a, 1] broadcast to [a, b] reads, at (p, c), the column at (p, 0).
  • `rowSum_apply`: the sum of an [a, b] array along its second axis reads, at p, the sum over k of the array at (p, k).
  • `rowSumSq_bcast_apply`: the squares of an [a, b] array summed along the second axis, kept as a column and broadcast
    to [a, c]: at (p, q) the sum over k of the square at (p, k) — a row's squared norm, the same in every column.
  • `colSumSq_bcast_apply`: the same sum for a [c, b] array, its column transposed to a row [1, c] and broadcast to
    [a, c]: at (p, q) the sum over k of the square at (q, k) — a row's squared norm, the same in every row.
-/
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`: the two row-major positions are
    `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A float sum of an `[a, b]` array along its second axis, on the extended reals, reads at `p` the sum over `k` of the
    array at `(p, k)`. -/
theorem rowSum_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- Each row's squared norm, kept as a column and broadcast along the rows of `[a, c]`. -/
theorem rowSumSq_bcast_apply {a b c : ℕ} (v : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, c]⟩) (p : Fin a) (q : Fin c) :
    broadcastTo ⟨2, ![a, c]⟩ (shapeCast ⟨2, ![a, 1]⟩ (multiReduction (F := Ideal) .add [1] ⟨1, ![a]⟩ (mulf v v) 0x00000000#32 hR hφ hacc) hC) hB (ix2 p q)
      = ∑ k : Fin b, v (ix2 p k) * v (ix2 p k) :=
  (broadcastTo_a1_ab_apply _ hB p q).trans
    ((shapeCast_a_a1_apply _ hC p 0).trans (rowSum_apply (mulf v v) hR hφ hacc p))

/-- Each row's squared norm of a `[c, b]` array, its column turned into a row and broadcast down the rows of `[a, c]`. -/
theorem colSumSq_bcast_apply {a b c : ℕ} (w : FVec Ideal ⟨2, ![c, b]⟩ .f32) (hR : (⟨2, ![c, b]⟩ : Shape).Reduces [1] ⟨1, ![c]⟩)
    (hφ : FKind.Formats .f32) (hacc : (0x00000000#32 : BitVec 32) = FKind.add.neutral .f32 hφ)
    (hC : (⟨1, ![c]⟩ : Shape).ShapeCasts ⟨2, ![c, 1]⟩) (hT : (⟨2, ![c, 1]⟩ : Shape).Transposes [1, 0] ⟨2, ![1, c]⟩)
    (hB : (⟨2, ![1, c]⟩ : Shape).Broadcasts ⟨2, ![a, c]⟩) (p : Fin a) (q : Fin c) :
    broadcastTo ⟨2, ![a, c]⟩ (transpose ⟨2, ![1, c]⟩ [1, 0]
        (shapeCast ⟨2, ![c, 1]⟩ (multiReduction (F := Ideal) .add [1] ⟨1, ![c]⟩ (mulf w w) 0x00000000#32 hR hφ hacc) hC) hT) hB (ix2 p q)
      = ∑ k : Fin b, w (ix2 q k) * w (ix2 q k) :=
  (broadcastTo_1b_ab_apply _ hB p q).trans
    ((transpose_ix2_apply _ hT 0 q).trans
      ((shapeCast_a_a1_apply _ hC q 0).trans (rowSum_apply (mulf w w) hR hφ hacc q)))

end Cert.Keepdims

end
-- ==== Proof.HeadSpec.lean ====
/-
  Log-softmax over the two classes of each of the 1000 graphs, in the two ways the programs compute it.

  For the logits `L r c` of graph `r`, with `M r = max_c L r c` and `S r = Σ_c exp (L r c − M r)`, one program
  subtracts the log-sum-exp in one piece, `L r c − (M r + log (S r))`, the other subtracts the maximum first and the
  logarithm afterwards, `(L r c − M r) − log (S r)`. On the extended reals the two agree when the logits are real
  numbers (at an infinite logit `−(M + log S)` need not be `−M − log S`).
-/
import Idealize.ShloMosaic.PureOps.Ideal
import Idealize.ShloMosaic.Lib.ValueIdx

noncomputable section

open scoped BigOperators

namespace Cert.Gnn

open Idealize.ShloMosaic Idealize.ShloMosaic.ValueIdx

/-- The shape of the logits: one row per graph, one column per class. -/
abbrev SL : Shape := ⟨2, ![1000, 2]⟩

/-- The largest logit of graph `r`, as a fold of `max` from `−∞` over the two classes. -/
def rowMax (L : SL.Idx → EReal) (r : Fin 1000) : EReal :=
  (Finset.univ : Finset (Fin 2)).fold max ⊥ (fun c => L (ix2 r c))

/-- The normaliser of graph `r`: the sum over the classes of `exp (logit − rowMax)`. -/
def rowSum (L : SL.Idx → EReal) (r : Fin 1000) : EReal :=
  ∑ c : Fin 2, Ideal.exp (L (ix2 r c) - rowMax L r)

/-- Log-softmax with the log-sum-exp subtracted in one piece: `a − (M + log S)`. -/
def lseJoined (L : SL.Idx → EReal) : SL.Idx → EReal :=
  fun i => L i - (rowMax L ⟨(i 0).val, (i 0).isLt⟩ + Ideal.log (rowSum L ⟨(i 0).val, (i 0).isLt⟩))

/-- Log-softmax with the maximum and the logarithm subtracted one after the other: `(a − M) − log S`. -/
def lseSplit (L : SL.Idx → EReal) : SL.Idx → EReal :=
  fun i => (L i - rowMax L ⟨(i 0).val, (i 0).isLt⟩) - Ideal.log (rowSum L ⟨(i 0).val, (i 0).isLt⟩)

theorem lseJoined_ix2 (L : SL.Idx → EReal) (p : Fin 1000) (q : Fin 2) :
    lseJoined L (ix2 p q) = L (ix2 p q) - (rowMax L p + Ideal.log (rowSum L p)) := rfl

theorem lseSplit_ix2 (L : SL.Idx → EReal) (p : Fin 1000) (q : Fin 2) :
    lseSplit L (ix2 p q) = (L (ix2 p q) - rowMax L p) - Ideal.log (rowSum L p) := rfl

end Cert.Gnn

end
-- ==== Proof.Region4.lean ====
/-
  The classifier-head region: what its output array holds after the run, as one function of its input arrays.

  The region has one grid point whose blocks are the whole arrays. The body multiplies the 1000 pooled rows by the first
  weight matrix, adds the first bias row, takes the maximum with zero, multiplies by the second weight matrix and adds
  the second bias row: the logits, two per row. It then subtracts from each logit its row's log-sum-exp, computed as
  the row maximum plus the logarithm of the sum of the exponentials of the logits less that maximum.
-/
import proofs.«123561_j14474039788040_1_alg».proof.Proof.Gen.KernelIdeal.Frame
import proofs.«123561_j14474039788040_1_alg».proof.ReferenceIdeal
import proofs.«123561_j14474039788040_1_alg».proof.Proof.Gen.ReferenceIdeal
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws
import proofs.«123561_j14474039788040_1_alg».proof.Proof.LibPlainMatmul
import proofs.«123561_j14474039788040_1_alg».proof.Proof.LibRowOps
import proofs.«123561_j14474039788040_1_alg».proof.Proof.LibKeepdims
import proofs.«123561_j14474039788040_1_alg».proof.Proof.HeadSpec
set_option maxRecDepth 16384

noncomputable section

namespace Cert.KernelIdeal.RegionValue

open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b)) (c : Dev nD)

/-- The zero offsets of a whole-block access. -/
theorem zeroOff4 : (![0, 0] : Fin 2 → Nat) = fun _ => 0 := funext fun a => by fin_cases a <;> rfl

/-! ## The log-softmax of any logits, the way the body computes it -/

/-- The bit pattern of the lane maximum's accumulator denotes −∞. -/
theorem negInf4 : Ideal.ofBits .f32 0xFF800000#32 = (⊥ : EReal) := by simp [Ideal.ofBits, Ideal.ieee]

/-- The lane maximum of the logits, kept as a column: at (p, u) the largest logit of row p. -/
theorem kmax4_apply (L : FVec Ideal S1000x2 .f32) (p : Fin 1000) (u : Fin 1) :
    shapeCast S1000x1 (multiReduction (F := Ideal) .maximumf [1] S1000 L 0xFF800000#32 reduces_S1000x2_S1000 (.inl rfl) rfl)
        shapeCasts_S1000_S1000x1 (ix2 p u)
      = Cert.Gnn.rowMax L p := by
  refine (Cert.Keepdims.shapeCast_a_a1_apply _ shapeCasts_S1000_S1000x1 p u).trans ?_
  refine (Cert.RowOps.laneMax_apply L 0xFF800000#32 reduces_S1000x2_S1000 (.inl rfl) rfl p).trans ?_
  unfold Cert.Gnn.rowMax
  rw [negInf4]

/-- Log-softmax over the two lanes of any logits, in the body's order of operations. -/
def klse4 (L : FVec Ideal S1000x2 .f32) : FVec Ideal S1000x2 .f32 :=
  have v20 : FVec Ideal S1000 .f32 := multiReduction .maximumf [1] S1000 L 0xFF800000#32 reduces_S1000x2_S1000 (.inl rfl) rfl
  have v21 : FVec Ideal S1000x1 .f32 := shapeCast S1000x1 v20 shapeCasts_S1000_S1000x1
  have v22 : FVec Ideal S1000x2 .f32 := broadcastTo S1000x2 v21 broadcasts_S1000x1_S1000x2
  have v23 : FVec Ideal S1000x2 .f32 := subf L v22
  have v24 : FVec Ideal S1000x2 .f32 := exp v23
  have v25 : FVec Ideal S1000 .f32 := multiReduction .add [1] S1000 v24 0x00000000#32 reduces_S1000x2_S1000 (.inl rfl) rfl
  have v26 : FVec Ideal S1000x1 .f32 := shapeCast S1000x1 v25 shapeCasts_S1000_S1000x1
  have v27 : FVec Ideal S1000x1 .f32 := log v26
  have v28 : FVec Ideal S1000x1 .f32 := addf v21 v27
  have v29 : FVec Ideal S1000x2 .f32 := broadcastTo S1000x2 v28 broadcasts_S1000x1_S1000x2
  subf L v29

/-- It is the log-softmax with the log-sum-exp subtracted in one piece. -/
theorem klse4_apply (L : FVec Ideal S1000x2 .f32) (p : Fin 1000) (q : Fin 2) :
    klse4 L (ix2 p q) = Cert.Gnn.lseJoined L (ix2 p q) := by
  rw [Cert.Gnn.lseJoined_ix2]
  simp only [klse4]
  rw [subf_apply]
  congr 1
  refine (Cert.Keepdims.broadcastTo_a1_ab_apply _ broadcasts_S1000x1_S1000x2 p q).trans ?_
  rw [addf_apply]
  congr 1
  · exact kmax4_apply L p 0
  · show Ideal.log _ = Ideal.log _
    congr 1
    refine (Cert.Keepdims.shapeCast_a_a1_apply _ shapeCasts_S1000_S1000x1 p 0).trans ?_
    refine (Cert.RowOps.laneSum_apply _ 0x00000000#32 reduces_S1000x2_S1000 (.inl rfl) rfl p).trans ?_
    unfold Cert.Gnn.rowSum
    refine Finset.sum_congr rfl fun c _ => ?_
    show Ideal.exp (L (ix2 p c) - _) = Ideal.exp (L (ix2 p c) - _)
    congr 2
    exact (Cert.Keepdims.broadcastTo_a1_ab_apply _ broadcasts_S1000x1_S1000x2 p c).trans (kmax4_apply L p 0)

/-! ## The logits -/

/-- Entry (p, k) of the body's first product. -/
theorem mm4a_apply (l : FVec Ideal S1000x128 .bf16) (r : FVec Ideal S128x32 .bf16) (p : Fin 1000) (k : Fin 32) :
    matmul (F := Ideal) dot_S1000x128_S128x32_S1000x32_1_0_0_1_n_n none l r (constant (F := Ideal) S1000x32 .f32 0x00000000#32) (ix2 p k)
      = ∑ j : Fin 128, l (ix2 p j) * r (ix2 j k) :=
  Cert.PlainMatmul.matmul_zero_apply Cert.KernelIdeal.Facts₀.dot_S1000x128_S128x32_S1000x32_1_0_0_1_n_n_wf none l r p k

/-- Entry (p, q) of the body's second product. -/
theorem mm4b_apply (l : FVec Ideal S1000x32 .bf16) (r : FVec Ideal S32x2 .bf16) (p : Fin 1000) (q : Fin 2) :
    matmul (F := Ideal) dot_S1000x32_S32x2_S1000x2_1_0_0_1_n_n none l r (constant (F := Ideal) S1000x2 .f32 0x00000000#32) (ix2 p q)
      = ∑ k : Fin 32, l (ix2 p k) * r (ix2 k q) :=
  Cert.PlainMatmul.matmul_zero_apply Cert.KernelIdeal.Facts₀.dot_S1000x32_S32x2_S1000x2_1_0_0_1_n_n_wf none l r p q

/-- Entry (p, k) of the host's first product. -/
theorem dg4a_apply (l : FVec Ideal Cert.ReferenceIdeal.S1000x128 .f32) (r : FVec Ideal Cert.ReferenceIdeal.S128x32 .f32) (p : Fin 1000) (k : Fin 32) :
    Host.dotGeneral (F := Ideal) (φ₁ := .f32) (φ₂ := .f32) Cert.ReferenceIdeal.dot_S1000x128_S128x32_S1000x32_1_0_0_1_n_n none l r (ix2 p k)
      = ∑ j : Fin 128, l (ix2 p j) * r (ix2 j k) :=
  Cert.PlainMatmul.dotGeneral_apply Cert.ReferenceIdeal.Facts₀.dot_S1000x128_S128x32_S1000x32_1_0_0_1_n_n_wf none .single l r p k

/-- Entry (p, q) of the host's second product. -/
theorem dg4b_apply (l : FVec Ideal Cert.ReferenceIdeal.S1000x32 .f32) (r : FVec Ideal Cert.ReferenceIdeal.S32x2 .f32) (p : Fin 1000) (q : Fin 2) :
    Host.dotGeneral (F := Ideal) (φ₁ := .f32) (φ₂ := .f32) Cert.ReferenceIdeal.dot_S1000x32_S32x2_S1000x2_1_0_0_1_n_n none l r (ix2 p q)
      = ∑ k : Fin 32, l (ix2 p k) * r (ix2 k q) :=
  Cert.PlainMatmul.dotGeneral_apply Cert.ReferenceIdeal.Facts₀.dot_S1000x32_S32x2_S1000x2_1_0_0_1_n_n_wf none .single l r p q

/-- One hidden unit of row p: the row's features times column k of the first weights, plus the bias, rectified. -/
def hidden4 (x : (⟨2, ![1000, 128]⟩ : Shape).Idx → EReal) (w1 : (⟨2, ![128, 32]⟩ : Shape).Idx → EReal)
    (b1 : (⟨2, ![1, 32]⟩ : Shape).Idx → EReal) (p : Fin 1000) (k : Fin 32) : EReal :=
  max ((∑ j : Fin 128, x (ix2 p j) * w1 (ix2 j k)) + b1 (ix2 (0 : Fin 1) k)) (Ideal.ofBits .f32 0x00000000#32)

/-- Logit q of row p: the hidden units times column q of the second weights, plus the bias. -/
def logit4 (x : (⟨2, ![1000, 128]⟩ : Shape).Idx → EReal) (w1 : (⟨2, ![128, 32]⟩ : Shape).Idx → EReal)
    (b1 : (⟨2, ![1, 32]⟩ : Shape).Idx → EReal) (w2 : (⟨2, ![32, 2]⟩ : Shape).Idx → EReal)
    (b2 : (⟨2, ![1, 2]⟩ : Shape).Idx → EReal) (p : Fin 1000) (q : Fin 2) : EReal :=
  (∑ k : Fin 32, hidden4 x w1 b1 p k * w2 (ix2 k q)) + b2 (ix2 (0 : Fin 1) q)

/-- The logits the body computes, before the log-softmax. -/
def klogits4 (v0 : Vec Ideal S1000x128 .f32) (v3 : Vec Ideal S128x32 .f32) (v6 : Vec Ideal S1x32 .f32)
    (v13 : Vec Ideal S32x2 .f32) (v16 : Vec Ideal S1x2 .f32) : FVec Ideal S1000x2 .f32 :=
  have v1 : FVec Ideal S1000x128 .f32 := shapeCast S1000x128 v0 shapeCasts_S1000x128_S1000x128
  have v2 : FVec Ideal S1000x128 .bf16 := truncf .bf16 v1 bitsLt_bf16_f32
  have v4 : FVec Ideal S128x32 .bf16 := truncf .bf16 v3 bitsLt_bf16_f32
  have cst : FVec Ideal S1000x32 .f32 := constant S1000x32 .f32 0x00000000#32
  have v5 : FVec Ideal S1000x32 .f32 := matmul dot_S1000x128_S128x32_S1000x32_1_0_0_1_n_n none v2 v4 cst
  have v7 : FVec Ideal S1x32 .f32 := shapeCast S1x32 v6 shapeCasts_S1x32_S1x32
  have v8 : FVec Ideal S1000x32 .f32 := broadcastTo S1000x32 v7 broadcasts_S1x32_S1000x32
  have v9 : FVec Ideal S1000x32 .f32 := addf v5 v8
  have cst_5 : Ideal .f32 := Scalar.ofBits .f32 0x00000000#32
  have v10 : FVec Ideal S1000x32 .f32 := broadcast S1000x32 cst_5
  have v11 : FVec Ideal S1000x32 .f32 := maximumf v9 v10
  have v12 : FVec Ideal S1000x32 .bf16 := truncf .bf16 v11 bitsLt_bf16_f32
  have v14 : FVec Ideal S32x2 .bf16 := truncf .bf16 v13 bitsLt_bf16_f32
  have cst_8 : FVec Ideal S1000x2 .f32 := constant S1000x2 .f32 0x00000000#32
  have v15 : FVec Ideal S1000x2 .f32 := matmul dot_S1000x32_S32x2_S1000x2_1_0_0_1_n_n none v12 v14 cst_8
  have v17 : FVec Ideal S1x2 .f32 := shapeCast S1x2 v16 shapeCasts_S1x2_S1x2
  have v18 : FVec Ideal S1000x2 .f32 := broadcastTo S1000x2 v17 broadcasts_S1x2_S1000x2
  addf v15 v18

/-- The body's payload is the log-softmax of its logits. -/
theorem pay4_eq (v0 : Vec Ideal S1000x128 .f32) (v3 : Vec Ideal S128x32 .f32) (v6 : Vec Ideal S1x32 .f32)
    (v13 : Vec Ideal S32x2 .f32) (v16 : Vec Ideal S1x2 .f32) :
    k4_pay1 (F := Ideal) v0 v3 v6 v13 v16 = klse4 (klogits4 v0 v3 v6 v13 v16) := rfl

/-- The body's logits at (p, q). -/
theorem klogits4_apply (v0 : Vec Ideal S1000x128 .f32) (v3 : Vec Ideal S128x32 .f32) (v6 : Vec Ideal S1x32 .f32)
    (v13 : Vec Ideal S32x2 .f32) (v16 : Vec Ideal S1x2 .f32) (p : Fin 1000) (q : Fin 2) :
    klogits4 v0 v3 v6 v13 v16 (ix2 p q) = logit4 v0 v3 v6 v13 v16 p q := by
  simp only [klogits4, shapeCast_self]
  unfold logit4
  rw [addf_apply, mm4b_apply, broadcastTo_1b_ab_apply]
  congr 1
  refine Finset.sum_congr rfl fun k _ => ?_
  rw [truncf_apply, truncf_apply, maximumf_apply, addf_apply, broadcast_apply, mm4a_apply, broadcastTo_1b_ab_apply]
  rfl

/-- The logits as the host computes them, of whole arrays. -/
abbrev logits4 (x : FVec Ideal Cert.ReferenceIdeal.S1000x128 .f32) (w1 : FVec Ideal Cert.ReferenceIdeal.S128x32 .f32)
    (b1 : FVec Ideal Cert.ReferenceIdeal.S1x32 .f32) (w2 : FVec Ideal Cert.ReferenceIdeal.S32x2 .f32)
    (b2 : FVec Ideal Cert.ReferenceIdeal.S1x2 .f32) : FVec Ideal Cert.ReferenceIdeal.S1000x2 .f32 :=
  addf
    (Host.dotGeneral (F := Ideal) (φ₁ := .f32) (φ₂ := .f32) Cert.ReferenceIdeal.dot_S1000x32_S32x2_S1000x2_1_0_0_1_n_n none
      (maximumf (addf (Host.dotGeneral (F := Ideal) (φ₁ := .f32) (φ₂ := .f32) Cert.ReferenceIdeal.dot_S1000x128_S128x32_S1000x32_1_0_0_1_n_n none x w1)
          (broadcastInDim Cert.ReferenceIdeal.S1000x32 ![0, 1] Cert.ReferenceIdeal.Facts₀.bcast_S1x32_S1000x32_0_1 b1))
        (broadcastInDim Cert.ReferenceIdeal.S1000x32 ![] Cert.ReferenceIdeal.Facts₀.bcast_S_S1000x32 (constant (F := Ideal) Cert.ReferenceIdeal.S_ .f32 0x00000000#32)))
      w2)
    (broadcastInDim Cert.ReferenceIdeal.S1000x2 ![0, 1] Cert.ReferenceIdeal.Facts₀.bcast_S1x2_S1000x2_0_1 b2)

/-- The host's logits at (p, q). -/
theorem logits4_apply (x : FVec Ideal Cert.ReferenceIdeal.S1000x128 .f32) (w1 : FVec Ideal Cert.ReferenceIdeal.S128x32 .f32)
    (b1 : FVec Ideal Cert.ReferenceIdeal.S1x32 .f32) (w2 : FVec Ideal Cert.ReferenceIdeal.S32x2 .f32)
    (b2 : FVec Ideal Cert.ReferenceIdeal.S1x2 .f32) (p : Fin 1000) (q : Fin 2) :
    logits4 x w1 b1 w2 b2 (ix2 p q) = logit4 x w1 b1 w2 b2 p q := by
  unfold logits4 logit4
  rw [addf_apply, dg4b_apply, broadcastInDim_oneRow_apply]
  congr 1
  refine Finset.sum_congr rfl fun k _ => ?_
  rw [maximumf_apply, addf_apply, dg4a_apply, broadcastInDim_oneRow_apply, broadcastInDim_scalar_apply]
  rfl

/-- The body's logits and the host's are one function of the arrays. -/
theorem klogits4_eq (x : FVec Ideal Cert.ReferenceIdeal.S1000x128 .f32) (w1 : FVec Ideal Cert.ReferenceIdeal.S128x32 .f32)
    (b1 : FVec Ideal Cert.ReferenceIdeal.S1x32 .f32) (w2 : FVec Ideal Cert.ReferenceIdeal.S32x2 .f32)
    (b2 : FVec Ideal Cert.ReferenceIdeal.S1x2 .f32) :
    klogits4 x w1 b1 w2 b2 = logits4 x w1 b1 w2 b2 := by
  funext i
  obtain ⟨p, q, rfl⟩ : ∃ (p : Fin 1000) (q : Fin 2), i = ix2 p q := ⟨i 0, i 1, eq_ix2 i⟩
  rw [klogits4_apply, logits4_apply]

/-! ## From the one block to the array -/

/-- The printed index maps at the grid's one point: every window's block is block (0, 0). -/
theorem idx4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- The pooled-features block is the whole array. -/
theorem iblk4_0_eq (t : Fin cfg4.N) :
    (iblk4 V c 0 t : Vec Ideal S1000x128 .f32) = (V c main_v85 : Cert.ReferenceIdeal.S1000x128.Idx → Ideal .f32) := by
  obtain ⟨e0, e1, -⟩ := idx4 t
  funext j
  obtain ⟨a, b, rfl⟩ : ∃ (a : Fin 1000) (b : Fin 128), j = ix2 a b := ⟨j 0, j 1, eq_ix2 j⟩
  unfold iblk4
  rw [View.read_apply]
  show V c main_v85 _ = V c main_v85 _
  congr 1
  funext d
  apply Fin.ext
  match d with
  | ⟨0, _⟩ => show win4_0.index t (0 : Fin 2) * 1000 + 1 * a.val = a.val; rw [e0]; omega
  | ⟨1, _⟩ => show win4_0.index t (1 : Fin 2) * 128 + 1 * b.val = b.val; rw [e1]; omega

/-- The first weight block is the whole matrix. -/
theorem iblk4_1_eq (t : Fin cfg4.N) :
    (iblk4 V c 1 t : Vec Ideal S128x32 .f32) = (V c main_arg9 : Cert.ReferenceIdeal.S128x32.Idx → Ideal .f32) := by
  obtain ⟨-, -, e0, e1, -⟩ := idx4 t
  funext j
  obtain ⟨a, b, rfl⟩ : ∃ (a : Fin 128) (b : Fin 32), j = ix2 a b := ⟨j 0, j 1, eq_ix2 j⟩
  unfold iblk4
  rw [View.read_apply]
  show V c main_arg9 _ = V c main_arg9 _
  congr 1
  funext d
  apply Fin.ext
  match d with
  | ⟨0, _⟩ => show win4_1.index t (0 : Fin 2) * 128 + 1 * a.val = a.val; rw [e0]; omega
  | ⟨1, _⟩ => show win4_1.index t (1 : Fin 2) * 32 + 1 * b.val = b.val; rw [e1]; omega

/-- The first bias block is the whole row. -/
theorem iblk4_2_eq (t : Fin cfg4.N) :
    (iblk4 V c 2 t : Vec Ideal S1x32 .f32) = (V c main_v86 : Cert.ReferenceIdeal.S1x32.Idx → Ideal .f32) := by
  obtain ⟨-, -, -, -, e0, e1, -⟩ := idx4 t
  funext j
  obtain ⟨a, b, rfl⟩ : ∃ (a : Fin 1) (b : Fin 32), j = ix2 a b := ⟨j 0, j 1, eq_ix2 j⟩
  unfold iblk4
  rw [View.read_apply]
  show V c main_v86 _ = V c main_v86 _
  congr 1
  funext d
  apply Fin.ext
  match d with
  | ⟨0, _⟩ => show win4_2.index t (0 : Fin 2) * 1 + 1 * a.val = a.val; rw [e0]; omega
  | ⟨1, _⟩ => show win4_2.index t (1 : Fin 2) * 32 + 1 * b.val = b.val; rw [e1]; omega

/-- The second weight block is the whole matrix. -/
theorem iblk4_3_eq (t : Fin cfg4.N) :
    (iblk4 V c 3 t : Vec Ideal S32x2 .f32) = (V c main_arg11 : Cert.ReferenceIdeal.S32x2.Idx → Ideal .f32) := by
  obtain ⟨-, -, -, -, -, -, e0, e1, -⟩ := idx4 t
  funext j
  obtain ⟨a, b, rfl⟩ : ∃ (a : Fin 32) (b : Fin 2), j = ix2 a b := ⟨j 0, j 1, eq_ix2 j⟩
  unfold iblk4
  rw [View.read_apply]
  show V c main_arg11 _ = V c main_arg11 _
  congr 1
  funext d
  apply Fin.ext
  match d with
  | ⟨0, _⟩ => show win4_3.index t (0 : Fin 2) * 32 + 1 * a.val = a.val; rw [e0]; omega
  | ⟨1, _⟩ => show win4_3.index t (1 : Fin 2) * 2 + 1 * b.val = b.val; rw [e1]; omega

/-- The second bias block is the whole row. -/
theorem iblk4_4_eq (t : Fin cfg4.N) :
    (iblk4 V c 4 t : Vec Ideal S1x2 .f32) = (V c main_v87 : Cert.ReferenceIdeal.S1x2.Idx → Ideal .f32) := by
  obtain ⟨-, -, -, -, -, -, -, -, e0, e1, -⟩ := idx4 t
  funext j
  obtain ⟨a, b, rfl⟩ : ∃ (a : Fin 1) (b : Fin 2), j = ix2 a b := ⟨j 0, j 1, eq_ix2 j⟩
  unfold iblk4
  rw [View.read_apply]
  show V c main_v87 _ = V c main_v87 _
  congr 1
  funext d
  apply Fin.ext
  match d with
  | ⟨0, _⟩ => show win4_4.index t (0 : Fin 2) * 1 + 1 * a.val = a.val; rw [e0]; omega
  | ⟨1, _⟩ => show win4_4.index t (1 : Fin 2) * 2 + 1 * b.val = b.val; rw [e1]; omega

/-- The output block's entry (p, q) sits at (p, q) of the array. -/
theorem emb4 (t : Fin cfg4.N) (p : Fin 1000) (q : Fin 2) :
    ((cfg4.win 5).blk t).view.emb (ix2 p q) = (ix2 p q : Cert.ReferenceIdeal.S1000x2.Idx) := by
  obtain ⟨-, -, -, -, -, -, -, -, -, -, e0, e1⟩ := idx4 t
  funext d
  apply Fin.ext
  match d with
  | ⟨0, _⟩ => show win4_5.index t (0 : Fin 2) * 1000 + 1 * p.val = p.val; rw [e0]; omega
  | ⟨1, _⟩ => show win4_5.index t (1 : Fin 2) * 2 + 1 * q.val = q.val; rw [e1]; omega

/-- What the one point writes back is the whole-array expression, read through the block. -/
theorem flushed4 (t : Fin cfg4.N) :
    (dat4 (F := Ideal) V c).flushed 5 t
      = ((cfg4.win 5).blk t).view.read (Elt Ideal)
          (Cert.Gnn.lseJoined (logits4 (V c main_v85) (V c main_arg9) (V c main_v86) (V c main_arg11) (V c main_v87))) := by
  show (cfg4.win 5).cut (grid4.coords t) ((dat4 (F := Ideal) V c).after 5 t) = _
  rw [after4_5]
  unfold out4_5
  rw [View.canon_unit_zero zeroOff4]
  simp only [View.ld_unit_zero (S := S1000x128) zeroOff4, View.ld_unit_zero (S := S128x32) zeroOff4,
    View.ld_unit_zero (S := S1x32) zeroOff4, View.ld_unit_zero (S := S32x2) zeroOff4, View.ld_unit_zero (S := S1x2) zeroOff4]
  rw [iblk4_0_eq V c t, iblk4_1_eq V c t, iblk4_2_eq V c t, iblk4_3_eq V c t, iblk4_4_eq V c t]
  funext j
  obtain ⟨p, q, rfl⟩ : ∃ (p : Fin 1000) (q : Fin 2), j = ix2 p q := ⟨j 0, j 1, eq_ix2 j⟩
  show k4_pay1 (F := Ideal) (V c main_v85) (V c main_arg9) (V c main_v86) (V c main_arg11) (V c main_v87) (ix2 p q)
    = Cert.Gnn.lseJoined (logits4 (V c main_v85) (V c main_arg9) (V c main_v86) (V c main_arg11) (V c main_v87))
        (((cfg4.win 5).blk t).view.emb (ix2 p q))
  rw [emb4 t p q, pay4_eq, klse4_apply, klogits4_eq]

/-- An index of the array is in the point's block iff each coordinate is in the block's range on its axis. -/
theorem mem_blk4 (t : Fin cfg4.N) (i : Cert.ReferenceIdeal.S1000x2.Idx) :
    i ∈ ((cfg4.win 5).blk t).view.set ↔ ∀ a : Fin 2, win4_5.index t a * S1000x2.size a ≤ (i a).val
      ∧ (i a).val < win4_5.index t a * S1000x2.size a + S1000x2.size a := by
  show i ∈ ((View.whole main_v88).slice (win4_5.rect t)).set ↔ _
  rw [View.set_slice_whole, Rect.mem_set_unit]
  exact Iff.rfl

/-- The one block is the whole array, so it covers every index. -/
theorem cover4 (i : Cert.ReferenceIdeal.S1000x2.Idx) :
    ∃ t : Fin cfg4.N, (cfg4.win 5).flush t = true ∧ i ∈ ((cfg4.win 5).blk t).view.set := by
  have hi0 : (i 0).val < 1000 := (i 0).isLt
  have hi1 : (i 1).val < 2 := (i 1).isLt
  obtain ⟨-, -, -, -, -, -, -, -, -, -, e0, e1⟩ := idx4 t4_0
  refine ⟨t4_0, flush4_5 t4_0, ?_⟩
  rw [mem_blk4]
  intro a
  match a with
  | ⟨0, _⟩ => show win4_5.index t4_0 (0 : Fin 2) * 1000 ≤ (i 0).val ∧ (i 0).val < win4_5.index t4_0 (0 : Fin 2) * 1000 + 1000; rw [e0]; omega
  | ⟨1, _⟩ => show win4_5.index t4_0 (1 : Fin 2) * 2 ≤ (i 1).val ∧ (i 1).val < win4_5.index t4_0 (1 : Fin 2) * 2 + 2; rw [e1]; omega

/-- THE OUTPUT ARRAY of the region after its run: the log-softmax, with the log-sum-exp subtracted in one piece, of the
    logits of the two-layer head. -/
theorem region4 : (dat4 (F := Ideal) V c).arrAt 5 cfg4.N
    = Cert.Gnn.lseJoined (addf
        (Host.dotGeneral (F := Ideal) (φ₁ := .f32) (φ₂ := .f32) Cert.ReferenceIdeal.dot_S1000x32_S32x2_S1000x2_1_0_0_1_n_n none
          (maximumf (addf (Host.dotGeneral (F := Ideal) (φ₁ := .f32) (φ₂ := .f32) Cert.ReferenceIdeal.dot_S1000x128_S128x32_S1000x32_1_0_0_1_n_n none (V c main_v85) (V c main_arg9))
              (broadcastInDim Cert.ReferenceIdeal.S1000x32 ![0, 1] Cert.ReferenceIdeal.Facts₀.bcast_S1x32_S1000x32_0_1 (V c main_v86)))
            (broadcastInDim Cert.ReferenceIdeal.S1000x32 ![] Cert.ReferenceIdeal.Facts₀.bcast_S_S1000x32 (constant (F := Ideal) Cert.ReferenceIdeal.S_ .f32 0x00000000#32)))
          (V c main_arg11))
        (broadcastInDim Cert.ReferenceIdeal.S1000x2 ![0, 1] Cert.ReferenceIdeal.Facts₀.bcast_S1x2_S1000x2_0_1 (V c main_v87))) :=
  (dat4 (F := Ideal) V c).arrAt_eq_of_cover 5
    (Cert.Gnn.lseJoined (logits4 (V c main_v85) (V c main_arg9) (V c main_v86) (V c main_arg11) (V c main_v87)))
    (fun t _ => flushed4 V c t) cover4

end Cert.KernelIdeal.RegionValue

end
-- ==== Proof.Chain.lean ====
/-
  The kernel program's result as a function of its arguments.

  The buffer contents at the kernel program's return are a fold of its twelve segments over the launch memory. Read at the
  result's buffer, segment by segment from the last to the first: the fifth region leaves the log-softmax (log-sum-exp
  subtracted in one piece) of its logits; its inputs were written by the pooling stretch from the fourth region's output
  and the graph ids; that output is the third layer's activation of the third aggregation; and so on down to the first
  region's product of the node features with the first weight matrix. Every stretch between two regions is, operation for
  operation, the reference's, and every region's output array is the reference's matmul-and-activation stage of its input
  arrays; a buffer no segment in between writes is carried unchanged. So the result is the joined log-softmax of the
  reference's logits stage, evaluated at the kernel program's own arguments.
-/
import proofs.«123561_j14474039788040_1_alg».proof.Proof.Stage3
import proofs.«123561_j14474039788040_1_alg».proof.Proof.HostStages
import proofs.«123561_j14474039788040_1_alg».proof.Proof.Region0
import proofs.«123561_j14474039788040_1_alg».proof.Proof.Region1
import proofs.«123561_j14474039788040_1_alg».proof.Proof.Region2
import proofs.«123561_j14474039788040_1_alg».proof.Proof.Region3
import proofs.«123561_j14474039788040_1_alg».proof.Proof.Region4
import proofs.«123561_j14474039788040_1_alg».proof.Proof.HeadSpec

set_option maxRecDepth 16384

noncomputable section

namespace Cert.KernelIdeal.RunValue

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-! ## A buffer no later segment writes still holds what it held at the first region's entry -/

theorem W4_of (b : Ref sig .tc) (h4 : b ∉ arrs0) : W4 m ρ c (Proc.devRef .tc b) = W3 m ρ c (Proc.devRef .tc b) := keep4 m ρ c b h4
theorem W5_of (b : Ref sig .tc) (h4 : b ∉ arrs0) (h5 : b ∉ hostOps1_W) : W5 m ρ c (Proc.devRef .tc b) = W3 m ρ c (Proc.devRef .tc b) :=
  (keep5 m ρ c b h5).trans (W4_of m ρ c b h4)
theorem W6_of (b : Ref sig .tc) (h4 : b ∉ arrs0) (h5 : b ∉ hostOps1_W) (h6 : b ∉ arrs1) : W6 m ρ c (Proc.devRef .tc b) = W3 m ρ c (Proc.devRef .tc b) :=
  (keep6 m ρ c b h6).trans (W5_of m ρ c b h4 h5)
theorem W7_of (b : Ref sig .tc) (h4 : b ∉ arrs0) (h5 : b ∉ hostOps1_W) (h6 : b ∉ arrs1) (h7 : b ∉ hostOps2_W) :
    W7 m ρ c (Proc.devRef .tc b) = W3 m ρ c (Proc.devRef .tc b) :=
  (keep7 m ρ c b h7).trans (W6_of m ρ c b h4 h5 h6)
theorem W8_of (b : Ref sig .tc) (h4 : b ∉ arrs0) (h5 : b ∉ hostOps1_W) (h6 : b ∉ arrs1) (h7 : b ∉ hostOps2_W) (h8 : b ∉ arrs2) :
    W8 m ρ c (Proc.devRef .tc b) = W3 m ρ c (Proc.devRef .tc b) :=
  (keep8 m ρ c b h8).trans (W7_of m ρ c b h4 h5 h6 h7)
theorem W9_of (b : Ref sig .tc) (h4 : b ∉ arrs0) (h5 : b ∉ hostOps1_W) (h6 : b ∉ arrs1) (h7 : b ∉ hostOps2_W) (h8 : b ∉ arrs2)
    (h9 : b ∉ hostOps3_W) : W9 m ρ c (Proc.devRef .tc b) = W3 m ρ c (Proc.devRef .tc b) :=
  (keep9 m ρ c b h9).trans (W8_of m ρ c b h4 h5 h6 h7 h8)
theorem W10_of (b : Ref sig .tc) (h4 : b ∉ arrs0) (h5 : b ∉ hostOps1_W) (h6 : b ∉ arrs1) (h7 : b ∉ hostOps2_W) (h8 : b ∉ arrs2)
    (h9 : b ∉ hostOps3_W) (h10 : b ∉ arrs3) : W10 m ρ c (Proc.devRef .tc b) = W3 m ρ c (Proc.devRef .tc b) :=
  (keep10 m ρ c b h10).trans (W9_of m ρ c b h4 h5 h6 h7 h8 h9)
theorem W11_of (b : Ref sig .tc) (h4 : b ∉ arrs0) (h5 : b ∉ hostOps1_W) (h6 : b ∉ arrs1) (h7 : b ∉ hostOps2_W) (h8 : b ∉ arrs2)
    (h9 : b ∉ hostOps3_W) (h10 : b ∉ arrs3) (h11 : b ∉ hostOps4_W) : W11 m ρ c (Proc.devRef .tc b) = W3 m ρ c (Proc.devRef .tc b) :=
  (keep11 m ρ c b h11).trans (W10_of m ρ c b h4 h5 h6 h7 h8 h9 h10)

/-! ## The first layer -/

/-- The first region's output: the node features times the first weight matrix. -/
theorem W4_v31 : W4 m ρ c (Proc.devRef .tc main_v31) = val_main_v31 (F := Ideal) (m ((c.tc : Thread nD τ).loc main_arg0)) (m ((c.tc : Thread nD τ).loc main_arg3)) := by
  refine (W4_arr m ρ c 2).trans ((RegionValue.region0 (V3 m ρ) c).trans ?_)
  rw [show V3 m ρ c main_arg0 = (m ((c.tc : Thread nD τ).loc main_arg0)) from W3_arg0 m ρ c, show V3 m ρ c main_arg3 = (m ((c.tc : Thread nD τ).loc main_arg3)) from W3_arg3 m ρ c]
  simp only [val_main_v31]

/-- The first aggregation. -/
theorem W5_v43 : W5 m ρ c (Proc.devRef .tc main_v43) = val_main_v43 (F := Ideal) (m ((c.tc : Thread nD τ).loc main_arg0)) (m ((c.tc : Thread nD τ).loc main_arg1)) (m ((c.tc : Thread nD τ).loc main_arg3)) :=
  host1_v43 (W4 m ρ c) _ _ _ (W4_v31 m ρ c) ((W4_of m ρ c main_v3 (by decide)).trans (W3_v3 m ρ c))
    ((W4_of m ρ c main_v6 (by decide)).trans (W3_v6 m ρ c)) ((W4_of m ρ c main_v30 (by decide)).trans (W3_v30 m ρ c))

/-- The first bias as a row. -/
theorem W5_v44 : W5 m ρ c (Proc.devRef .tc main_v44) = val_main_v44 (F := Ideal) (m ((c.tc : Thread nD τ).loc main_arg4)) :=
  host1_v44 (W4 m ρ c) _ ((W4_of m ρ c main_arg4 (by decide)).trans (W3_arg4 m ρ c))

/-! ## The second layer -/

/-- The second region's output: the first layer's activation times the second weight matrix. -/
theorem W6_v45 : W6 m ρ c (Proc.devRef .tc main_v45) = val_main_v48 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  refine (W6_arr m ρ c 3).trans ((RegionValue.region1 (V5 m ρ) c).trans ?_)
  rw [show V5 m ρ c main_v43 = _ from W5_v43 m ρ c, show V5 m ρ c main_v44 = _ from W5_v44 m ρ c,
    show V5 m ρ c main_arg5 = (m ((c.tc : Thread nD τ).loc main_arg5)) from (W5_of m ρ c main_arg5 (by decide) (by decide)).trans (W3_arg5 m ρ c)]
  simp only [val_main_v48, val_main_v47, val_main_v46, val_main_v45, val_main_call1_v0, val_main_call1_cst]

/-- The second aggregation. -/
theorem W7_v57 : W7 m ρ c (Proc.devRef .tc main_v57) = val_main_v60 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  host2_v57 (W6 m ρ c) _ _ _ _ _ (W6_v45 m ρ c) ((W6_of m ρ c main_v3 (by decide) (by decide) (by decide)).trans (W3_v3 m ρ c))
    ((W6_of m ρ c main_v6 (by decide) (by decide) (by decide)).trans (W3_v6 m ρ c)) ((W6_of m ρ c main_v30 (by decide) (by decide) (by decide)).trans (W3_v30 m ρ c))

/-- The second bias as a row. -/
theorem W7_v58 : W7 m ρ c (Proc.devRef .tc main_v58) = val_main_v61 (F := Ideal) (m ((c.tc : Thread nD τ).loc main_arg6)) :=
  host2_v58 (W6 m ρ c) _ ((W6_of m ρ c main_arg6 (by decide) (by decide) (by decide)).trans (W3_arg6 m ρ c))

/-! ## The third layer -/

/-- The third region's output: the second layer's activation times the third weight matrix. -/
theorem W8_v59 : W8 m ρ c (Proc.devRef .tc main_v59) = val_main_v65 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W8_arr m ρ c 3).trans ((RegionValue.region2 (V7 m ρ) c).trans ?_)
  rw [show V7 m ρ c main_v57 = _ from W7_v57 m ρ c, show V7 m ρ c main_v58 = _ from W7_v58 m ρ c,
    show V7 m ρ c main_arg7 = (m ((c.tc : Thread nD τ).loc main_arg7)) from (W7_of m ρ c main_arg7 (by decide) (by decide) (by decide) (by decide)).trans (W3_arg7 m ρ c)]
  simp only [val_main_v65, val_main_v64, val_main_v63, val_main_v62, val_main_call2_v0, val_main_call2_cst]

/-- The third aggregation. -/
theorem W9_v71 : W9 m ρ c (Proc.devRef .tc main_v71) = val_main_v77 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  host3_v71 (W8 m ρ c) _ _ _ _ _ _ _ (W8_v59 m ρ c) ((W8_of m ρ c main_v3 (by decide) (by decide) (by decide) (by decide) (by decide)).trans (W3_v3 m ρ c))
    ((W8_of m ρ c main_v6 (by decide) (by decide) (by decide) (by decide) (by decide)).trans (W3_v6 m ρ c)) ((W8_of m ρ c main_v30 (by decide) (by decide) (by decide) (by decide) (by decide)).trans (W3_v30 m ρ c))

/-- The third bias as a row. -/
theorem W9_v72 : W9 m ρ c (Proc.devRef .tc main_v72) = val_main_v78 (F := Ideal) (m ((c.tc : Thread nD τ).loc main_arg8)) :=
  host3_v72 (W8 m ρ c) _ ((W8_of m ρ c main_arg8 (by decide) (by decide) (by decide) (by decide) (by decide)).trans (W3_arg8 m ρ c))

/-- The fourth region's output: the third layer's activation. -/
theorem W10_v73 : W10 m ρ c (Proc.devRef .tc main_v73) = val_main_v81 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W10_arr m ρ c 2).trans ((RegionValue.region3 (V9 m ρ) c).trans ?_)
  rw [show V9 m ρ c main_v71 = _ from W9_v71 m ρ c, show V9 m ρ c main_v72 = _ from W9_v72 m ρ c]
  simp only [val_main_v81, val_main_v80, val_main_v79, val_main_call3_v0, val_main_call3_cst]

/-! ## The pooling and the head -/

/-- The mean of the node activations over every graph. -/
theorem W11_v85 : W11 m ρ c (Proc.devRef .tc main_v85) = val_main_v93 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  host4_v85 (W10 m ρ c) _ _ _ _ _ _ _ _ _ (W10_v73 m ρ c) ((W10_of m ρ c main_arg2 (by decide) (by decide) (by decide) (by decide) (by decide) (by decide) (by decide)).trans (W3_arg2 m ρ c))

theorem W11_v86 : W11 m ρ c (Proc.devRef .tc main_v86) = val_main_v95 (F := Ideal) (m ((c.tc : Thread nD τ).loc main_arg10)) :=
  host4_v86 (W10 m ρ c) _ ((W10_of m ρ c main_arg10 (by decide) (by decide) (by decide) (by decide) (by decide) (by decide) (by decide)).trans (W3_arg10 m ρ c))

theorem W11_v87 : W11 m ρ c (Proc.devRef .tc main_v87) = val_main_v100 (F := Ideal) (m ((c.tc : Thread nD τ).loc main_arg12)) :=
  host4_v87 (W10 m ρ c) _ ((W10_of m ρ c main_arg12 (by decide) (by decide) (by decide) (by decide) (by decide) (by decide) (by decide)).trans (W3_arg12 m ρ c))

/-- THE RESULT: the joined log-softmax of the reference's logits stage at the kernel program's arguments. -/
theorem result_eq : W12 m ρ c (Proc.devRef .tc main_v88)
    = Cert.Gnn.lseJoined (val_main_v102 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) := by
  refine (W12_arr m ρ c 5).trans ((RegionValue.region4 (V11 m ρ) c).trans (congrArg Cert.Gnn.lseJoined ?_))
  rw [show V11 m ρ c main_v85 = _ from W11_v85 m ρ c, show V11 m ρ c main_v86 = _ from W11_v86 m ρ c,
    show V11 m ρ c main_v87 = _ from W11_v87 m ρ c,
    show V11 m ρ c main_arg9 = (m ((c.tc : Thread nD τ).loc main_arg9)) from (W11_of m ρ c main_arg9 (by decide) (by decide) (by decide) (by decide) (by decide) (by decide) (by decide) (by decide)).trans (W3_arg9 m ρ c),
    show V11 m ρ c main_arg11 = (m ((c.tc : Thread nD τ).loc main_arg11)) from (W11_of m ρ c main_arg11 (by decide) (by decide) (by decide) (by decide) (by decide) (by decide) (by decide) (by decide)).trans (W3_arg11 m ρ c)]
  simp only [val_main_v102, val_main_v101, val_main_v99, val_main_v98, val_main_v97, val_main_v96, val_main_v94,
    val_main_call4_v0, val_main_call4_cst]

end Cert.KernelIdeal.RunValue

end
-- ==== Proof.LibGcnLayer.lean ====
/-
  The algebra of one graph-convolution layer on the extended reals.

  A layer sends node features `X` to `out v c = ∑_{e into v} (∑_k X (g e) k · W k c) · (s e · t)`: every edge `e` into node `v`
  carries the transformed features of its source `g e`, scaled by the source's normaliser `s e` and the target's `t`.
  Because the transform is linear, the same number is obtained by aggregating first and transforming afterwards:
  `∑_k ((∑_{e into v} X (g e) k · s e) · t) · W k c`. On the extended reals this exchange of two finite sums and the
  distribution of the products over them hold when every entry is a real number (at an infinity `(a + b) · c` need not be
  `a · c + b · c`), so the law is stated for entries that are real, and proved by moving the whole expression into `ℝ`.
-/
import Idealize.ShloMosaic.PureOps.Ideal

open scoped BigOperators

namespace Cert.GcnLaw

/-- An extended real that is a real number. -/
def IsReal (x : EReal) : Prop := ∃ r : ℝ, x = (r : EReal)

theorem IsReal.coe (r : ℝ) : IsReal (r : EReal) := ⟨r, rfl⟩
theorem IsReal.zero : IsReal (0 : EReal) := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- THE LAYER LAW: aggregating the scaled source features over the edges into a node and then applying the linear
    transform equals transforming each source's features and then aggregating with the edge weights `s e · t`,
    when all entries are real. `S` is the set of edges into the node, `a e k` the source features of edge `e`,
    `s e` the source's normaliser, `t` the node's own, `W k` one column of the transform. -/
theorem layer_law {E K : Type*} [Fintype K] (S : Finset E) (a : E → K → EReal) (s : E → EReal) (t : EReal)
    (W : K → EReal) (ha : ∀ e k, IsReal (a e k)) (hs : ∀ e, IsReal (s e)) (ht : IsReal t) (hW : ∀ k, IsReal (W k)) :
    ∑ k, ((∑ e ∈ S, a e k * s e) * t) * W k = ∑ e ∈ S, (∑ k, a e k * W k) * (s e * t) := by
  choose a' ha' using ha
  choose s' hs' using hs
  obtain ⟨t', rfl⟩ := ht
  choose W' hW' using hW
  have hL : ∑ k, ((∑ e ∈ S, a e k * s e) * (t' : EReal)) * W k
      = ((∑ k, ((∑ e ∈ S, a' e k * s' e) * t') * W' k : ℝ) : EReal) := by
    rw [coe_sum]
    refine Finset.sum_congr rfl fun k _ => ?_
    rw [EReal.coe_mul, EReal.coe_mul, coe_sum, hW' k]
    congr 2
    refine Finset.sum_congr rfl fun e _ => ?_
    rw [EReal.coe_mul, ha' e k, hs' e]
  have hR : ∑ e ∈ S, (∑ k, a e k * W k) * (s e * (t' : EReal))
      = ((∑ e ∈ S, (∑ k, a' e k * W' k) * (s' e * t') : ℝ) : EReal) := by
    rw [coe_sum]
    refine Finset.sum_congr rfl fun e _ => ?_
    rw [EReal.coe_mul, EReal.coe_mul, coe_sum, hs' e]
    congr 1
    refine Finset.sum_congr rfl fun k _ => ?_
    rw [EReal.coe_mul, ha' e k, hW' k]
  rw [hL, hR]
  congr 1
  simp only [Finset.sum_mul, Finset.mul_sum]
  rw [Finset.sum_comm]
  refine Finset.sum_congr rfl fun e _ => Finset.sum_congr rfl fun k _ => ?_
  ring

end Cert.GcnLaw
-- ==== Proof.LibHostLaneMax.lean ====
/-
  The host's maximum along the lanes of a matrix, read at a row.

  A host reduction with \`max\` over axis 1 of an \`[a, b]\` array (as a softmax over the last axis of a matrix lowers)
  reads, at row \`p\`, the fold of \`max\`, from the initial value, over \`c : Fin b\` of the entries \`(p, c)\`.
  A general fact about shapes \`[a, b]\` and \`[a]\` at the ideal values: nothing here mentions a program.
-/
import Idealize.ShloMosaic.PureOps.Ideal.Laws
import Idealize.ShloMosaic.Lib.ValueIdx

namespace Cert.HostLaneMax

open Idealize.ShloMosaic Idealize.ShloMosaic.ValueIdx

variable {φ : FTy}

/-- The host's maximum over the LAST axis of an \`[a, b]\` array, at row \`p\`: the fold of \`max\`, from the initial value,
    over \`c : Fin b\` of the entries \`(p, c)\`. -/
theorem hostLaneMax_apply {a b : ℕ} {u : Shape} (x : (⟨2, ![a, b]⟩ : Shape).Idx → Ideal φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun c => x (ix2 p c)) := by
  refine (Host.reduce_eq_fold_single (FloatOps.maximumf (F := Ideal) (φ := φ)) x init h' h hu (ix1 p)).trans ?_
  show (Finset.univ : Finset (Fin b)).fold max (init (Shape.Idx.first hu)) (fun c => x (h.lift (ix1 p) c)) = _
  refine congrArg (fun f => (Finset.univ : Finset (Fin b)).fold max (init (Shape.Idx.first hu)) f) (funext fun c => ?_)
  exact congrArg x (funext fun ax => Fin.ext (by match ax with | ⟨0, _⟩ => rfl | ⟨1, _⟩ => rfl))

end Cert.HostLaneMax
-- ==== Proof.HeadLaw.lean ====
/-
  Log-softmax over two classes, in two parts.

  THE HEAD LAW. Subtracting the log-sum-exp in one piece equals subtracting the maximum and the logarithm one after the
  other, when the logits are real numbers. With `M = max_c L c` and `S = Σ_c exp (L c − M)`: a fold of `max` from `−∞`
  over a nonempty family of reals is a real; each `exp (L c − M)` is then the real exponential of a real, so `S` is a
  positive real and `log S` its real logarithm. For reals `a, m, l` the identity `a − (m + l) = (a − m) − l` holds in `ℝ`,
  and the coercion to the extended reals commutes with `+` and `−`.

  THE REFERENCE'S TAIL. The reference program ends in a log-softmax over the last axis of its `[1000, 2]` logits: a
  maximum over the classes from `−∞` (and once more against a broadcast `−∞`, which changes nothing), broadcast back and
  subtracted; the exponential; a sum over the classes from `0`; its logarithm, broadcast back and subtracted. Read at an
  entry `(p, q)`, stage by stage, this is `(L (p, q) − M p) − log (S p)`: the second of the two forms above.
-/
import proofs.«123561_j14474039788040_1_alg».proof.Proof.HeadSpec
import proofs.«123561_j14474039788040_1_alg».proof.Proof.LibGcnLayer
import proofs.«123561_j14474039788040_1_alg».proof.Proof.LibHostLaneMax
import proofs.«123561_j14474039788040_1_alg».proof.Proof.RefRead

noncomputable section

open scoped BigOperators

namespace Cert.Gnn

open Idealize.ShloMosaic Idealize.ShloMosaic.ValueIdx Cert.GcnLaw

/-! ## The head law -/

/-- A fold of `max` from `−∞` over a finite family of reals is `−∞` only for the empty family, and a real otherwise. -/
theorem fold_max_isReal {ι : Type*} (f : ι → EReal) (hf : ∀ i, IsReal (f i)) (s : Finset ι) :
    s = ∅ ∨ IsReal (s.fold max ⊥ f) := by
  classical
  induction s using Finset.induction_on with
  | empty => exact Or.inl rfl
  | insert a s ha ih =>
    refine Or.inr ?_
    rw [Finset.fold_insert ha]
    rcases ih with rfl | h
    · rw [Finset.fold_empty, max_bot_right]; exact hf a
    · exact (hf a).max h

/-- The largest logit of a graph is a real. -/
theorem rowMax_isReal (L : SL.Idx → EReal) (hL : ∀ i, IsReal (L i)) (r : Fin 1000) : IsReal (rowMax L r) := by
  rcases fold_max_isReal (fun c : Fin 2 => L (ix2 r c)) (fun c => hL _) Finset.univ with h | h
  · exact absurd h (Finset.univ_nonempty.ne_empty)
  · exact h

/-- The normaliser of a graph is a positive real. -/
theorem rowSum_pos_real (L : SL.Idx → EReal) (hL : ∀ i, IsReal (L i)) (r : Fin 1000) :
    ∃ s : ℝ, 0 < s ∧ rowSum L r = (s : EReal) := by
  obtain ⟨m, hm⟩ := rowMax_isReal L hL r
  choose l hl using fun c : Fin 2 => hL (ix2 r c)
  refine ⟨∑ c : Fin 2, Real.exp (l c - m), Finset.sum_pos (fun c _ => Real.exp_pos _) Finset.univ_nonempty, ?_⟩
  rw [coe_sum]
  refine Finset.sum_congr rfl fun c _ => ?_
  rw [hl c, hm, ← EReal.coe_sub, Ideal.exp_coe]

/-- The logarithm of the normaliser is a real. -/
theorem log_rowSum_isReal (L : SL.Idx → EReal) (hL : ∀ i, IsReal (L i)) (r : Fin 1000) :
    IsReal (Ideal.log (rowSum L r)) := by
  obtain ⟨s, hs, h⟩ := rowSum_pos_real L hL r
  rw [h, Ideal.log_coe, if_neg (not_le.mpr hs)]
  exact ⟨_, rfl⟩

/-- The two orders of subtraction agree at one entry. -/
theorem head_law_at (L : SL.Idx → EReal) (hL : ∀ i, IsReal (L i)) (i : SL.Idx) (r : Fin 1000) :
    L i - (rowMax L r + Ideal.log (rowSum L r)) = (L i - rowMax L r) - Ideal.log (rowSum L r) := by
  obtain ⟨a, ha⟩ := hL i
  obtain ⟨m, hm⟩ := rowMax_isReal L hL r
  obtain ⟨l, hl⟩ := log_rowSum_isReal L hL r
  rw [ha, hm, hl, ← EReal.coe_add, ← EReal.coe_sub, ← EReal.coe_sub, ← EReal.coe_sub, sub_add_eq_sub_sub]

/-- THE HEAD LAW: for real logits, `a − (M + log S) = (a − M) − log S` at every entry. -/
theorem head_law (L : Cert.Gnn.SL.Idx → EReal) (hL : ∀ i, Cert.GcnLaw.IsReal (L i)) :
    Cert.Gnn.lseJoined L = Cert.Gnn.lseSplit L :=
  funext fun i => head_law_at L hL i ⟨(i 0).val, (i 0).isLt⟩

/-! ## The reference's tail -/

open Cert.ReferenceIdeal Cert.ReferenceIdeal.Gen Cert.ReferenceIdeal.ReadP

/-- The pattern of `−∞` denotes `⊥`. -/
private theorem ofBits_neg_inf_f32 : Ideal.ofBits .f32 0xFF800000#32 = ⊥ := by simp [Ideal.ofBits, Ideal.ieee]

section Tail
variable (x0 : (⟨Cert.ReferenceIdeal.S100000x256, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal)) (x3 : (⟨Cert.ReferenceIdeal.S256x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal)) (x9 : (⟨Cert.ReferenceIdeal.S128x32, .f32⟩ : BufTy).Contents (Elt Ideal)) (x10 : (⟨Cert.ReferenceIdeal.S32, .f32⟩ : BufTy).Contents (Elt Ideal)) (x11 : (⟨Cert.ReferenceIdeal.S32x2, .f32⟩ : BufTy).Contents (Elt Ideal)) (x12 : (⟨Cert.ReferenceIdeal.S2, .f32⟩ : BufTy).Contents (Elt Ideal))

/-- The reference's row maximum (the host reduction over the classes from `−∞`, then the maximum with a broadcast
    `−∞`) is the fold of `max` from `⊥` over the two classes. -/
theorem ref_rowMax (p : Fin 1000) :
    val_main_call5_v2 (F := Ideal) x0 x1 x2 x3 x4 x5 x6 x7 x8 x9 x10 x11 x12 (ix1 p) = rowMax (val_main_v102 (F := Ideal) x0 x1 x2 x3 x4 x5 x6 x7 x8 x9 x10 x11 x12) p := by
  rw [val_main_call5_v2_apply, val_main_call5_v1_apply, val_main_call5_cst_0_apply]
  unfold val_main_call5_v0
  rw [Cert.HostLaneMax.hostLaneMax_apply _ _ reducesTo_S1000x2_S1000_d1 (by decide) h_S_ p, val_main_call5_cst_apply]
  show max (Ideal.ofBits .f32 0xFF800000#32) ((Finset.univ : Finset (Fin 2)).fold max (Ideal.ofBits .f32 0xFF800000#32) _) = _
  rw [ofBits_neg_inf_f32, max_bot_left]
  rfl

/-- The shifted logits: the logit minus the row maximum broadcast back over the classes. -/
theorem ref_shifted (p : Fin 1000) (q : Fin 2) :
    val_main_call5_v5 (F := Ideal) x0 x1 x2 x3 x4 x5 x6 x7 x8 x9 x10 x11 x12 (ix2 p q)
      = val_main_v102 (F := Ideal) x0 x1 x2 x3 x4 x5 x6 x7 x8 x9 x10 x11 x12 (ix2 p q) - rowMax (val_main_v102 (F := Ideal) x0 x1 x2 x3 x4 x5 x6 x7 x8 x9 x10 x11 x12) p := by
  rw [val_main_call5_v5_apply, val_main_call5_v4_apply, val_main_call5_v3_apply]
  have hidx : idx_main_call5_v3 (idx_main_call5_v4 (ix2 p q)) = ix1 p :=
    funext fun a => by match a with | ⟨0, _⟩ => rfl
  rw [hidx, ref_rowMax]
  rfl

/-- The reference's row sum (the host sum over the classes from `0`) of the exponentials of the shifted logits. -/
theorem ref_rowSum (p : Fin 1000) :
    val_main_call5_v7 (F := Ideal) x0 x1 x2 x3 x4 x5 x6 x7 x8 x9 x10 x11 x12 (ix1 p) = rowSum (val_main_v102 (F := Ideal) x0 x1 x2 x3 x4 x5 x6 x7 x8 x9 x10 x11 x12) p := by
  rw [val_main_call5_v7_apply, val_main_call5_cst_1_apply]
  show Ideal.ofBits .f32 0x00000000#32 + _ = _
  rw [Ideal.ofBits_zero_f32, zero_add]
  unfold rowSum
  refine Finset.sum_congr rfl fun k _ => ?_
  have hidx : idx_main_call5_v7 (ix1 p) k = ix2 p k :=
    funext fun a => by match a with | ⟨0, _⟩ => rfl | ⟨1, _⟩ => rfl
  rw [hidx, val_main_call5_v6_apply, ref_shifted]
  exact Ideal.hostUnary_exp_def _

/-- THE REFERENCE'S TAIL: its log-softmax subtracts the row maximum first and the logarithm of the row sum afterwards. -/
theorem ref_tail :
    Cert.ReferenceIdeal.ReadP.val_main_v103 (F := Ideal) x0 x1 x2 x3 x4 x5 x6 x7 x8 x9 x10 x11 x12
      = Cert.Gnn.lseSplit (Cert.ReferenceIdeal.ReadP.val_main_v102 (F := Ideal) x0 x1 x2 x3 x4 x5 x6 x7 x8 x9 x10 x11 x12) := by
  funext i
  obtain ⟨p, q, rfl⟩ : ∃ (p : Fin 1000) (q : Fin 2), i = ix2 p q := ⟨i 0, i 1, eq_ix2 i⟩
  rw [lseSplit_ix2, val_main_v103_apply, ref_shifted, val_main_call5_v10_apply, val_main_call5_v9_apply,
    val_main_call5_v8_apply]
  have hidx : idx_main_call5_v8 (idx_main_call5_v10 (ix2 p q)) = ix1 p :=
    funext fun a => by match a with | ⟨0, _⟩ => rfl
  rw [hidx, ref_rowSum, Ideal.subf_def, Ideal.hostUnary_log_def]

end Tail

end Cert.Gnn

end
-- ==== Proof.RealityOps.lean ====
/-
  Which operations of a host program keep every entry a real number.

  On the extended reals a float operation is its textbook operation, so an array all of whose entries are real numbers
  (`IsReal`: not one of the two infinities) stays such under a pointwise sum, product or maximum, under a contraction
  (a finite sum of products), under a gather (each entry of the result is an entry of the operand, whichever the start
  indices are), under a broadcast (the same), and under an accumulating scatter (each entry of the result is the operand's
  plus a finite sum of entries of the updates, whichever the scatter indices are). Two operations have corners: the
  reciprocal square root, which is real exactly at a positive real — and a `where(d > 0, rsqrt d, 0)` reads it only
  there —, and the quotient, which is real at a real divisor that is not zero — and `max c 1` for a real `c` is one.
-/
import Idealize.ShloMosaic.PureOps.Ideal.Laws
import Idealize.ShloMosaic.Lib.ValueIdx
import Idealize.ShloMosaic.Lib.Pipeline.Value
import Idealize.ShloMosaic.Lib.IdealHost
import proofs.«123561_j14474039788040_1_alg».proof.Proof.LibGcnLayer

open scoped BigOperators

namespace Cert.Gnn

open Idealize.ShloMosaic Cert.GcnLaw

/-- The extended real one is a real number. -/
theorem isReal_one : IsReal (1 : EReal) := ⟨1, EReal.coe_one.symm⟩

/-! ## Pointwise operations -/

theorem real_addf {s : Shape} {φ : FTy} (x y : FVec Ideal s φ) (hx : ∀ i, IsReal (x i)) (hy : ∀ i, IsReal (y i)) :
    ∀ i, IsReal (addf x y i) := fun i => (hx i).add (hy i)

theorem real_mulf {s : Shape} {φ : FTy} (x y : FVec Ideal s φ) (hx : ∀ i, IsReal (x i)) (hy : ∀ i, IsReal (y i)) :
    ∀ i, IsReal (mulf x y i) := fun i => (hx i).mul (hy i)

theorem real_maximumf {s : Shape} {φ : FTy} (x y : FVec Ideal s φ) (hx : ∀ i, IsReal (x i)) (hy : ∀ i, IsReal (y i)) :
    ∀ i, IsReal (maximumf x y i) := fun i => (hx i).max (hy i)

/-! ## Constants and broadcasts -/

/-- The splat of the f32 pattern of zero. -/
theorem real_constant_zero (s : Shape) : ∀ i, IsReal (constant (F := Ideal) s .f32 0x00000000#32 i) := by
  intro i
  show IsReal (Ideal.ofBits .f32 0x00000000#32)
  rw [Ideal.ofBits_zero_f32]
  exact IsReal.zero

/-- The splat of the f32 pattern of one. -/
theorem real_constant_one (s : Shape) : ∀ i, IsReal (constant (F := Ideal) s .f32 0x3F800000#32 i) := by
  intro i
  show IsReal (Ideal.ofBits .f32 0x3F800000#32)
  rw [Ideal.ofBits_one_f32]
  exact isReal_one

/-- Every entry of a broadcast is an entry of its operand: what holds of every entry of the operand holds of every
    entry of the result. -/
theorem all_broadcastInDim {α : Type} {s t : Shape} (P : α → Prop) (dims : Fin s.rank → Fin t.rank)
    (h : s.BroadcastsInDim t dims) (x : s.Idx → α) (hx : ∀ i, P (x i)) : ∀ j, P (broadcastInDim t dims h x j) := by
  intro j
  unfold broadcastInDim
  exact hx _

/-! ## Contraction, gather, accumulating scatter -/

/-- The host's `dot_general` of real operands: a finite sum of products. -/
theorem real_dotGeneral {sl sr so : Shape} {φ₁ φ₂ : FTy} (d : DotDims sl sr so) (prec : Option ContractPrecision)
    (l : FVec Ideal sl φ₁) (r : FVec Ideal sr φ₂) (hl : ∀ i, IsReal (l i)) (hr : ∀ i, IsReal (r i)) :
    ∀ j, IsReal (Host.dotGeneral d prec l r j) := by
  intro j
  simp only [Host.dotGeneral]
  rw [Ideal.dotGeneral_apply]
  exact IsReal.sum _ _ fun k _ => (hl _).mul (hr _)

/-- Every entry of a gather is an entry of its operand, whichever the start indices are. -/
theorem real_gather {s si t : Shape} {w : Nat} (d : GatherDims s si t) (x : s.Idx → EReal) (idx : IVec si w)
    (hx : ∀ i, IsReal (x i)) : ∀ j, IsReal (Host.gather d x idx j) := by
  intro j
  unfold Host.gather
  exact hx _

/-- Every entry of an accumulating scatter is the operand's plus a finite sum of entries of the updates, whichever
    the scatter indices are. -/
theorem real_scatterAdd {s si u : Shape} {w : Nat} {φ : FTy} (d : ScatterDims s si u) (x : FVec Ideal s φ)
    (idx : IVec si w) (upd : FVec Ideal u φ) (hx : ∀ i, IsReal (x i)) (hu : ∀ i, IsReal (upd i)) :
    ∀ i, IsReal (Host.scatterAdd (F := Ideal) d x idx upd i) := by
  intro i
  show IsReal (Ideal.hostScatterAdd d x idx upd i)
  unfold Ideal.hostScatterAdd
  exact (hx i).add (IsReal.sum _ _ fun j _ => hu j)

/-! ## The reciprocal square root behind a positivity mask -/

/-- The reciprocal square root of a positive real is real. -/
theorem isReal_rsqrt_of_pos {d : EReal} (hd : IsReal d) (hpos : 0 < d) : IsReal (Ideal.rsqrt d) := by
  obtain ⟨r, rfl⟩ := hd
  have hr : 0 < r := by exact_mod_cast hpos
  rw [Ideal.rsqrt_coe, if_neg (not_lt.mpr hr.le), if_neg hr.ne']
  exact IsReal.coe _

/-- `where(d > 0, rsqrt d, z)` at one entry: real when `d` and `z` are. -/
theorem isReal_where_rsqrt {φ : FTy} (d zero z : Ideal φ) (hd : IsReal d) (hzero : zero = 0) (hz : IsReal z) :
    IsReal (Scalar.select (FloatOps.cmpf .ogt d zero) (FloatOps.hostUnary .rsqrt d) z) := by
  subst hzero
  unfold Scalar.select
  split
  · rename_i h
    have hpos : (0 : EReal) < d := by
      have h' : Ideal.cmp .ogt d 0 = 1 := h
      unfold Ideal.cmp at h'
      by_contra hn
      simp [hn] at h'
    exact isReal_rsqrt_of_pos hd hpos
  · exact hz

/-! ## The quotient by a count that is at least one -/

/-- An extended real that is a real number not less than one. -/
def IsRealGeOne (y : EReal) : Prop := ∃ r : ℝ, 1 ≤ r ∧ y = (r : EReal)

/-- `max c 1` for a real `c` is a real not less than one. -/
theorem isRealGeOne_max_one {c one : EReal} (hc : IsReal c) (hone : one = 1) : IsRealGeOne (max c one) := by
  subst hone
  obtain ⟨r, rfl⟩ := hc
  refine ⟨max r 1, le_max_right r 1, ?_⟩
  rw [EReal.coe_strictMono.monotone.map_max, EReal.coe_one]

/-- A real divided by a real not less than one is real: the divisor is not zero, so the quotient is the product
    with its reciprocal. -/
theorem isReal_div_geOne {a y : EReal} (ha : IsReal a) (hy : IsRealGeOne y) : IsReal (Ideal.div a y) := by
  obtain ⟨r, hr, rfl⟩ := hy
  rw [Ideal.div_coe (ne_of_gt (lt_of_lt_of_le one_pos hr))]
  exact ha.mul (IsReal.coe _)

/-- The pointwise maximum with a splat of one, of a real array. -/
theorem geOne_maximumf {s : Shape} {φ : FTy} (x y : FVec Ideal s φ) (hx : ∀ i, IsReal (x i)) (hy : ∀ i, y i = 1) :
    ∀ i, IsRealGeOne (maximumf x y i) := fun i => isRealGeOne_max_one (hx i) (hy i)

/-- The host's quotient of a real array by an array of reals not less than one. -/
theorem real_hostDivf {s : Shape} {φ : FTy} (x y : FVec Ideal s φ) (hx : ∀ i, IsReal (x i))
    (hy : ∀ i, IsRealGeOne (y i)) : ∀ i, IsReal (Host.divf x y i) := fun i => isReal_div_geOne (hx i) (hy i)

/-- `where(d > 0, rsqrt d, z)` of arrays: real when `d` and `z` are and the comparand is the splat of zero. -/
theorem real_where_rsqrt {s : Shape} {φ : FTy} (d zero z : FVec Ideal s φ) (hd : ∀ i, IsReal (d i))
    (hzero : ∀ i, zero i = 0) (hz : ∀ i, IsReal (z i)) :
    ∀ i, IsReal (select (cmpf .ogt d zero) (Host.rsqrt d) z i) :=
  fun i => isReal_where_rsqrt (d i) (zero i) (z i) (hd i) (hzero i) (hz i)

end Cert.Gnn
-- ==== Proof.Reality.lean ====
/-
  Every logit of the reference program is a real number when its float inputs are.

  The reference is three graph-convolution layers `h ↦ relu(segment_sum((h W)[src] · norm, dst) + b)`, a mean pool over
  the graphs of the batch, and a two-layer head. Stage by stage, in program order, every entry of every float array is
  a real number: the inputs are by hypothesis; a contraction, a gather, an accumulating scatter, a broadcast, a sum, a
  product and a maximum keep that (whatever the integer inputs are: an out-of-range gather index is clamped, an
  out-of-range scatter index is dropped). The two operations with corners are read away from them: the normaliser is
  `where(deg > 0, rsqrt deg, 0)`, which reads the reciprocal square root only at a positive degree, and the pooled mean
  divides by `max cnt 1`, a real not less than one.
-/
import proofs.«123561_j14474039788040_1_alg».proof.Proof.RefRead
import proofs.«123561_j14474039788040_1_alg».proof.Proof.RealityOps

namespace Cert.Gnn

open Cert.ReferenceIdeal Cert.ReferenceIdeal.Gen Cert.ReferenceIdeal.ReadP Cert.GcnLaw
open Idealize.ShloMosaic Idealize.ShloMosaic.TcCoe Idealize.SL.Sem Idealize.ShloMosaic.StableHlo

theorem real_cst :
    ∀ i, IsReal (val_main_cst (F := Ideal) i) := by
  unfold val_main_cst
  exact real_constant_one _

theorem real_v7 :
    ∀ i, IsReal (val_main_v7 (F := Ideal) i) := by
  unfold val_main_v7
  exact all_broadcastInDim IsReal _ _ _ real_cst

theorem real_cst_0 :
    ∀ i, IsReal (val_main_cst_0 (F := Ideal) i) := by
  unfold val_main_cst_0
  exact real_constant_zero _

theorem real_v8 :
    ∀ i, IsReal (val_main_v8 (F := Ideal) i) := by
  unfold val_main_v8
  exact all_broadcastInDim IsReal _ _ _ real_cst_0

theorem real_v10 (x1 : (⟨Cert.ReferenceIdeal.S2x1600000, .i32⟩ : BufTy).Contents (Elt Ideal)) :
    ∀ i, IsReal (val_main_v10 (F := Ideal) x1 i) := by
  unfold val_main_v10
  exact real_scatterAdd _ _ _ _ real_v8 real_v7

theorem real_cst_1 :
    ∀ i, IsReal (val_main_cst_1 (F := Ideal) i) := by
  unfold val_main_cst_1
  exact real_constant_zero _

theorem real_v11 :
    ∀ i, IsReal (val_main_v11 (F := Ideal) i) := by
  unfold val_main_v11
  exact all_broadcastInDim IsReal _ _ _ real_cst_1

/-- The comparand of the positivity mask is the splat of zero. -/
theorem v11_eq_zero : ∀ i, val_main_v11 (F := Ideal) i = 0 := by
  unfold val_main_v11
  exact all_broadcastInDim (fun y => y = (0 : EReal)) _ _ _ (fun _ => Ideal.ofBits_zero_f32)

theorem real_cst_2 :
    ∀ i, IsReal (val_main_cst_2 (F := Ideal) i) := by
  unfold val_main_cst_2
  exact real_constant_zero _

theorem real_call0_v0 :
    ∀ i, IsReal (val_main_call0_v0 (F := Ideal) i) := by
  unfold val_main_call0_v0
  exact real_cst_2

theorem real_call0_v1 :
    ∀ i, IsReal (val_main_call0_v1 (F := Ideal) i) := by
  unfold val_main_call0_v1
  exact all_broadcastInDim IsReal _ _ _ real_call0_v0

/-- The normaliser `where(deg > 0, rsqrt deg, 0)`: the reciprocal square root is read only where the degree is positive. -/
theorem real_v14 (x1 : (⟨Cert.ReferenceIdeal.S2x1600000, .i32⟩ : BufTy).Contents (Elt Ideal)) :
    ∀ i, IsReal (val_main_v14 (F := Ideal) x1 i) := by
  unfold val_main_v14 val_main_v12 val_main_v13
  exact real_where_rsqrt _ _ _ (real_v10 x1) v11_eq_zero real_call0_v1

theorem real_v21 (x1 : (⟨Cert.ReferenceIdeal.S2x1600000, .i32⟩ : BufTy).Contents (Elt Ideal)) :
    ∀ i, IsReal (val_main_v21 (F := Ideal) x1 i) := by
  unfold val_main_v21
  exact real_gather _ _ _ (real_v14 x1)

theorem real_v28 (x1 : (⟨Cert.ReferenceIdeal.S2x1600000, .i32⟩ : BufTy).Contents (Elt Ideal)) :
    ∀ i, IsReal (val_main_v28 (F := Ideal) x1 i) := by
  unfold val_main_v28
  exact real_gather _ _ _ (real_v14 x1)

theorem real_v29 (x1 : (⟨Cert.ReferenceIdeal.S2x1600000, .i32⟩ : BufTy).Contents (Elt Ideal)) :
    ∀ i, IsReal (val_main_v29 (F := Ideal) x1 i) := by
  unfold val_main_v29
  exact real_mulf _ _ (real_v21 x1) (real_v28 x1)

theorem real_v30 (x1 : (⟨Cert.ReferenceIdeal.S2x1600000, .i32⟩ : BufTy).Contents (Elt Ideal)) :
    ∀ i, IsReal (val_main_v30 (F := Ideal) x1 i) := by
  unfold val_main_v30
  exact all_broadcastInDim IsReal _ _ _ (real_v29 x1)

theorem real_v31 (x0 : (⟨Cert.ReferenceIdeal.S100000x256, .f32⟩ : BufTy).Contents (Elt Ideal)) (x3 : (⟨Cert.ReferenceIdeal.S256x128, .f32⟩ : BufTy).Contents (Elt Ideal))
    (h0 : ∀ i, IsReal (x0 i)) (h3 : ∀ i, IsReal (x3 i)) :
    ∀ i, IsReal (val_main_v31 (F := Ideal) x0 x3 i) := by
  unfold val_main_v31
  exact real_dotGeneral _ _ _ _ h0 h3

theorem real_v38 (x0 : (⟨Cert.ReferenceIdeal.S100000x256, .f32⟩ : BufTy).Contents (Elt Ideal)) (x1 : (⟨Cert.ReferenceIdeal.S2x1600000, .i32⟩ : BufTy).Contents (Elt Ideal)) (x3 : (⟨Cert.ReferenceIdeal.S256x128, .f32⟩ : BufTy).Contents (Elt Ideal))
    (h0 : ∀ i, IsReal (x0 i)) (h3 : ∀ i, IsReal (x3 i)) :
    ∀ i, IsReal (val_main_v38 (F := Ideal) x0 x1 x3 i) := by
  unfold val_main_v38
  exact real_gather _ _ _ (real_v31 x0 x3 h0 h3)

theorem real_v39 (x1 : (⟨Cert.ReferenceIdeal.S2x1600000, .i32⟩ : BufTy).Contents (Elt Ideal)) :
    ∀ i, IsReal (val_main_v39 (F := Ideal) x1 i) := by
  unfold val_main_v39
  exact all_broadcastInDim IsReal _ _ _ (real_v30 x1)

theorem real_v40 (x0 : (⟨Cert.ReferenceIdeal.S100000x256, .f32⟩ : BufTy).Contents (Elt Ideal)) (x1 : (⟨Cert.ReferenceIdeal.S2x1600000, .i32⟩ : BufTy).Contents (Elt Ideal)) (x3 : (⟨Cert.ReferenceIdeal.S256x128, .f32⟩ : BufTy).Contents (Elt Ideal))
    (h0 : ∀ i, IsReal (x0 i)) (h3 : ∀ i, IsReal (x3 i)) :
    ∀ i, IsReal (val_main_v40 (F := Ideal) x0 x1 x3 i) := by
  unfold val_main_v40
  exact real_mulf _ _ (real_v38 x0 x1 x3 h0 h3) (real_v39 x1)

theorem real_cst_8 :
    ∀ i, IsReal (val_main_cst_8 (F := Ideal) i) := by
  unfold val_main_cst_8
  exact real_constant_zero _

theorem real_v41 :
    ∀ i, IsReal (val_main_v41 (F := Ideal) i) := by
  unfold val_main_v41
  exact all_broadcastInDim IsReal _ _ _ real_cst_8

theorem real_v43 (x0 : (⟨Cert.ReferenceIdeal.S100000x256, .f32⟩ : BufTy).Contents (Elt Ideal)) (x1 : (⟨Cert.ReferenceIdeal.S2x1600000, .i32⟩ : BufTy).Contents (Elt Ideal)) (x3 : (⟨Cert.ReferenceIdeal.S256x128, .f32⟩ : BufTy).Contents (Elt Ideal))
    (h0 : ∀ i, IsReal (x0 i)) (h3 : ∀ i, IsReal (x3 i)) :
    ∀ i, IsReal (val_main_v43 (F := Ideal) x0 x1 x3 i) := by
  unfold val_main_v43
  exact real_scatterAdd _ _ _ _ real_v41 (real_v40 x0 x1 x3 h0 h3)

theorem real_v44 (x4 : (⟨Cert.ReferenceIdeal.S128, .f32⟩ : BufTy).Contents (Elt Ideal))
    (h4 : ∀ i, IsReal (x4 i)) :
    ∀ i, IsReal (val_main_v44 (F := Ideal) x4 i) := by
  unfold val_main_v44
  exact all_broadcastInDim IsReal _ _ _ h4

theorem real_v45 (x4 : (⟨Cert.ReferenceIdeal.S128, .f32⟩ : BufTy).Contents (Elt Ideal))
    (h4 : ∀ i, IsReal (x4 i)) :
    ∀ i, IsReal (val_main_v45 (F := Ideal) x4 i) := by
  unfold val_main_v45
  exact all_broadcastInDim IsReal _ _ _ (real_v44 x4 h4)

theorem real_v46 (x0 : (⟨Cert.ReferenceIdeal.S100000x256, .f32⟩ : BufTy).Contents (Elt Ideal)) (x1 : (⟨Cert.ReferenceIdeal.S2x1600000, .i32⟩ : BufTy).Contents (Elt Ideal)) (x3 : (⟨Cert.ReferenceIdeal.S256x128, .f32⟩ : BufTy).Contents (Elt Ideal)) (x4 : (⟨Cert.ReferenceIdeal.S128, .f32⟩ : BufTy).Contents (Elt Ideal))
    (h0 : ∀ i, IsReal (x0 i)) (h3 : ∀ i, IsReal (x3 i)) (h4 : ∀ i, IsReal (x4 i)) :
    ∀ i, IsReal (val_main_v46 (F := Ideal) x0 x1 x3 x4 i) := by
  unfold val_main_v46
  exact real_addf _ _ (real_v43 x0 x1 x3 h0 h3) (real_v45 x4 h4)

theorem real_call1_cst :
    ∀ i, IsReal (val_main_call1_cst (F := Ideal) i) := by
  unfold val_main_call1_cst
  exact real_constant_zero _

theorem real_call1_v0 :
    ∀ i, IsReal (val_main_call1_v0 (F := Ideal) i) := by
  unfold val_main_call1_v0
  exact all_broadcastInDim IsReal _ _ _ real_call1_cst

theorem real_v47 (x0 : (⟨Cert.ReferenceIdeal.S100000x256, .f32⟩ : BufTy).Contents (Elt Ideal)) (x1 : (⟨Cert.ReferenceIdeal.S2x1600000, .i32⟩ : BufTy).Contents (Elt Ideal)) (x3 : (⟨Cert.ReferenceIdeal.S256x128, .f32⟩ : BufTy).Contents (Elt Ideal)) (x4 : (⟨Cert.ReferenceIdeal.S128, .f32⟩ : BufTy).Contents (Elt Ideal))
    (h0 : ∀ i, IsReal (x0 i)) (h3 : ∀ i, IsReal (x3 i)) (h4 : ∀ i, IsReal (x4 i)) :
    ∀ i, IsReal (val_main_v47 (F := Ideal) x0 x1 x3 x4 i) := by
  unfold val_main_v47
  exact real_maximumf _ _ (real_v46 x0 x1 x3 x4 h0 h3 h4) real_call1_v0

theorem real_v48 (x0 : (⟨Cert.ReferenceIdeal.S100000x256, .f32⟩ : BufTy).Contents (Elt Ideal)) (x1 : (⟨Cert.ReferenceIdeal.S2x1600000, .i32⟩ : BufTy).Contents (Elt Ideal)) (x3 : (⟨Cert.ReferenceIdeal.S256x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal))
    (h0 : ∀ i, IsReal (x0 i)) (h3 : ∀ i, IsReal (x3 i)) (h4 : ∀ i, IsReal (x4 i)) (h5 : ∀ i, IsReal (x5 i)) :
    ∀ i, IsReal (val_main_v48 (F := Ideal) x0 x1 x3 x4 x5 i) := by
  unfold val_main_v48
  exact real_dotGeneral _ _ _ _ (real_v47 x0 x1 x3 x4 h0 h3 h4) h5

theorem real_v55 (x0 : (⟨Cert.ReferenceIdeal.S100000x256, .f32⟩ : BufTy).Contents (Elt Ideal)) (x1 : (⟨Cert.ReferenceIdeal.S2x1600000, .i32⟩ : BufTy).Contents (Elt Ideal)) (x3 : (⟨Cert.ReferenceIdeal.S256x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal))
    (h0 : ∀ i, IsReal (x0 i)) (h3 : ∀ i, IsReal (x3 i)) (h4 : ∀ i, IsReal (x4 i)) (h5 : ∀ i, IsReal (x5 i)) :
    ∀ i, IsReal (val_main_v55 (F := Ideal) x0 x1 x3 x4 x5 i) := by
  unfold val_main_v55
  exact real_gather _ _ _ (real_v48 x0 x1 x3 x4 x5 h0 h3 h4 h5)

theorem real_v56 (x1 : (⟨Cert.ReferenceIdeal.S2x1600000, .i32⟩ : BufTy).Contents (Elt Ideal)) :
    ∀ i, IsReal (val_main_v56 (F := Ideal) x1 i) := by
  unfold val_main_v56
  exact all_broadcastInDim IsReal _ _ _ (real_v30 x1)

theorem real_v57 (x0 : (⟨Cert.ReferenceIdeal.S100000x256, .f32⟩ : BufTy).Contents (Elt Ideal)) (x1 : (⟨Cert.ReferenceIdeal.S2x1600000, .i32⟩ : BufTy).Contents (Elt Ideal)) (x3 : (⟨Cert.ReferenceIdeal.S256x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal))
    (h0 : ∀ i, IsReal (x0 i)) (h3 : ∀ i, IsReal (x3 i)) (h4 : ∀ i, IsReal (x4 i)) (h5 : ∀ i, IsReal (x5 i)) :
    ∀ i, IsReal (val_main_v57 (F := Ideal) x0 x1 x3 x4 x5 i) := by
  unfold val_main_v57
  exact real_mulf _ _ (real_v55 x0 x1 x3 x4 x5 h0 h3 h4 h5) (real_v56 x1)

theorem real_cst_11 :
    ∀ i, IsReal (val_main_cst_11 (F := Ideal) i) := by
  unfold val_main_cst_11
  exact real_constant_zero _

theorem real_v58 :
    ∀ i, IsReal (val_main_v58 (F := Ideal) i) := by
  unfold val_main_v58
  exact all_broadcastInDim IsReal _ _ _ real_cst_11

theorem real_v60 (x0 : (⟨Cert.ReferenceIdeal.S100000x256, .f32⟩ : BufTy).Contents (Elt Ideal)) (x1 : (⟨Cert.ReferenceIdeal.S2x1600000, .i32⟩ : BufTy).Contents (Elt Ideal)) (x3 : (⟨Cert.ReferenceIdeal.S256x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal))
    (h0 : ∀ i, IsReal (x0 i)) (h3 : ∀ i, IsReal (x3 i)) (h4 : ∀ i, IsReal (x4 i)) (h5 : ∀ i, IsReal (x5 i)) :
    ∀ i, IsReal (val_main_v60 (F := Ideal) x0 x1 x3 x4 x5 i) := by
  unfold val_main_v60
  exact real_scatterAdd _ _ _ _ real_v58 (real_v57 x0 x1 x3 x4 x5 h0 h3 h4 h5)

theorem real_v61 (x6 : (⟨Cert.ReferenceIdeal.S128, .f32⟩ : BufTy).Contents (Elt Ideal))
    (h6 : ∀ i, IsReal (x6 i)) :
    ∀ i, IsReal (val_main_v61 (F := Ideal) x6 i) := by
  unfold val_main_v61
  exact all_broadcastInDim IsReal _ _ _ h6

theorem real_v62 (x6 : (⟨Cert.ReferenceIdeal.S128, .f32⟩ : BufTy).Contents (Elt Ideal))
    (h6 : ∀ i, IsReal (x6 i)) :
    ∀ i, IsReal (val_main_v62 (F := Ideal) x6 i) := by
  unfold val_main_v62
  exact all_broadcastInDim IsReal _ _ _ (real_v61 x6 h6)

theorem real_v63 (x0 : (⟨Cert.ReferenceIdeal.S100000x256, .f32⟩ : BufTy).Contents (Elt Ideal)) (x1 : (⟨Cert.ReferenceIdeal.S2x1600000, .i32⟩ : BufTy).Contents (Elt Ideal)) (x3 : (⟨Cert.ReferenceIdeal.S256x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal))
    (h0 : ∀ i, IsReal (x0 i)) (h3 : ∀ i, IsReal (x3 i)) (h4 : ∀ i, IsReal (x4 i)) (h5 : ∀ i, IsReal (x5 i)) (h6 : ∀ i, IsReal (x6 i)) :
    ∀ i, IsReal (val_main_v63 (F := Ideal) x0 x1 x3 x4 x5 x6 i) := by
  unfold val_main_v63
  exact real_addf _ _ (real_v60 x0 x1 x3 x4 x5 h0 h3 h4 h5) (real_v62 x6 h6)

theorem real_call2_cst :
    ∀ i, IsReal (val_main_call2_cst (F := Ideal) i) := by
  unfold val_main_call2_cst
  exact real_constant_zero _

theorem real_call2_v0 :
    ∀ i, IsReal (val_main_call2_v0 (F := Ideal) i) := by
  unfold val_main_call2_v0
  exact all_broadcastInDim IsReal _ _ _ real_call2_cst

theorem real_v64 (x0 : (⟨Cert.ReferenceIdeal.S100000x256, .f32⟩ : BufTy).Contents (Elt Ideal)) (x1 : (⟨Cert.ReferenceIdeal.S2x1600000, .i32⟩ : BufTy).Contents (Elt Ideal)) (x3 : (⟨Cert.ReferenceIdeal.S256x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal))
    (h0 : ∀ i, IsReal (x0 i)) (h3 : ∀ i, IsReal (x3 i)) (h4 : ∀ i, IsReal (x4 i)) (h5 : ∀ i, IsReal (x5 i)) (h6 : ∀ i, IsReal (x6 i)) :
    ∀ i, IsReal (val_main_v64 (F := Ideal) x0 x1 x3 x4 x5 x6 i) := by
  unfold val_main_v64
  exact real_maximumf _ _ (real_v63 x0 x1 x3 x4 x5 x6 h0 h3 h4 h5 h6) real_call2_v0

theorem real_v65 (x0 : (⟨Cert.ReferenceIdeal.S100000x256, .f32⟩ : BufTy).Contents (Elt Ideal)) (x1 : (⟨Cert.ReferenceIdeal.S2x1600000, .i32⟩ : BufTy).Contents (Elt Ideal)) (x3 : (⟨Cert.ReferenceIdeal.S256x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal))
    (h0 : ∀ i, IsReal (x0 i)) (h3 : ∀ i, IsReal (x3 i)) (h4 : ∀ i, IsReal (x4 i)) (h5 : ∀ i, IsReal (x5 i)) (h6 : ∀ i, IsReal (x6 i)) (h7 : ∀ i, IsReal (x7 i)) :
    ∀ i, IsReal (val_main_v65 (F := Ideal) x0 x1 x3 x4 x5 x6 x7 i) := by
  unfold val_main_v65
  exact real_dotGeneral _ _ _ _ (real_v64 x0 x1 x3 x4 x5 x6 h0 h3 h4 h5 h6) h7

theorem real_v72 (x0 : (⟨Cert.ReferenceIdeal.S100000x256, .f32⟩ : BufTy).Contents (Elt Ideal)) (x1 : (⟨Cert.ReferenceIdeal.S2x1600000, .i32⟩ : BufTy).Contents (Elt Ideal)) (x3 : (⟨Cert.ReferenceIdeal.S256x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal))
    (h0 : ∀ i, IsReal (x0 i)) (h3 : ∀ i, IsReal (x3 i)) (h4 : ∀ i, IsReal (x4 i)) (h5 : ∀ i, IsReal (x5 i)) (h6 : ∀ i, IsReal (x6 i)) (h7 : ∀ i, IsReal (x7 i)) :
    ∀ i, IsReal (val_main_v72 (F := Ideal) x0 x1 x3 x4 x5 x6 x7 i) := by
  unfold val_main_v72
  exact real_gather _ _ _ (real_v65 x0 x1 x3 x4 x5 x6 x7 h0 h3 h4 h5 h6 h7)

theorem real_v73 (x1 : (⟨Cert.ReferenceIdeal.S2x1600000, .i32⟩ : BufTy).Contents (Elt Ideal)) :
    ∀ i, IsReal (val_main_v73 (F := Ideal) x1 i) := by
  unfold val_main_v73
  exact all_broadcastInDim IsReal _ _ _ (real_v30 x1)

theorem real_v74 (x0 : (⟨Cert.ReferenceIdeal.S100000x256, .f32⟩ : BufTy).Contents (Elt Ideal)) (x1 : (⟨Cert.ReferenceIdeal.S2x1600000, .i32⟩ : BufTy).Contents (Elt Ideal)) (x3 : (⟨Cert.ReferenceIdeal.S256x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal))
    (h0 : ∀ i, IsReal (x0 i)) (h3 : ∀ i, IsReal (x3 i)) (h4 : ∀ i, IsReal (x4 i)) (h5 : ∀ i, IsReal (x5 i)) (h6 : ∀ i, IsReal (x6 i)) (h7 : ∀ i, IsReal (x7 i)) :
    ∀ i, IsReal (val_main_v74 (F := Ideal) x0 x1 x3 x4 x5 x6 x7 i) := by
  unfold val_main_v74
  exact real_mulf _ _ (real_v72 x0 x1 x3 x4 x5 x6 x7 h0 h3 h4 h5 h6 h7) (real_v73 x1)

theorem real_cst_14 :
    ∀ i, IsReal (val_main_cst_14 (F := Ideal) i) := by
  unfold val_main_cst_14
  exact real_constant_zero _

theorem real_v75 :
    ∀ i, IsReal (val_main_v75 (F := Ideal) i) := by
  unfold val_main_v75
  exact all_broadcastInDim IsReal _ _ _ real_cst_14

theorem real_v77 (x0 : (⟨Cert.ReferenceIdeal.S100000x256, .f32⟩ : BufTy).Contents (Elt Ideal)) (x1 : (⟨Cert.ReferenceIdeal.S2x1600000, .i32⟩ : BufTy).Contents (Elt Ideal)) (x3 : (⟨Cert.ReferenceIdeal.S256x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal))
    (h0 : ∀ i, IsReal (x0 i)) (h3 : ∀ i, IsReal (x3 i)) (h4 : ∀ i, IsReal (x4 i)) (h5 : ∀ i, IsReal (x5 i)) (h6 : ∀ i, IsReal (x6 i)) (h7 : ∀ i, IsReal (x7 i)) :
    ∀ i, IsReal (val_main_v77 (F := Ideal) x0 x1 x3 x4 x5 x6 x7 i) := by
  unfold val_main_v77
  exact real_scatterAdd _ _ _ _ real_v75 (real_v74 x0 x1 x3 x4 x5 x6 x7 h0 h3 h4 h5 h6 h7)

theorem real_v78 (x8 : (⟨Cert.ReferenceIdeal.S128, .f32⟩ : BufTy).Contents (Elt Ideal))
    (h8 : ∀ i, IsReal (x8 i)) :
    ∀ i, IsReal (val_main_v78 (F := Ideal) x8 i) := by
  unfold val_main_v78
  exact all_broadcastInDim IsReal _ _ _ h8

theorem real_v79 (x8 : (⟨Cert.ReferenceIdeal.S128, .f32⟩ : BufTy).Contents (Elt Ideal))
    (h8 : ∀ i, IsReal (x8 i)) :
    ∀ i, IsReal (val_main_v79 (F := Ideal) x8 i) := by
  unfold val_main_v79
  exact all_broadcastInDim IsReal _ _ _ (real_v78 x8 h8)

theorem real_v80 (x0 : (⟨Cert.ReferenceIdeal.S100000x256, .f32⟩ : BufTy).Contents (Elt Ideal)) (x1 : (⟨Cert.ReferenceIdeal.S2x1600000, .i32⟩ : BufTy).Contents (Elt Ideal)) (x3 : (⟨Cert.ReferenceIdeal.S256x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal))
    (h0 : ∀ i, IsReal (x0 i)) (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) :
    ∀ i, IsReal (val_main_v80 (F := Ideal) x0 x1 x3 x4 x5 x6 x7 x8 i) := by
  unfold val_main_v80
  exact real_addf _ _ (real_v77 x0 x1 x3 x4 x5 x6 x7 h0 h3 h4 h5 h6 h7) (real_v79 x8 h8)

theorem real_call3_cst :
    ∀ i, IsReal (val_main_call3_cst (F := Ideal) i) := by
  unfold val_main_call3_cst
  exact real_constant_zero _

theorem real_call3_v0 :
    ∀ i, IsReal (val_main_call3_v0 (F := Ideal) i) := by
  unfold val_main_call3_v0
  exact all_broadcastInDim IsReal _ _ _ real_call3_cst

theorem real_v81 (x0 : (⟨Cert.ReferenceIdeal.S100000x256, .f32⟩ : BufTy).Contents (Elt Ideal)) (x1 : (⟨Cert.ReferenceIdeal.S2x1600000, .i32⟩ : BufTy).Contents (Elt Ideal)) (x3 : (⟨Cert.ReferenceIdeal.S256x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal))
    (h0 : ∀ i, IsReal (x0 i)) (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) :
    ∀ i, IsReal (val_main_v81 (F := Ideal) x0 x1 x3 x4 x5 x6 x7 x8 i) := by
  unfold val_main_v81
  exact real_maximumf _ _ (real_v80 x0 x1 x3 x4 x5 x6 x7 x8 h0 h3 h4 h5 h6 h7 h8) real_call3_v0

theorem real_cst_15 :
    ∀ i, IsReal (val_main_cst_15 (F := Ideal) i) := by
  unfold val_main_cst_15
  exact real_constant_zero _

theorem real_v82 :
    ∀ i, IsReal (val_main_v82 (F := Ideal) i) := by
  unfold val_main_v82
  exact all_broadcastInDim IsReal _ _ _ real_cst_15

theorem real_v84 (x0 : (⟨Cert.ReferenceIdeal.S100000x256, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal)) (x3 : (⟨Cert.ReferenceIdeal.S256x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal))
    (h0 : ∀ i, IsReal (x0 i)) (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) :
    ∀ i, IsReal (val_main_v84 (F := Ideal) x0 x1 x2 x3 x4 x5 x6 x7 x8 i) := by
  unfold val_main_v84
  exact real_scatterAdd _ _ _ _ real_v82 (real_v81 x0 x1 x3 x4 x5 x6 x7 x8 h0 h3 h4 h5 h6 h7 h8)

theorem real_cst_16 :
    ∀ i, IsReal (val_main_cst_16 (F := Ideal) i) := by
  unfold val_main_cst_16
  exact real_constant_one _

theorem real_v85 :
    ∀ i, IsReal (val_main_v85 (F := Ideal) i) := by
  unfold val_main_v85
  exact all_broadcastInDim IsReal _ _ _ real_cst_16

theorem real_cst_17 :
    ∀ i, IsReal (val_main_cst_17 (F := Ideal) i) := by
  unfold val_main_cst_17
  exact real_constant_zero _

theorem real_v86 :
    ∀ i, IsReal (val_main_v86 (F := Ideal) i) := by
  unfold val_main_v86
  exact all_broadcastInDim IsReal _ _ _ real_cst_17

theorem real_v88 (x2 : (⟨Cert.ReferenceIdeal.S100000, .i32⟩ : BufTy).Contents (Elt Ideal)) :
    ∀ i, IsReal (val_main_v88 (F := Ideal) x2 i) := by
  unfold val_main_v88
  exact real_scatterAdd _ _ _ _ real_v86 real_v85

theorem real_cst_18 :
    ∀ i, IsReal (val_main_cst_18 (F := Ideal) i) := by
  unfold val_main_cst_18
  exact real_constant_one _

theorem real_v89 :
    ∀ i, IsReal (val_main_v89 (F := Ideal) i) := by
  unfold val_main_v89
  exact all_broadcastInDim IsReal _ _ _ real_cst_18

/-- The floor of the count is the splat of one. -/
theorem v89_eq_one : ∀ i, val_main_v89 (F := Ideal) i = 1 := by
  unfold val_main_v89
  exact all_broadcastInDim (fun y => y = (1 : EReal)) _ _ _ (fun _ => Ideal.ofBits_one_f32)

/-- `max cnt 1`: a real not less than one. -/
theorem geOne_v90 (x2 : (⟨Cert.ReferenceIdeal.S100000, .i32⟩ : BufTy).Contents (Elt Ideal)) :
    ∀ i, IsRealGeOne (val_main_v90 (F := Ideal) x2 i) := by
  unfold val_main_v90
  exact geOne_maximumf _ _ (real_v88 x2) v89_eq_one

theorem geOne_v91 (x2 : (⟨Cert.ReferenceIdeal.S100000, .i32⟩ : BufTy).Contents (Elt Ideal)) :
    ∀ i, IsRealGeOne (val_main_v91 (F := Ideal) x2 i) := by
  unfold val_main_v91
  exact all_broadcastInDim IsRealGeOne _ _ _ (geOne_v90 x2)

theorem geOne_v92 (x2 : (⟨Cert.ReferenceIdeal.S100000, .i32⟩ : BufTy).Contents (Elt Ideal)) :
    ∀ i, IsRealGeOne (val_main_v92 (F := Ideal) x2 i) := by
  unfold val_main_v92
  exact all_broadcastInDim IsRealGeOne _ _ _ (geOne_v91 x2)

/-- The pooled mean: the sums divided by `max cnt 1`. -/
theorem real_v93 (x0 : (⟨Cert.ReferenceIdeal.S100000x256, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal)) (x3 : (⟨Cert.ReferenceIdeal.S256x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal))
    (h0 : ∀ i, IsReal (x0 i)) (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) :
    ∀ i, IsReal (val_main_v93 (F := Ideal) x0 x1 x2 x3 x4 x5 x6 x7 x8 i) := by
  unfold val_main_v93
  exact real_hostDivf _ _ (real_v84 x0 x1 x2 x3 x4 x5 x6 x7 x8 h0 h3 h4 h5 h6 h7 h8) (geOne_v92 x2)

theorem real_v94 (x0 : (⟨Cert.ReferenceIdeal.S100000x256, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal)) (x3 : (⟨Cert.ReferenceIdeal.S256x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal)) (x9 : (⟨Cert.ReferenceIdeal.S128x32, .f32⟩ : BufTy).Contents (Elt Ideal))
    (h0 : ∀ i, IsReal (x0 i)) (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) (h9 : ∀ i, IsReal (x9 i)) :
    ∀ i, IsReal (val_main_v94 (F := Ideal) x0 x1 x2 x3 x4 x5 x6 x7 x8 x9 i) := by
  unfold val_main_v94
  exact real_dotGeneral _ _ _ _ (real_v93 x0 x1 x2 x3 x4 x5 x6 x7 x8 h0 h3 h4 h5 h6 h7 h8) h9

theorem real_v95 (x10 : (⟨Cert.ReferenceIdeal.S32, .f32⟩ : BufTy).Contents (Elt Ideal))
    (h10 : ∀ i, IsReal (x10 i)) :
    ∀ i, IsReal (val_main_v95 (F := Ideal) x10 i) := by
  unfold val_main_v95
  exact all_broadcastInDim IsReal _ _ _ h10

theorem real_v96 (x10 : (⟨Cert.ReferenceIdeal.S32, .f32⟩ : BufTy).Contents (Elt Ideal))
    (h10 : ∀ i, IsReal (x10 i)) :
    ∀ i, IsReal (val_main_v96 (F := Ideal) x10 i) := by
  unfold val_main_v96
  exact all_broadcastInDim IsReal _ _ _ (real_v95 x10 h10)

theorem real_v97 (x0 : (⟨Cert.ReferenceIdeal.S100000x256, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal)) (x3 : (⟨Cert.ReferenceIdeal.S256x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal)) (x9 : (⟨Cert.ReferenceIdeal.S128x32, .f32⟩ : BufTy).Contents (Elt Ideal)) (x10 : (⟨Cert.ReferenceIdeal.S32, .f32⟩ : BufTy).Contents (Elt Ideal))
    (h0 : ∀ i, IsReal (x0 i)) (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) (h9 : ∀ i, IsReal (x9 i)) (h10 : ∀ i, IsReal (x10 i)) :
    ∀ i, IsReal (val_main_v97 (F := Ideal) x0 x1 x2 x3 x4 x5 x6 x7 x8 x9 x10 i) := by
  unfold val_main_v97
  exact real_addf _ _ (real_v94 x0 x1 x2 x3 x4 x5 x6 x7 x8 x9 h0 h3 h4 h5 h6 h7 h8 h9) (real_v96 x10 h10)

theorem real_call4_cst :
    ∀ i, IsReal (val_main_call4_cst (F := Ideal) i) := by
  unfold val_main_call4_cst
  exact real_constant_zero _

theorem real_call4_v0 :
    ∀ i, IsReal (val_main_call4_v0 (F := Ideal) i) := by
  unfold val_main_call4_v0
  exact all_broadcastInDim IsReal _ _ _ real_call4_cst

theorem real_v98 (x0 : (⟨Cert.ReferenceIdeal.S100000x256, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal)) (x3 : (⟨Cert.ReferenceIdeal.S256x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal)) (x9 : (⟨Cert.ReferenceIdeal.S128x32, .f32⟩ : BufTy).Contents (Elt Ideal)) (x10 : (⟨Cert.ReferenceIdeal.S32, .f32⟩ : BufTy).Contents (Elt Ideal))
    (h0 : ∀ i, IsReal (x0 i)) (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) (h9 : ∀ i, IsReal (x9 i)) (h10 : ∀ i, IsReal (x10 i)) :
    ∀ i, IsReal (val_main_v98 (F := Ideal) x0 x1 x2 x3 x4 x5 x6 x7 x8 x9 x10 i) := by
  unfold val_main_v98
  exact real_maximumf _ _ (real_v97 x0 x1 x2 x3 x4 x5 x6 x7 x8 x9 x10 h0 h3 h4 h5 h6 h7 h8 h9 h10) real_call4_v0

theorem real_v99 (x0 : (⟨Cert.ReferenceIdeal.S100000x256, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal)) (x3 : (⟨Cert.ReferenceIdeal.S256x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal)) (x9 : (⟨Cert.ReferenceIdeal.S128x32, .f32⟩ : BufTy).Contents (Elt Ideal)) (x10 : (⟨Cert.ReferenceIdeal.S32, .f32⟩ : BufTy).Contents (Elt Ideal)) (x11 : (⟨Cert.ReferenceIdeal.S32x2, .f32⟩ : BufTy).Contents (Elt Ideal))
    (h0 : ∀ i, IsReal (x0 i)) (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) (h9 : ∀ i, IsReal (x9 i)) (h10 : ∀ i, IsReal (x10 i)) (h11 : ∀ i, IsReal (x11 i)) :
    ∀ i, IsReal (val_main_v99 (F := Ideal) x0 x1 x2 x3 x4 x5 x6 x7 x8 x9 x10 x11 i) := by
  unfold val_main_v99
  exact real_dotGeneral _ _ _ _ (real_v98 x0 x1 x2 x3 x4 x5 x6 x7 x8 x9 x10 h0 h3 h4 h5 h6 h7 h8 h9 h10) h11

theorem real_v100 (x12 : (⟨Cert.ReferenceIdeal.S2, .f32⟩ : BufTy).Contents (Elt Ideal))
    (h12 : ∀ i, IsReal (x12 i)) :
    ∀ i, IsReal (val_main_v100 (F := Ideal) x12 i) := by
  unfold val_main_v100
  exact all_broadcastInDim IsReal _ _ _ h12

theorem real_v101 (x12 : (⟨Cert.ReferenceIdeal.S2, .f32⟩ : BufTy).Contents (Elt Ideal))
    (h12 : ∀ i, IsReal (x12 i)) :
    ∀ i, IsReal (val_main_v101 (F := Ideal) x12 i) := by
  unfold val_main_v101
  exact all_broadcastInDim IsReal _ _ _ (real_v100 x12 h12)

theorem real_v102 (x0 : (⟨Cert.ReferenceIdeal.S100000x256, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal)) (x3 : (⟨Cert.ReferenceIdeal.S256x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal)) (x9 : (⟨Cert.ReferenceIdeal.S128x32, .f32⟩ : BufTy).Contents (Elt Ideal)) (x10 : (⟨Cert.ReferenceIdeal.S32, .f32⟩ : BufTy).Contents (Elt Ideal)) (x11 : (⟨Cert.ReferenceIdeal.S32x2, .f32⟩ : BufTy).Contents (Elt Ideal)) (x12 : (⟨Cert.ReferenceIdeal.S2, .f32⟩ : BufTy).Contents (Elt Ideal))
    (h0 : ∀ i, IsReal (x0 i)) (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v102 (F := Ideal) x0 x1 x2 x3 x4 x5 x6 x7 x8 x9 x10 x11 x12 i) := by
  unfold val_main_v102
  exact real_addf _ _ (real_v99 x0 x1 x2 x3 x4 x5 x6 x7 x8 x9 x10 x11 h0 h3 h4 h5 h6 h7 h8 h9 h10 h11) (real_v101 x12 h12)

/-- THE LOGITS ARE REAL: every entry of the head's output, the array the log-softmax is taken of. -/
theorem logits_real
    (x0 : (⟨Cert.ReferenceIdeal.S100000x256, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal))
    (x3 : (⟨Cert.ReferenceIdeal.S256x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal))
    (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal))
    (x9 : (⟨Cert.ReferenceIdeal.S128x32, .f32⟩ : BufTy).Contents (Elt Ideal)) (x10 : (⟨Cert.ReferenceIdeal.S32, .f32⟩ : BufTy).Contents (Elt Ideal)) (x11 : (⟨Cert.ReferenceIdeal.S32x2, .f32⟩ : BufTy).Contents (Elt Ideal)) (x12 : (⟨Cert.ReferenceIdeal.S2, .f32⟩ : BufTy).Contents (Elt Ideal))
    (h0 : ∀ i, Cert.GcnLaw.IsReal (x0 i)) (h3 : ∀ i, Cert.GcnLaw.IsReal (x3 i)) (h4 : ∀ i, Cert.GcnLaw.IsReal (x4 i)) (h5 : ∀ i, Cert.GcnLaw.IsReal (x5 i)) (h6 : ∀ i, Cert.GcnLaw.IsReal (x6 i))
    (h7 : ∀ i, Cert.GcnLaw.IsReal (x7 i)) (h8 : ∀ i, Cert.GcnLaw.IsReal (x8 i)) (h9 : ∀ i, Cert.GcnLaw.IsReal (x9 i)) (h10 : ∀ i, Cert.GcnLaw.IsReal (x10 i)) (h11 : ∀ i, Cert.GcnLaw.IsReal (x11 i)) (h12 : ∀ i, Cert.GcnLaw.IsReal (x12 i)) :
    ∀ i, Cert.GcnLaw.IsReal (Cert.ReferenceIdeal.ReadP.val_main_v102 (F := Ideal) x0 x1 x2 x3 x4 x5 x6 x7 x8 x9 x10 x11 x12 i) :=
  real_v102 x0 x1 x2 x3 x4 x5 x6 x7 x8 x9 x10 x11 x12 h0 h3 h4 h5 h6 h7 h8 h9 h10 h11 h12

end Cert.Gnn
-- ==== Proof.Finite.lean ====
/-
  The precondition "every float input is finite", read back: every entry of each float input is a real number.

  The printed predicate is a conjunction, one conjunct per float input, of `all (|x| < +∞)`: a reduction by `and`, from 1,
  of the elementwise comparison of `max x (−x)` against the pattern of `+∞`. A reduction by `and` into a single result that
  is 1 had a 1 at every element; and on the extended reals `max x (−x) < ⊤` excludes `x = ⊤` and `x = ⊥`, leaving a real.
-/
import proofs.«123561_j14474039788040_1_alg».proof.Pre_finite_inputs
import proofs.«123561_j14474039788040_1_alg».proof.Proof.LibGcnLayer
import Idealize.ShloMosaic.Lib.ReduceAll
import Idealize.ShloMosaic.Lib.ValueIdx
import Idealize.ShloMosaic.PureOps.Ideal.Laws

noncomputable section

namespace Cert.Gnn

open Idealize.ShloMosaic Cert.GcnLaw

/-- On one value: `|x| < +∞`, as the comparison prints, says that the value is a real. -/
theorem isReal_of_abs_lt_inf (x : Ideal .f32)
    (h : FloatOps.cmpf .olt (FloatOps.hostAbsf x) (FloatOps.ofBits (F := Ideal) .f32 0x7F800000#32) = 1#1) : IsReal x := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

/-- `all (|x| < +∞) = 1` over an array of any shape: every entry is a real. The bound is a scalar constant broadcast
    to the array's shape, the reduction runs over all axes into a result with a single index. -/
theorem real_of_all_finite {s t u z : Shape} {axes : List (Fin s.rank)} [Subsingleton t.Idx]
    (x : FVec Ideal s .f32) (dims : Fin z.rank → Fin s.rank) (hb : z.BroadcastsInDim s dims)
    (init : IVec u 1) (h : s.ReducesTo axes t) (hu : 0 < u.numel) (j : t.Idx)
    (e : Host.reduce IntOp.andi
        (cmpf .olt (Host.absf x) (broadcastInDim s dims hb (constant (F := Ideal) z .f32 0x7F800000#32))) init h hu j = 1#1) :
    ∀ i, IsReal (x i) := fun i =>
  isReal_of_abs_lt_inf (x i) (Host.reduce_andi_all _ init h hu j e i)

open Cert.Pre_finite_inputs in
/-- The printed precondition, at the extended reals, gives real entries in each of the eleven float inputs. -/
theorem inputs_real [Cert.Pre_finite_inputs.Facts]
    (a0 : FVec Ideal S100000x256 .f32) (a1 : IVec S2x1600000 32) (a2 : IVec S100000 32) (a3 : FVec Ideal S256x128 .f32)
    (a4 : FVec Ideal S128 .f32) (a5 : FVec Ideal S128x128 .f32) (a6 : FVec Ideal S128 .f32) (a7 : FVec Ideal S128x128 .f32)
    (a8 : FVec Ideal S128 .f32) (a9 : FVec Ideal S128x32 .f32) (a10 : FVec Ideal S32 .f32) (a11 : FVec Ideal S32x2 .f32)
    (a12 : FVec Ideal S2 .f32)
    (h : Cert.Pre_finite_inputs.fn (F := Ideal) a0 a1 a2 a3 a4 a5 a6 a7 a8 a9 a10 a11 a12 = fun _ => 1#1) :
    (∀ i, Cert.GcnLaw.IsReal (a0 i)) ∧ (∀ i, Cert.GcnLaw.IsReal (a3 i)) ∧ (∀ i, Cert.GcnLaw.IsReal (a4 i))
      ∧ (∀ i, Cert.GcnLaw.IsReal (a5 i)) ∧ (∀ i, Cert.GcnLaw.IsReal (a6 i)) ∧ (∀ i, Cert.GcnLaw.IsReal (a7 i))
      ∧ (∀ i, Cert.GcnLaw.IsReal (a8 i)) ∧ (∀ i, Cert.GcnLaw.IsReal (a9 i)) ∧ (∀ i, Cert.GcnLaw.IsReal (a10 i))
      ∧ (∀ i, Cert.GcnLaw.IsReal (a11 i)) ∧ (∀ i, Cert.GcnLaw.IsReal (a12 i)) := by
  haveI : Subsingleton S_.Idx := ⟨fun a b => funext fun d => d.elim0⟩
  have h0 := congrFun h ValueIdx.ix0
  dsimp only [Cert.Pre_finite_inputs.fn, fn_part1, fn_part2, fn_part3, andi] at h0
  simp only [IntOp.andi_eq_one] at h0
  obtain ⟨⟨⟨⟨⟨⟨⟨⟨⟨⟨e0, e3⟩, e4⟩, e5⟩, e6⟩, e7⟩, e8⟩, e9⟩, e10⟩, e11⟩, e12⟩ := h0
  exact ⟨real_of_all_finite a0 _ _ _ _ _ _ e0, real_of_all_finite a3 _ _ _ _ _ _ e3,
    real_of_all_finite a4 _ _ _ _ _ _ e4, real_of_all_finite a5 _ _ _ _ _ _ e5, real_of_all_finite a6 _ _ _ _ _ _ e6,
    real_of_all_finite a7 _ _ _ _ _ _ e7, real_of_all_finite a8 _ _ _ _ _ _ e8, real_of_all_finite a9 _ _ _ _ _ _ e9,
    real_of_all_finite a10 _ _ _ _ _ _ e10, real_of_all_finite a11 _ _ _ _ _ _ e11,
    real_of_all_finite a12 _ _ _ _ _ _ e12⟩

end Cert.Gnn

end
-- ==== Proof.lean ====
/-
  A graph network of three convolution layers, a mean pooling and a small head, as a kernel program of five pallas_calls
  against its plain reference: the two compute equal results on the extended reals when every float input is finite.

  Both programs prepare the same edge lists, degrees and edge weights with the same host operations. In each layer the
  reference multiplies the node features by a weight matrix on the host, gathers the rows at the edges' sources, scales
  them by the edge weights, adds them up at the targets, adds the bias and clips at zero. The kernel program does the
  matrix products, the bias and the clipping in pallas_call regions, tiled over blocks of 10000 nodes, and the irregular
  gather and scatter between the regions with the very host operations of the reference. Block by block each region's
  output array is the reference's stage: a product accumulated from zero over a block of rows is the rows' part of the
  whole product, formats make no difference at the ideal values, and the pointwise bias and clipping commute with taking
  a block. After the pooling, shared again, the head's two products are the reference's, and the two programs take the
  log-softmax of the same logits in two ways: the kernel subtracts max + log(sum exp) in one piece, the reference
  subtracts the max first and the logarithm afterwards. These agree because the logits are real numbers: every stage is a
  finite sum of products of real numbers — the inverse square root is taken of a positive degree only, and the pooled sums
  are divided by a count that is at least one — and that is where the finiteness of the inputs is used.

  The three frames: the two kernel programs' by their generated frame certificates, the reference's by its run. The
  idealization rewrote nothing, so nothing is owed for it.
-/
import proofs.«123561_j14474039788040_1_alg».proof.Defs
import proofs.«123561_j14474039788040_1_alg».proof.Proof.Gen.Kernel
import proofs.«123561_j14474039788040_1_alg».proof.Proof.Gen.Kernel.Skeleton
import proofs.«123561_j14474039788040_1_alg».proof.Proof.Gen.Kernel.Launch
import proofs.«123561_j14474039788040_1_alg».proof.Proof.Gen.Kernel.Points
import proofs.«123561_j14474039788040_1_alg».proof.Proof.Gen.Kernel.Frame
import proofs.«123561_j14474039788040_1_alg».proof.Proof.Gen.KernelIdeal
import proofs.«123561_j14474039788040_1_alg».proof.Proof.Gen.KernelIdeal.Skeleton
import proofs.«123561_j14474039788040_1_alg».proof.Proof.Gen.KernelIdeal.Launch
import proofs.«123561_j14474039788040_1_alg».proof.Proof.Gen.KernelIdeal.Points
import proofs.«123561_j14474039788040_1_alg».proof.Proof.Gen.KernelIdeal.Frame
import proofs.«123561_j14474039788040_1_alg».proof.Proof.Gen.ReferenceIdeal
import proofs.«123561_j14474039788040_1_alg».proof.Proof.Gen.Pre_finite_inputs
import proofs.«123561_j14474039788040_1_alg».proof.Proof.RunMain
import proofs.«123561_j14474039788040_1_alg».proof.Proof.Chain
import proofs.«123561_j14474039788040_1_alg».proof.Proof.RefRun
import proofs.«123561_j14474039788040_1_alg».proof.Proof.RefRead
import proofs.«123561_j14474039788040_1_alg».proof.Proof.HeadLaw
import proofs.«123561_j14474039788040_1_alg».proof.Proof.Reality
import proofs.«123561_j14474039788040_1_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end at the joined log-softmax of the reference's logits stage at the kernel's arguments: the kernel
    program by its fold, the reference by its run, the agreement of the arguments, and the law that joins the two ways of
    taking the log-softmax of real logits. -/
theorem algebraic : Cert.algebraic_KernelIdeal_ReferenceIdeal := by
  intro m ρ m' ρ' hpre hagree
  refine ⟨fun c => Cert.Gnn.lseJoined (Cert.ReferenceIdeal.ReadP.val_main_v102 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))), ?_, ?_⟩
  · exact (θ_run Cert.KernelIdeal.defs _ _).mono
      (fun r h c => ⟨(h c).1.trans (Cert.KernelIdeal.RunValue.result_eq m ρ c), (h c).2⟩)
      (Cert.KernelIdeal.RunValue.run_main (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v103_eq, Cert.Gnn.ref_tail,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
    obtain ⟨h0, h3, h4, h5, h6, h7, h8, h9, h10, h11, h12⟩ := Cert.Gnn.inputs_real _ _ _ _ _ _ _ _ _ _ _ _ _ (hpre c)
    exact (Cert.Gnn.head_law _ (Cert.Gnn.logits_real _ _ _ _ _ _ _ _ _ _ _ _ _ h0 h3 h4 h5 h6 h7 h8 h9 h10 h11 h12)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
